-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v76)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v76) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v139) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S13x8 : Shape := ⟨2, ![13, 8]⟩
abbrev S128x512 : Shape := ⟨2, ![128, 512]⟩
abbrev S512 : Shape := ⟨1, ![512]⟩
abbrev S512x128 : Shape := ⟨2, ![512, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S13x8 : S_.BroadcastsInDim S13x8 (![] : Fin 0 → Fin S13x8.rank)
  reducesTo_S13x8_S_d0_1 : S13x8.ReducesTo [0, 1] S_
  bcast_S_S128x512 : S_.BroadcastsInDim S128x512 (![] : Fin 0 → Fin S128x512.rank)
  reducesTo_S128x512_S_d0_1 : S128x512.ReducesTo [0, 1] S_
  bcast_S_S512 : S_.BroadcastsInDim S512 (![] : Fin 0 → Fin S512.rank)
  reducesTo_S512_S_d0 : S512.ReducesTo [0] S_
  bcast_S_S512x128 : S_.BroadcastsInDim S512x128 (![] : Fin 0 → Fin S512x128.rank)
  reducesTo_S512x128_S_d0_1 : S512x128.ReducesTo [0, 1] S_

variable [Facts]

def fn_part5 {F : FTy → Type} [FloatOps F] (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  main_v88

def fn_part4 {F : FTy → Type} [FloatOps F] (main_arg16 : FVec F S128 .f32) (main_arg17 : FVec F S128 .f32) (main_arg18 : FVec F S128 .f32) (main_arg19 : FVec F S128 .f32) (main_v63 : IVec S_ 1) (main_v67 : IVec S_ 1) : IVec S_ 1 :=
  let main_v68 : IVec S_ 1 := andi main_v63 main_v67
  let main_v69 : FVec F S128 .f32 := Host.absf main_arg16
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128 .f32 := Host.absf main_arg17
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128 .f32 := Host.absf main_arg18
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S128 .f32 := Host.absf main_arg19
  let main_cst_32 : FVec F S_ .f32 := constant S_ .f32 0x7F800000#32
  fn_part5 (F := F) main_v83 main_v84 main_cst_32

def fn_part3 {F : FTy → Type} [FloatOps F] (main_arg13 : FVec F S512 .f32) (main_arg14 : FVec F S512x128 .f32) (main_arg15 : FVec F S128 .f32) (main_arg16 : FVec F S128 .f32) (main_arg17 : FVec F S128 .f32) (main_arg18 : FVec F S128 .f32) (main_arg19 : FVec F S128 .f32) (main_v48 : IVec S_ 1) (main_v49 : FVec F S128x512 .f32) (main_v50 : FVec F S128x512 .f32) : IVec S_ 1 :=
  let main_v51 : IVec S128x512 1 := cmpf .olt main_v49 main_v50
  let main_c_19 : IVec S_ 1 := constantI S_ 1 1#1
  let main_v52 : IVec S_ 1 := (fun x v => Host.reduce IntOp.andi x v reducesTo_S128x512_S_d0_1 h_S_) main_v51 main_c_19
  let main_v53 : IVec S_ 1 := andi main_v48 main_v52
  let main_v54 : FVec F S512 .f32 := Host.absf main_arg13
  let main_cst_20 : FVec F S_ .f32 := constant S_ .f32 0x7F800000#32
  let main_v55 : FVec F S512 .f32 := broadcastInDim S512 ![] bcast_S_S512 main_cst_20
  let main_v56 : IVec S512 1 := cmpf .olt main_v54 main_v55
  let main_c_21 : IVec S_ 1 := constantI S_ 1 1#1
  let main_v57 : IVec S_ 1 := (fun x v => Host.reduce IntOp.andi x v reducesTo_S512_S_d0 h_S_) main_v56 main_c_21
  let main_v58 : IVec S_ 1 := andi main_v53 main_v57
  let main_v59 : FVec F S512x128 .f32 := Host.absf main_arg14
  let main_cst_22 : FVec F S_ .f32 := constant S_ .f32 0x7F800000#32
  let main_v60 : FVec F S512x128 .f32 := broadcastInDim S512x128 ![] bcast_S_S512x128 main_cst_22
  let main_v61 : IVec S512x128 1 := cmpf .olt main_v59 main_v60
  let main_c_23 : IVec S_ 1 := constantI S_ 1 1#1
  let main_v62 : IVec S_ 1 := (fun x v => Host.reduce IntOp.andi x v reducesTo_S512x128_S_d0_1 h_S_) main_v61 main_c_23
  let main_v63 : IVec S_ 1 := andi main_v58 main_v62
  let main_v64 : FVec F S128 .f32 := Host.absf main_arg15
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg16 main_arg17 main_arg18 main_arg19 main_v63 main_v67

def fn_part2 {F : FTy → Type} [FloatOps F] (main_arg9 : FVec F S128x128 .f32) (main_arg10 : FVec F S128 .f32) (main_arg11 : FVec F S13x8 .f32) (main_arg12 : FVec F S128x512 .f32) (main_arg13 : FVec F S512 .f32) (main_arg14 : FVec F S512x128 .f32) (main_arg15 : FVec F S128 .f32) (main_arg16 : FVec F S128 .f32) (main_arg17 : FVec F S128 .f32) (main_arg18 : FVec F S128 .f32) (main_arg19 : FVec F S128 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S13x8 .f32 := Host.absf main_arg11
  let main_cst_16 : FVec F S_ .f32 := constant S_ .f32 0x7F800000#32
  let main_v45 : FVec F S13x8 .f32 := broadcastInDim S13x8 ![] bcast_S_S13x8 main_cst_16
  let main_v46 : IVec S13x8 1 := cmpf .olt main_v44 main_v45
  let main_c_17 : IVec S_ 1 := constantI S_ 1 1#1
  let main_v47 : IVec S_ 1 := (fun x v => Host.reduce IntOp.andi x v reducesTo_S13x8_S_d0_1 h_S_) main_v46 main_c_17
  let main_v48 : IVec S_ 1 := andi main_v43 main_v47
  let main_v49 : FVec F S128x512 .f32 := Host.absf main_arg12
  let main_cst_18 : FVec F S_ .f32 := constant S_ .f32 0x7F800000#32
  let main_v50 : FVec F S128x512 .f32 := broadcastInDim S128x512 ![] bcast_S_S128x512 main_cst_18
  fn_part3 (F := F) main_arg13 main_arg14 main_arg15 main_arg16 main_arg17 main_arg18 main_arg19 main_v48 main_v49 main_v50

def fn_part1 {F : FTy → Type} [FloatOps F] (main_arg6 : FVec F S128 .f32) (main_arg7 : FVec F S128x128 .f32) (main_arg8 : FVec F S128 .f32) (main_arg9 : FVec F S128x128 .f32) (main_arg10 : FVec F S128 .f32) (main_arg11 : FVec F S13x8 .f32) (main_arg12 : FVec F S128x512 .f32) (main_arg13 : FVec F S512 .f32) (main_arg14 : FVec F S512x128 .f32) (main_arg15 : FVec F S128 .f32) (main_arg16 : FVec F S128 .f32) (main_arg17 : FVec F S128 .f32) (main_arg18 : FVec F S128 .f32) (main_arg19 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_v33

def fn {F : FTy → Type} [FloatOps F] (main_arg0 : FVec F S50000x128 .f32) (main_arg1 : IVec S2x1600000 32) (main_arg2 : IVec S1600000 32) (main_arg3 : FVec F S128x128 .f32) (main_arg4 : FVec F S128 .f32) (main_arg5 : FVec F S128x128 .f32) (main_arg6 : FVec F S128 .f32) (main_arg7 : FVec F S128x128 .f32) (main_arg8 : FVec F S128 .f32) (main_arg9 : FVec F S128x128 .f32) (main_arg10 : FVec F S128 .f32) (main_arg11 : FVec F S13x8 .f32) (main_arg12 : FVec F S128x512 .f32) (main_arg13 : FVec F S512 .f32) (main_arg14 : FVec F S512x128 .f32) (main_arg15 : FVec F S128 .f32) (main_arg16 : FVec F S128 .f32) (main_arg17 : FVec F S128 .f32) (main_arg18 : FVec F S128 .f32) (main_arg19 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_arg11 main_arg12 main_arg13 main_arg14 main_arg15 main_arg16 main_arg17 main_arg18 main_arg19 main_v13 main_v16
-- ==== Kernel.lean ====
abbrev S50000x128 : Shape := ⟨2, ![50000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S13x8 : Shape := ⟨2, ![13, 8]⟩
abbrev S128x512 : Shape := ⟨2, ![128, 512]⟩
abbrev S512 : Shape := ⟨1, ![512]⟩
abbrev S512x128 : Shape := ⟨2, ![512, 128]⟩
abbrev S1x128 : Shape := ⟨2, ![1, 128]⟩
abbrev S2000x128 : Shape := ⟨2, ![2000, 128]⟩
abbrev S2000 : Shape := ⟨1, ![2000]⟩
abbrev S2000x1 : Shape := ⟨2, ![2000, 1]⟩
abbrev S1x1600000 : Shape := ⟨2, ![1, 1600000]⟩
abbrev S_ : Shape := ⟨0, ![]⟩
abbrev S1600000x1 : Shape := ⟨2, ![1600000, 1]⟩
abbrev S1600000x128 : Shape := ⟨2, ![1600000, 128]⟩
abbrev S1600000x8x16 : Shape := ⟨3, ![1600000, 8, 16]⟩
abbrev S1600000x8 : Shape := ⟨2, ![1600000, 8]⟩
abbrev S50000x8 : Shape := ⟨2, ![50000, 8]⟩
abbrev S1600000x8x1 : Shape := ⟨3, ![1600000, 8, 1]⟩
abbrev S50000x8x16 : Shape := ⟨3, ![50000, 8, 16]⟩
abbrev S1x512 : Shape := ⟨2, ![1, 512]⟩
abbrev S2000x512 : Shape := ⟨2, ![2000, 512]⟩

abbrev nBuf : Space → Nat
  | .hbm => 122
  | .vmem => 30
  | .smem => 0
  | _ => 0

abbrev bufTy : (tb : Table) → Fin (tcTables nBuf tb) → BufTy
  | .hbm, ⟨0, _⟩ => ⟨S50000x128, .f32⟩
  | .hbm, ⟨1, _⟩ => ⟨S2x1600000, .i32⟩
  | .hbm, ⟨2, _⟩ => ⟨S1600000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S13x8, .f32⟩
  | .hbm, ⟨12, _⟩ => ⟨S128x512, .f32⟩
  | .hbm, ⟨13, _⟩ => ⟨S512, .f32⟩
  | .hbm, ⟨14, _⟩ => ⟨S512x128, .f32⟩
  | .hbm, ⟨15, _⟩ => ⟨S128, .f32⟩
  | .hbm, ⟨16, _⟩ => ⟨S128, .f32⟩
  | .hbm, ⟨17, _⟩ => ⟨S128, .f32⟩
  | .hbm, ⟨18, _⟩ => ⟨S128, .f32⟩
  | .hbm, ⟨19, _⟩ => ⟨S128, .f32⟩
  | .hbm, ⟨20, _⟩ => ⟨S1x128, .f32⟩
  | .hbm, ⟨21, _⟩ => ⟨S1x128, .f32⟩
  | .hbm, ⟨22, _⟩ => ⟨S1x128, .f32⟩
  | .hbm, ⟨23, _⟩ => ⟨S1x128, .f32⟩
  | .hbm, ⟨24, _⟩ => ⟨S1x128, .f32⟩
  | .hbm, ⟨25, _⟩ => ⟨S50000x128, .f32⟩
  | .hbm, ⟨26, _⟩ => ⟨S50000x128, .f32⟩
  | .hbm, ⟨27, _⟩ => ⟨S50000x128, .f32⟩
  | .hbm, ⟨28, _⟩ => ⟨S1x1600000, .i32⟩
  | .hbm, ⟨29, _⟩ => ⟨S1600000, .i32⟩
  | .hbm, ⟨30, _⟩ => ⟨S1x1600000, .i32⟩
  | .hbm, ⟨31, _⟩ => ⟨S1600000, .i32⟩
  | .hbm, ⟨32, _⟩ => ⟨S_, .i32⟩
  | .hbm, ⟨33, _⟩ => ⟨S_, .i32⟩
  | .hbm, ⟨34, _⟩ => ⟨S_, .i32⟩
  | .hbm, ⟨35, _⟩ => ⟨S1600000, .i32⟩
  | .hbm, ⟨36, _⟩ => ⟨S1600000, .i32⟩
  | .hbm, ⟨37, _⟩ => ⟨S_, .i32⟩
  | .hbm, ⟨38, _⟩ => ⟨S1600000, .i32⟩
  | .hbm, ⟨39, _⟩ => ⟨S1600000, .i32⟩
  | .hbm, ⟨40, _⟩ => ⟨S_, .i32⟩
  | .hbm, ⟨41, _⟩ => ⟨S1600000, .i32⟩
  | .hbm, ⟨42, _⟩ => ⟨S1600000, .i1⟩
  | .hbm, ⟨43, _⟩ => ⟨S_, .i32⟩
  | .hbm, ⟨44, _⟩ => ⟨S1600000, .i32⟩
  | .hbm, ⟨45, _⟩ => ⟨S1600000, .i32⟩
  | .hbm, ⟨46, _⟩ => ⟨S1600000, .i32⟩
  | .hbm, ⟨47, _⟩ => ⟨S1600000x1, .i32⟩
  | .hbm, ⟨48, _⟩ => ⟨S1600000x128, .f32⟩
  | .hbm, ⟨49, _⟩ => ⟨S1600000x8x16, .f32⟩
  | .hbm, ⟨50, _⟩ => ⟨S_, .i32⟩
  | .hbm, ⟨51, _⟩ => ⟨S1600000, .i32⟩
  | .hbm, ⟨52, _⟩ => ⟨S1600000, .i1⟩
  | .hbm, ⟨53, _⟩ => ⟨S_, .i32⟩
  | .hbm, ⟨54, _⟩ => ⟨S1600000, .i32⟩
  | .hbm, ⟨55, _⟩ => ⟨S1600000, .i32⟩
  | .hbm, ⟨56, _⟩ => ⟨S1600000, .i32⟩
  | .hbm, ⟨57, _⟩ => ⟨S1600000x1, .i32⟩
  | .hbm, ⟨58, _⟩ => ⟨S1600000x128, .f32⟩
  | .hbm, ⟨59, _⟩ => ⟨S1600000x8x16, .f32⟩
  | .hbm, ⟨60, _⟩ => ⟨S_, .i32⟩
  | .hbm, ⟨61, _⟩ => ⟨S1600000, .i32⟩
  | .hbm, ⟨62, _⟩ => ⟨S1600000, .i1⟩
  | .hbm, ⟨63, _⟩ => ⟨S_, .i32⟩
  | .hbm, ⟨64, _⟩ => ⟨S1600000, .i32⟩
  | .hbm, ⟨65, _⟩ => ⟨S1600000, .i32⟩
  | .hbm, ⟨66, _⟩ => ⟨S1600000, .i32⟩
  | .hbm, ⟨67, _⟩ => ⟨S1600000x1, .i32⟩
  | .hbm, ⟨68, _⟩ => ⟨S1600000x128, .f32⟩
  | .hbm, ⟨69, _⟩ => ⟨S1600000x8x16, .f32⟩
  | .hbm, ⟨70, _⟩ => ⟨S1600000x8x16, .f32⟩
  | .hbm, ⟨71, _⟩ => ⟨S_, .f32⟩
  | .hbm, ⟨72, _⟩ => ⟨S1600000x8, .f32⟩
  | .hbm, ⟨73, _⟩ => ⟨S_, .f32⟩
  | .hbm, ⟨74, _⟩ => ⟨S1600000x8, .f32⟩
  | .hbm, ⟨75, _⟩ => ⟨S1600000x8, .f32⟩
  | .hbm, ⟨76, _⟩ => ⟨S_, .i32⟩
  | .hbm, ⟨77, _⟩ => ⟨S1600000, .i32⟩
  | .hbm, ⟨78, _⟩ => ⟨S1600000, .i1⟩
  | .hbm, ⟨79, _⟩ => ⟨S_, .i32⟩
  | .hbm, ⟨80, _⟩ => ⟨S1600000, .i32⟩
  | .hbm, ⟨81, _⟩ => ⟨S1600000, .i32⟩
  | .hbm, ⟨82, _⟩ => ⟨S1600000, .i32⟩
  | .hbm, ⟨83, _⟩ => ⟨S1600000x1, .i32⟩
  | .hbm, ⟨84, _⟩ => ⟨S1600000x8, .f32⟩
  | .hbm, ⟨85, _⟩ => ⟨S1600000x8, .f32⟩
  | .hbm, ⟨86, _⟩ => ⟨S_, .f32⟩
  | .hbm, ⟨87, _⟩ => ⟨S_, .f32⟩
  | .hbm, ⟨88, _⟩ => ⟨S1600000x8, .f32⟩
  | .hbm, ⟨89, _⟩ => ⟨S1600000x8, .f32⟩
  | .hbm, ⟨90, _⟩ => ⟨S1600000x8, .f32⟩
  | .hbm, ⟨91, _⟩ => ⟨S_, .f32⟩
  | .hbm, ⟨92, _⟩ => ⟨S50000x8, .f32⟩
  | .hbm, ⟨93, _⟩ => ⟨S1600000x1, .i32⟩
  | .hbm, ⟨94, _⟩ => ⟨S50000x8, .f32⟩
  | .hbm, ⟨95, _⟩ => ⟨S_, .i32⟩
  | .hbm, ⟨96, _⟩ => ⟨S1600000, .i32⟩
  | .hbm, ⟨97, _⟩ => ⟨S1600000, .i1⟩
  | .hbm, ⟨98, _⟩ => ⟨S_, .i32⟩
  | .hbm, ⟨99, _⟩ => ⟨S1600000, .i32⟩
  | .hbm, ⟨100, _⟩ => ⟨S1600000, .i32⟩
  | .hbm, ⟨101, _⟩ => ⟨S1600000, .i32⟩
  | .hbm, ⟨102, _⟩ => ⟨S1600000x1, .i32⟩
  | .hbm, ⟨103, _⟩ => ⟨S1600000x8, .f32⟩
  | .hbm, ⟨104, _⟩ => ⟨S_, .f32⟩
  | .hbm, ⟨105, _⟩ => ⟨S1600000x8, .f32⟩
  | .hbm, ⟨106, _⟩ => ⟨S1600000x8, .f32⟩
  | .hbm, ⟨107, _⟩ => ⟨S1600000x8, .f32⟩
  | .hbm, ⟨108, _⟩ => ⟨S1600000x8x1, .f32⟩
  | .hbm, ⟨109, _⟩ => ⟨S1600000x8x16, .f32⟩
  | .hbm, ⟨110, _⟩ => ⟨S1600000x8x16, .f32⟩
  | .hbm, ⟨111, _⟩ => ⟨S_, .f32⟩
  | .hbm, ⟨112, _⟩ => ⟨S50000x8x16, .f32⟩
  | .hbm, ⟨113, _⟩ => ⟨S1600000x1, .i32⟩
  | .hbm, ⟨114, _⟩ => ⟨S50000x8x16, .f32⟩
  | .hbm, ⟨115, _⟩ => ⟨S50000x128, .f32⟩
  | .hbm, ⟨116, _⟩ => ⟨S1x128, .f32⟩
  | .hbm, ⟨117, _⟩ => ⟨S1x128, .f32⟩
  | .hbm, ⟨118, _⟩ => ⟨S1x128, .f32⟩
  | .hbm, ⟨119, _⟩ => ⟨S1x512, .f32⟩
  | .hbm, ⟨120, _⟩ => ⟨S1x128, .f32⟩
  | .hbm, ⟨121, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S1x128, .f32⟩
  | .local _ .vmem, ⟨3, _⟩ => ⟨S1x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S128x128, .f32⟩
  | .local _ .vmem, ⟨9, _⟩ => ⟨S1x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S128x128, .f32⟩
  | .local _ .vmem, ⟨21, _⟩ => ⟨S1x128, .f32⟩
  | .local _ .vmem, ⟨22, _⟩ => ⟨S1x128, .f32⟩
  | .local _ .vmem, ⟨23, _⟩ => ⟨S1x128, .f32⟩
  | .local _ .vmem, ⟨24, _⟩ => ⟨S128x512, .f32⟩
  | .local _ .vmem, ⟨25, _⟩ => ⟨S1x512, .f32⟩
  | .local _ .vmem, ⟨26, _⟩ => ⟨S512x128, .f32⟩
  | .local _ .vmem, ⟨27, _⟩ => ⟨S1x128, .f32⟩
  | .local _ .vmem, ⟨28, _⟩ => ⟨S2000x128, .f32⟩
  | .local _ .vmem, ⟨29, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5_0 : Ref sig .tc := ⟨.hbm, 25, rfl⟩
abbrev main_v5_1 : Ref sig .tc := ⟨.hbm, 26, rfl⟩
abbrev main_v5_2 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_c : Ref sig .tc := ⟨.hbm, 32, rfl⟩
abbrev main_c_0 : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_call0_v3 : Ref sig .tc := ⟨.hbm, 37, rfl⟩
abbrev main_call0_v4 : Ref sig .tc := ⟨.hbm, 38, rfl⟩
abbrev main_v10 : Ref sig .tc := ⟨.hbm, 39, rfl⟩
abbrev main_c_1 : Ref sig .tc := ⟨.hbm, 40, rfl⟩
abbrev main_v11 : Ref sig .tc := ⟨.hbm, 41, rfl⟩
abbrev main_v12 : Ref sig .tc := ⟨.hbm, 42, rfl⟩
abbrev main_c_2 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_c_3 : Ref sig .tc := ⟨.hbm, 50, rfl⟩
abbrev main_v19 : Ref sig .tc := ⟨.hbm, 51, rfl⟩
abbrev main_v20 : Ref sig .tc := ⟨.hbm, 52, rfl⟩
abbrev main_c_4 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_c_5 : Ref sig .tc := ⟨.hbm, 60, rfl⟩
abbrev main_v27 : Ref sig .tc := ⟨.hbm, 61, rfl⟩
abbrev main_v28 : Ref sig .tc := ⟨.hbm, 62, rfl⟩
abbrev main_c_6 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_cst : Ref sig .tc := ⟨.hbm, 71, rfl⟩
abbrev main_v36 : Ref sig .tc := ⟨.hbm, 72, rfl⟩
abbrev main_cst_7 : Ref sig .tc := ⟨.hbm, 73, rfl⟩
abbrev main_v37 : Ref sig .tc := ⟨.hbm, 74, rfl⟩
abbrev main_v38 : Ref sig .tc := ⟨.hbm, 75, rfl⟩
abbrev main_c_8 : Ref sig .tc := ⟨.hbm, 76, rfl⟩
abbrev main_v39 : Ref sig .tc := ⟨.hbm, 77, rfl⟩
abbrev main_v40 : Ref sig .tc := ⟨.hbm, 78, rfl⟩
abbrev main_c_9 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_cst_10 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_cst_11 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_c_12 : Ref sig .tc := ⟨.hbm, 95, rfl⟩
abbrev main_v54 : Ref sig .tc := ⟨.hbm, 96, rfl⟩
abbrev main_v55 : Ref sig .tc := ⟨.hbm, 97, rfl⟩
abbrev main_c_13 : Ref sig .tc := ⟨.hbm, 98, rfl⟩
abbrev main_v56 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_cst_14 : Ref sig .tc := ⟨.hbm, 104, rfl⟩
abbrev main_v61 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩
abbrev main_v65 : Ref sig .tc := ⟨.hbm, 109, rfl⟩
abbrev main_v66 : Ref sig .tc := ⟨.hbm, 110, rfl⟩
abbrev main_cst_15 : Ref sig .tc := ⟨.hbm, 111, rfl⟩
abbrev main_v67 : Ref sig .tc := ⟨.hbm, 112, rfl⟩
abbrev main_v68 : Ref sig .tc := ⟨.hbm, 113, rfl⟩
abbrev main_v69 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg3_0 : Ref sig .tc := ⟨.vmem, 21, rfl⟩
abbrev cc1_stg4_0 : Ref sig .tc := ⟨.vmem, 22, rfl⟩
abbrev cc1_stg5_0 : Ref sig .tc := ⟨.vmem, 23, rfl⟩
abbrev cc1_stg6_0 : Ref sig .tc := ⟨.vmem, 24, rfl⟩
abbrev cc1_stg7_0 : Ref sig .tc := ⟨.vmem, 25, rfl⟩
abbrev cc1_stg8_0 : Ref sig .tc := ⟨.vmem, 26, rfl⟩
abbrev cc1_stg9_0 : Ref sig .tc := ⟨.vmem, 27, rfl⟩
abbrev cc1_stg10_0 : Ref sig .tc := ⟨.vmem, 28, rfl⟩
abbrev cc1_stg10_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc0_sem11_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem3_0 : DmaSem sig := 21
abbrev cc1_sem4_0 : DmaSem sig := 22
abbrev cc1_sem5_0 : DmaSem sig := 23
abbrev cc1_sem6_0 : DmaSem sig := 24
abbrev cc1_sem7_0 : DmaSem sig := 25
abbrev cc1_sem8_0 : DmaSem sig := 26
abbrev cc1_sem9_0 : DmaSem sig := 27
abbrev cc1_sem10_0 : DmaSem sig := 28
abbrev cc1_sem10_1 : DmaSem sig := 29

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S2000x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2000x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S2000x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x512 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x512 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S512x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S2000x128 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

class Facts₀ : Prop where
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  reduces_S2000x128_S2000 : S2000x128.Reduces [1] S2000
  shapeCasts_S2000_S2000x1 : S2000.ShapeCasts S2000x1
  broadcasts_S2000x1_S2000x128 : S2000x1.Broadcasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  shapeCasts_S1600000x128_S1600000x8x16 : S1600000x128.ShapeCasts S1600000x8x16
  reducesTo_S1600000x8x16_S1600000x8_d2 : S1600000x8x16.ReducesTo [2] S1600000x8
  h_S_ : 0 < S_.numel
  bcast_S_S1600000x8 : S_.BroadcastsInDim S1600000x8 (![] : Fin 0 → Fin S1600000x8.rank)
  reducesTo_S1600000x8_S_d0_1 : S1600000x8.ReducesTo [0, 1] S_
  bcast_S_S50000x8 : S_.BroadcastsInDim S50000x8 (![] : Fin 0 → Fin S50000x8.rank)
  bcast_S1600000x8_S1600000x8x1_0_1 : S1600000x8.BroadcastsInDim S1600000x8x1 (![0, 1] : Fin 2 → Fin S1600000x8x1.rank)
  bcast_S1600000x8x1_S1600000x8x16_0_1_2 : S1600000x8x1.BroadcastsInDim S1600000x8x16 (![0, 1, 2] : Fin 3 → Fin S1600000x8x16.rank)
  bcast_S_S50000x8x16 : S_.BroadcastsInDim S50000x8x16 (![] : Fin 0 → Fin S50000x8x16.rank)
  shapeCasts_S50000x8x16_S50000x128 : S50000x8x16.ShapeCasts S50000x128
  shapeCasts_S512_S1x512 : S512.ShapeCasts S1x512
  shapeCasts_S2000x128_S2000x128 : S2000x128.ShapeCasts S2000x128
  inb_S128x512_S128x512_0_0 : ∀ a, (![0, 0] : Fin 2 → Nat) a + S128x512.size a ≤ S128x512.size a
  h_S128x512 : 0 < S128x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2000x512 : S1x512.Broadcasts S2000x512
  inb_S512x128_S512x128_0_0 : ∀ a, (![0, 0] : Fin 2 → Nat) a + S512x128.size a ≤ S512x128.size a
  h_S512x128 : 0 < S512x128.numel
  dot_S2000x128_S128x128_S2000x128_1_0_0_1_n_n_wf : DotDims.WF S2000x128 S128x128 S2000x128 [1] [0] [0] [1] [] []
  gather_S50000x128_S1600000x1_S1600000x128_1_0_n_n_0_1_1128_wf : GatherDims.WF S50000x128 S1600000x1 S1600000x128 [1] [0] [] [0] [] 1 ![1, 128]
  gather_S13x8_S1600000x1_S1600000x8_1_0_n_n_0_1_18_wf : GatherDims.WF S13x8 S1600000x1 S1600000x8 [1] [0] [] [0] [] 1 ![1, 8]
  scatter_S50000x8_S1600000x1_S1600000x8_1_0_0_1_wf : ScatterDims.WF S50000x8 S1600000x1 S1600000x8 [1] [0] [0] 1
  gather_S50000x8_S1600000x1_S1600000x8_1_0_n_n_0_1_18_wf : GatherDims.WF S50000x8 S1600000x1 S1600000x8 [1] [0] [] [0] [] 1 ![1, 8]
  scatter_S50000x8x16_S1600000x1_S1600000x8x16_12_0_0_1_wf : ScatterDims.WF S50000x8x16 S1600000x1 S1600000x8x16 [1, 2] [0] [0] 1
  dot_S2000x128_S128x512_S2000x512_1_0_0_1_n_n_wf : DotDims.WF S2000x128 S128x512 S2000x512 [1] [0] [0] [1] [] []
  dot_S2000x512_S512x128_S2000x128_1_0_0_1_n_n_wf : DotDims.WF S2000x512 S512x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x128.size a ≤ S1x128.size a
  hwx0_1 : ∀ i : grid0.Coords, EltTy.bits .f32 = 32 ∨ (Rect.block (s := S1x128) S1x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2000x128.size a ≤ S50000x128.size a
  hwx0_9 : ∀ i : grid0.Coords, EltTy.bits .f32 = 32 ∨ (Rect.block (s := S50000x128) S2000x128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S2000x128.size a ≤ S50000x128.size a
  hwx0_10 : ∀ i : grid0.Coords, EltTy.bits .f32 = 32 ∨ (Rect.block (s := S50000x128) S2000x128.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S2000x128.size a ≤ S50000x128.size a
  hwx0_11 : ∀ i : grid0.Coords, EltTy.bits .f32 = 32 ∨ (Rect.block (s := S50000x128) S2000x128.size (cc0_transform_11 i) (hinb0_11 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x512.size a ≤ S128x512.size a
  hwx1_6 : ∀ i : grid1.Coords, EltTy.bits .f32 = 32 ∨ (Rect.block (s := S128x512) S128x512.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x512.size a ≤ S1x512.size a
  hwx1_7 : ∀ i : grid1.Coords, EltTy.bits .f32 = 32 ∨ (Rect.block (s := S1x512) S1x512.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S512x128.size a ≤ S512x128.size a
  hwx1_8 : ∀ i : grid1.Coords, EltTy.bits .f32 = 32 ∨ (Rect.block (s := S512x128) S512x128.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x128.size a ≤ S1x128.size a
  hwx1_9 : ∀ i : grid1.Coords, EltTy.bits .f32 = 32 ∨ (Rect.block (s := S1x128) S1x128.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S2000x128.size a ≤ S50000x128.size a
  hwx1_10 : ∀ i : grid1.Coords, EltTy.bits .f32 = 32 ∨ (Rect.block (s := S50000x128) S2000x128.size (cc1_transform_10 i) (hinb1_10 i)).WholeWords (EltTy.packing .f32)

variable [Facts₀]

def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def gather_S13x8_S1600000x1_S1600000x8_1_0_n_n_0_1_18 : GatherDims S13x8 S1600000x1 S1600000x8 where
  offsetDims := [1]
  collapsedSliceDims := [0]
  operandBatchingDims := []
  startIndicesBatchingDims := []
  startIndexMap := [0]
  indexVectorDim := 1
  sliceSizes := ![1, 8]
  wf := gather_S13x8_S1600000x1_S1600000x8_1_0_n_n_0_1_18_wf
def scatter_S50000x8_S1600000x1_S1600000x8_1_0_0_1 : ScatterDims S50000x8 S1600000x1 S1600000x8 where
  updateWindowDims := [1]
  insertedWindowDims := [0]
  scatterDimsToOperandDims := [0]
  indexVectorDim := 1
  wf := scatter_S50000x8_S1600000x1_S1600000x8_1_0_0_1_wf
def gather_S50000x8_S1600000x1_S1600000x8_1_0_n_n_0_1_18 : GatherDims S50000x8 S1600000x1 S1600000x8 where
  offsetDims := [1]
  collapsedSliceDims := [0]
  operandBatchingDims := []
  startIndicesBatchingDims := []
  startIndexMap := [0]
  indexVectorDim := 1
  sliceSizes := ![1, 8]
  wf := gather_S50000x8_S1600000x1_S1600000x8_1_0_n_n_0_1_18_wf
def scatter_S50000x8x16_S1600000x1_S1600000x8x16_12_0_0_1 : ScatterDims S50000x8x16 S1600000x1 S1600000x8x16 where
  updateWindowDims := [1, 2]
  insertedWindowDims := [0]
  scatterDimsToOperandDims := [0]
  indexVectorDim := 1
  wf := scatter_S50000x8x16_S1600000x1_S1600000x8x16_12_0_0_1_wf
def dot_S2000x128_S128x512_S2000x512_1_0_0_1_n_n : DotDims S2000x128 S128x512 S2000x512 where
  lhsContracting := [1]
  rhsContracting := [0]
  lhsNonContracting := [0]
  rhsNonContracting := [1]
  lhsBatch := []
  rhsBatch := []
  wf := dot_S2000x128_S128x512_S2000x512_1_0_0_1_n_n_wf
def dot_S2000x512_S512x128_S2000x128_1_0_0_1_n_n : DotDims S2000x512 S512x128 S2000x128 where
  lhsContracting := [1]
  rhsContracting := [0]
  lhsNonContracting := [0]
  rhsNonContracting := [1]
  lhsBatch := []
  rhsBatch := []
  wf := dot_S2000x512_S512x128_S2000x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v4) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v5_0) S2000x128.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v5_1) S2000x128.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v5_2) S2000x128.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev win1_0 : Pipeline.Window sig grid1 :=
  Pipeline.Window.ofSpec (Memref.whole main_v70) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg9) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v71) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v72) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v73) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg12) S128x512.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v74) S1x512.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg14) S512x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v75) S1x128.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v76) S2000x128.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S13x8 : Shape := ⟨2, ![13, 8]⟩
abbrev S128x512 : Shape := ⟨2, ![128, 512]⟩
abbrev S512 : Shape := ⟨1, ![512]⟩
abbrev S512x128 : Shape := ⟨2, ![512, 128]⟩
abbrev S_ : Shape := ⟨0, ![]⟩
abbrev S50000 : Shape := ⟨1, ![50000]⟩
abbrev S50000x1 : Shape := ⟨2, ![50000, 1]⟩
abbrev S1x128 : Shape := ⟨2, ![1, 128]⟩
abbrev S50000x8x16 : Shape := ⟨3, ![50000, 8, 16]⟩
abbrev S1x1600000 : Shape := ⟨2, ![1, 1600000]⟩
abbrev S1600000x1 : Shape := ⟨2, ![1600000, 1]⟩
abbrev S1600000x8x16 : Shape := ⟨3, ![1600000, 8, 16]⟩
abbrev S1600000x8 : Shape := ⟨2, ![1600000, 8]⟩
abbrev S50000x8 : Shape := ⟨2, ![50000, 8]⟩
abbrev S1600000x8x1 : Shape := ⟨3, ![1600000, 8, 1]⟩
abbrev S50000x512 : Shape := ⟨2, ![50000, 512]⟩
abbrev S1x512 : Shape := ⟨2, ![1, 512]⟩

abbrev nBuf : Space → Nat
  | .hbm => 195
  | .vmem => 0
  | .smem => 0
  | _ => 0

abbrev hbmTy0_0 (i : Nat) : BufTy := match i % 128 with
  | 0 => ⟨S50000x128, .f32⟩
  | 1 => ⟨S2x1600000, .i32⟩
  | 2 => ⟨S1600000, .i32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x128, .f32⟩
  | 10 => ⟨S128, .f32⟩
  | 11 => ⟨S13x8, .f32⟩
  | 12 => ⟨S128x512, .f32⟩
  | 13 => ⟨S512, .f32⟩
  | 14 => ⟨S512x128, .f32⟩
  | 15 => ⟨S128, .f32⟩
  | 16 => ⟨S128, .f32⟩
  | 17 => ⟨S128, .f32⟩
  | 18 => ⟨S128, .f32⟩
  | 19 => ⟨S128, .f32⟩
  | 20 => ⟨S_, .f32⟩
  | 21 => ⟨S50000, .f32⟩
  | 22 => ⟨S50000x1, .f32⟩
  | 23 => ⟨S_, .f32⟩
  | 24 => ⟨S50000x1, .f32⟩
  | 25 => ⟨S50000x1, .f32⟩
  | 26 => ⟨S50000x128, .f32⟩
  | 27 => ⟨S50000x128, .f32⟩
  | 28 => ⟨S50000x128, .f32⟩
  | 29 => ⟨S_, .f32⟩
  | 30 => ⟨S50000, .f32⟩
  | 31 => ⟨S50000x1, .f32⟩
  | 32 => ⟨S_, .f32⟩
  | 33 => ⟨S50000x1, .f32⟩
  | 34 => ⟨S50000x1, .f32⟩
  | 35 => ⟨S50000x128, .f32⟩
  | 36 => ⟨S50000x128, .f32⟩
  | 37 => ⟨S_, .f32⟩
  | 38 => ⟨S50000x1, .f32⟩
  | 39 => ⟨S50000x1, .f32⟩
  | 40 => ⟨S50000x1, .f32⟩
  | 41 => ⟨S50000x128, .f32⟩
  | 42 => ⟨S50000x128, .f32⟩
  | 43 => ⟨S1x128, .f32⟩
  | 44 => ⟨S50000x128, .f32⟩
  | 45 => ⟨S50000x128, .f32⟩
  | 46 => ⟨S1x128, .f32⟩
  | 47 => ⟨S50000x128, .f32⟩
  | 48 => ⟨S50000x128, .f32⟩
  | 49 => ⟨S50000x128, .f32⟩
  | 50 => ⟨S1x128, .f32⟩
  | 51 => ⟨S50000x128, .f32⟩
  | 52 => ⟨S50000x128, .f32⟩
  | 53 => ⟨S50000x8x16, .f32⟩
  | 54 => ⟨S50000x128, .f32⟩
  | 55 => ⟨S1x128, .f32⟩
  | 56 => ⟨S50000x128, .f32⟩
  | 57 => ⟨S50000x128, .f32⟩
  | 58 => ⟨S50000x8x16, .f32⟩
  | 59 => ⟨S50000x128, .f32⟩
  | 60 => ⟨S1x128, .f32⟩
  | 61 => ⟨S50000x128, .f32⟩
  | 62 => ⟨S50000x128, .f32⟩
  | 63 => ⟨S50000x8x16, .f32⟩
  | 64 => ⟨S1x1600000, .i32⟩
  | 65 => ⟨S1600000, .i32⟩
  | 66 => ⟨S1x1600000, .i32⟩
  | 67 => ⟨S1600000, .i32⟩
  | 68 => ⟨S_, .i32⟩
  | 69 => ⟨S1600000, .i32⟩
  | 70 => ⟨S1600000, .i1⟩
  | 71 => ⟨S_, .i32⟩
  | 72 => ⟨S1600000, .i32⟩
  | 73 => ⟨S1600000, .i32⟩
  | 74 => ⟨S1600000, .i32⟩
  | 75 => ⟨S1600000x1, .i32⟩
  | 76 => ⟨S1600000x8x16, .f32⟩
  | 77 => ⟨S_, .i32⟩
  | 78 => ⟨S1600000, .i32⟩
  | 79 => ⟨S1600000, .i1⟩
  | 80 => ⟨S_, .i32⟩
  | 81 => ⟨S1600000, .i32⟩
  | 82 => ⟨S1600000, .i32⟩
  | 83 => ⟨S1600000, .i32⟩
  | 84 => ⟨S1600000x1, .i32⟩
  | 85 => ⟨S1600000x8x16, .f32⟩
  | 86 => ⟨S1600000x8x16, .f32⟩
  | 87 => ⟨S_, .f32⟩
  | 88 => ⟨S1600000x8, .f32⟩
  | 89 => ⟨S_, .f32⟩
  | 90 => ⟨S1600000x8, .f32⟩
  | 91 => ⟨S1600000x8, .f32⟩
  | 92 => ⟨S_, .i32⟩
  | 93 => ⟨S_, .i32⟩
  | 94 => ⟨S_, .i32⟩
  | 95 => ⟨S1600000, .i32⟩
  | 96 => ⟨S1600000, .i32⟩
  | 97 => ⟨S_, .i32⟩
  | 98 => ⟨S1600000, .i32⟩
  | 99 => ⟨S1600000, .i32⟩
  | 100 => ⟨S_, .i32⟩
  | 101 => ⟨S1600000, .i32⟩
  | 102 => ⟨S1600000, .i1⟩
  | 103 => ⟨S_, .i32⟩
  | 104 => ⟨S1600000, .i32⟩
  | 105 => ⟨S1600000, .i32⟩
  | 106 => ⟨S1600000, .i32⟩
  | 107 => ⟨S1600000x1, .i32⟩
  | 108 => ⟨S1600000x8, .f32⟩
  | 109 => ⟨S1600000x8, .f32⟩
  | 110 => ⟨S_, .f32⟩
  | 111 => ⟨S_, .f32⟩
  | 112 => ⟨S1600000x8, .f32⟩
  | 113 => ⟨S1600000x8, .f32⟩
  | 114 => ⟨S1600000x8, .f32⟩
  | 115 => ⟨S_, .f32⟩
  | 116 => ⟨S50000x8, .f32⟩
  | 117 => ⟨S1600000x1, .i32⟩
  | 118 => ⟨S50000x8, .f32⟩
  | 119 => ⟨S_, .i32⟩
  | 120 => ⟨S1600000, .i32⟩
  | 121 => ⟨S1600000, .i1⟩
  | 122 => ⟨S_, .i32⟩
  | 123 => ⟨S1600000, .i32⟩
  | 124 => ⟨S1600000, .i32⟩
  | 125 => ⟨S1600000, .i32⟩
  | 126 => ⟨S1600000x1, .i32⟩
  | 127 => ⟨S1600000x8, .f32⟩
  | _ => ⟨S50000x128, .f32⟩

abbrev hbmTy0_1 (i : Nat) : BufTy := match i % 128 with
  | 0 => ⟨S_, .f32⟩
  | 1 => ⟨S1600000x8, .f32⟩
  | 2 => ⟨S1600000x8, .f32⟩
  | 3 => ⟨S1600000x8, .f32⟩
  | 4 => ⟨S_, .i32⟩
  | 5 => ⟨S1600000, .i32⟩
  | 6 => ⟨S1600000, .i1⟩
  | 7 => ⟨S_, .i32⟩
  | 8 => ⟨S1600000, .i32⟩
  | 9 => ⟨S1600000, .i32⟩
  | 10 => ⟨S1600000, .i32⟩
  | 11 => ⟨S1600000x1, .i32⟩
  | 12 => ⟨S1600000x8x16, .f32⟩
  | 13 => ⟨S1600000x8x1, .f32⟩
  | 14 => ⟨S1600000x8x16, .f32⟩
  | 15 => ⟨S1600000x8x16, .f32⟩
  | 16 => ⟨S_, .f32⟩
  | 17 => ⟨S50000x8x16, .f32⟩
  | 18 => ⟨S1600000x1, .i32⟩
  | 19 => ⟨S50000x8x16, .f32⟩
  | 20 => ⟨S50000x128, .f32⟩
  | 21 => ⟨S50000x128, .f32⟩
  | 22 => ⟨S1x128, .f32⟩
  | 23 => ⟨S50000x128, .f32⟩
  | 24 => ⟨S50000x128, .f32⟩
  | 25 => ⟨S50000x128, .f32⟩
  | 26 => ⟨S_, .f32⟩
  | 27 => ⟨S50000, .f32⟩
  | 28 => ⟨S50000x1, .f32⟩
  | 29 => ⟨S_, .f32⟩
  | 30 => ⟨S50000x1, .f32⟩
  | 31 => ⟨S50000x1, .f32⟩
  | 32 => ⟨S50000x128, .f32⟩
  | 33 => ⟨S50000x128, .f32⟩
  | 34 => ⟨S50000x128, .f32⟩
  | 35 => ⟨S_, .f32⟩
  | 36 => ⟨S50000, .f32⟩
  | 37 => ⟨S50000x1, .f32⟩
  | 38 => ⟨S_, .f32⟩
  | 39 => ⟨S50000x1, .f32⟩
  | 40 => ⟨S50000x1, .f32⟩
  | 41 => ⟨S50000x128, .f32⟩
  | 42 => ⟨S50000x128, .f32⟩
  | 43 => ⟨S_, .f32⟩
  | 44 => ⟨S50000x1, .f32⟩
  | 45 => ⟨S50000x1, .f32⟩
  | 46 => ⟨S50000x1, .f32⟩
  | 47 => ⟨S50000x128, .f32⟩
  | 48 => ⟨S50000x128, .f32⟩
  | 49 => ⟨S1x128, .f32⟩
  | 50 => ⟨S50000x128, .f32⟩
  | 51 => ⟨S50000x128, .f32⟩
  | 52 => ⟨S1x128, .f32⟩
  | 53 => ⟨S50000x128, .f32⟩
  | 54 => ⟨S50000x128, .f32⟩
  | 55 => ⟨S50000x512, .f32⟩
  | 56 => ⟨S1x512, .f32⟩
  | 57 => ⟨S50000x512, .f32⟩
  | 58 => ⟨S50000x512, .f32⟩
  | 59 => ⟨S_, .f32⟩
  | 60 => ⟨S50000x512, .f32⟩
  | 61 => ⟨S50000x512, .f32⟩
  | 62 => ⟨S50000x128, .f32⟩
  | 63 => ⟨S1x128, .f32⟩
  | 64 => ⟨S50000x128, .f32⟩
  | 65 => ⟨S50000x128, .f32⟩
  | 66 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_cst : Ref sig .tc := ⟨.hbm, 20, rfl⟩
abbrev main_v0 : Ref sig .tc := ⟨.hbm, 21, rfl⟩
abbrev main_v1 : Ref sig .tc := ⟨.hbm, 22, rfl⟩
abbrev main_cst_0 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_cst_1 : Ref sig .tc := ⟨.hbm, 29, rfl⟩
abbrev main_v7 : Ref sig .tc := ⟨.hbm, 30, rfl⟩
abbrev main_v8 : Ref sig .tc := ⟨.hbm, 31, rfl⟩
abbrev main_cst_2 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_cst_3 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_c : Ref sig .tc := ⟨.hbm, 68, rfl⟩
abbrev main_v43 : Ref sig .tc := ⟨.hbm, 69, rfl⟩
abbrev main_v44 : Ref sig .tc := ⟨.hbm, 70, rfl⟩
abbrev main_c_4 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_c_5 : Ref sig .tc := ⟨.hbm, 77, rfl⟩
abbrev main_v50 : Ref sig .tc := ⟨.hbm, 78, rfl⟩
abbrev main_v51 : Ref sig .tc := ⟨.hbm, 79, rfl⟩
abbrev main_c_6 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_cst_7 : Ref sig .tc := ⟨.hbm, 87, rfl⟩
abbrev main_v58 : Ref sig .tc := ⟨.hbm, 88, rfl⟩
abbrev main_cst_8 : Ref sig .tc := ⟨.hbm, 89, rfl⟩
abbrev main_v59 : Ref sig .tc := ⟨.hbm, 90, rfl⟩
abbrev main_v60 : Ref sig .tc := ⟨.hbm, 91, rfl⟩
abbrev main_c_9 : Ref sig .tc := ⟨.hbm, 92, rfl⟩
abbrev main_c_10 : Ref sig .tc := ⟨.hbm, 93, rfl⟩
abbrev main_call0_v0 : Ref sig .tc := ⟨.hbm, 94, rfl⟩
abbrev main_call0_v1 : Ref sig .tc := ⟨.hbm, 95, rfl⟩
abbrev main_call0_v2 : Ref sig .tc := ⟨.hbm, 96, rfl⟩
abbrev main_call0_v3 : Ref sig .tc := ⟨.hbm, 97, rfl⟩
abbrev main_call0_v4 : Ref sig .tc := ⟨.hbm, 98, rfl⟩
abbrev main_v61 : Ref sig .tc := ⟨.hbm, 99, rfl⟩
abbrev main_c_11 : Ref sig .tc := ⟨.hbm, 100, rfl⟩
abbrev main_v62 : Ref sig .tc := ⟨.hbm, 101, rfl⟩
abbrev main_v63 : Ref sig .tc := ⟨.hbm, 102, rfl⟩
abbrev main_c_12 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_cst_13 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_cst_14 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_c_15 : Ref sig .tc := ⟨.hbm, 119, rfl⟩
abbrev main_v77 : Ref sig .tc := ⟨.hbm, 120, rfl⟩
abbrev main_v78 : Ref sig .tc := ⟨.hbm, 121, rfl⟩
abbrev main_c_16 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_cst_17 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_c_18 : Ref sig .tc := ⟨.hbm, 132, rfl⟩
abbrev main_v87 : Ref sig .tc := ⟨.hbm, 133, rfl⟩
abbrev main_v88 : Ref sig .tc := ⟨.hbm, 134, rfl⟩
abbrev main_c_19 : Ref sig .tc := ⟨.hbm, 135, rfl⟩
abbrev main_v89 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_cst_20 : Ref sig .tc := ⟨.hbm, 144, rfl⟩
abbrev main_v97 : Ref sig .tc := ⟨.hbm, 145, rfl⟩
abbrev main_v98 : Ref sig .tc := ⟨.hbm, 146, rfl⟩
abbrev main_v99 : Ref sig .tc := ⟨.hbm, 147, rfl⟩
abbrev main_v100 : Ref sig .tc := ⟨.hbm, 148, rfl⟩
abbrev main_v101 : Ref sig .tc := ⟨.hbm, 149, rfl⟩
abbrev main_v102 : Ref sig .tc := ⟨.hbm, 150, rfl⟩
abbrev main_v103 : Ref sig .tc := ⟨.hbm, 151, rfl⟩
abbrev main_v104 : Ref sig .tc := ⟨.hbm, 152, rfl⟩
abbrev main_v105 : Ref sig .tc := ⟨.hbm, 153, rfl⟩
abbrev main_cst_21 : Ref sig .tc := ⟨.hbm, 154, rfl⟩
abbrev main_v106 : Ref sig .tc := ⟨.hbm, 155, rfl⟩
abbrev main_v107 : Ref sig .tc := ⟨.hbm, 156, rfl⟩
abbrev main_cst_22 : Ref sig .tc := ⟨.hbm, 157, rfl⟩
abbrev main_v108 : Ref sig .tc := ⟨.hbm, 158, rfl⟩
abbrev main_v109 : Ref sig .tc := ⟨.hbm, 159, rfl⟩
abbrev main_v110 : Ref sig .tc := ⟨.hbm, 160, rfl⟩
abbrev main_v111 : Ref sig .tc := ⟨.hbm, 161, rfl⟩
abbrev main_v112 : Ref sig .tc := ⟨.hbm, 162, rfl⟩
abbrev main_cst_23 : Ref sig .tc := ⟨.hbm, 163, rfl⟩
abbrev main_v113 : Ref sig .tc := ⟨.hbm, 164, rfl⟩
abbrev main_v114 : Ref sig .tc := ⟨.hbm, 165, rfl⟩
abbrev main_cst_24 : Ref sig .tc := ⟨.hbm, 166, rfl⟩
abbrev main_v115 : Ref sig .tc := ⟨.hbm, 167, rfl⟩
abbrev main_v116 : Ref sig .tc := ⟨.hbm, 168, rfl⟩
abbrev main_v117 : Ref sig .tc := ⟨.hbm, 169, rfl⟩
abbrev main_v118 : Ref sig .tc := ⟨.hbm, 170, rfl⟩
abbrev main_cst_25 : Ref sig .tc := ⟨.hbm, 171, rfl⟩
abbrev main_v119 : Ref sig .tc := ⟨.hbm, 172, rfl⟩
abbrev main_v120 : Ref sig .tc := ⟨.hbm, 173, rfl⟩
abbrev main_v121 : Ref sig .tc := ⟨.hbm, 174, rfl⟩
abbrev main_v122 : Ref sig .tc := ⟨.hbm, 175, rfl⟩
abbrev main_v123 : Ref sig .tc := ⟨.hbm, 176, rfl⟩
abbrev main_v124 : Ref sig .tc := ⟨.hbm, 177, rfl⟩
abbrev main_v125 : Ref sig .tc := ⟨.hbm, 178, rfl⟩
abbrev main_v126 : Ref sig .tc := ⟨.hbm, 179, rfl⟩
abbrev main_v127 : Ref sig .tc := ⟨.hbm, 180, rfl⟩
abbrev main_v128 : Ref sig .tc := ⟨.hbm, 181, rfl⟩
abbrev main_v129 : Ref sig .tc := ⟨.hbm, 182, rfl⟩
abbrev main_v130 : Ref sig .tc := ⟨.hbm, 183, rfl⟩
abbrev main_v131 : Ref sig .tc := ⟨.hbm, 184, rfl⟩
abbrev main_v132 : Ref sig .tc := ⟨.hbm, 185, rfl⟩
abbrev main_v133 : Ref sig .tc := ⟨.hbm, 186, rfl⟩
abbrev main_call1_cst : Ref sig .tc := ⟨.hbm, 187, rfl⟩
abbrev main_call1_v0 : Ref sig .tc := ⟨.hbm, 188, rfl⟩
abbrev main_v134 : Ref sig .tc := ⟨.hbm, 189, rfl⟩
abbrev main_v135 : Ref sig .tc := ⟨.hbm, 190, rfl⟩
abbrev main_v136 : Ref sig .tc := ⟨.hbm, 191, rfl⟩
abbrev main_v137 : Ref sig .tc := ⟨.hbm, 192, rfl⟩
abbrev main_v138 : Ref sig .tc := ⟨.hbm, 193, rfl⟩
abbrev main_v139 : Ref sig .tc := ⟨.hbm, 194, rfl⟩

abbrev nD : Nat := 1
abbrev τ : Topo := Topo.v7x

variable {F : FTy → Type} [FloatOps F]

class Facts₀ : Prop where
  reducesTo_S50000x128_S50000_d1 : S50000x128.ReducesTo [1] S50000
  h_S_ : 0 < S_.numel
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  shapeCasts_S50000x128_S50000x8x16 : S50000x128.ShapeCasts S50000x8x16
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  reducesTo_S1600000x8x16_S1600000x8_d2 : S1600000x8x16.ReducesTo [2] S1600000x8
  bcast_S_S1600000x8 : S_.BroadcastsInDim S1600000x8 (![] : Fin 0 → Fin S1600000x8.rank)
  reducesTo_S1600000x8_S_d0_1 : S1600000x8.ReducesTo [0, 1] S_
  bcast_S_S50000x8 : S_.BroadcastsInDim S50000x8 (![] : Fin 0 → Fin S50000x8.rank)
  bcast_S1600000x8_S1600000x8x1_0_1 : S1600000x8.BroadcastsInDim S1600000x8x1 (![0, 1] : Fin 2 → Fin S1600000x8x1.rank)
  bcast_S1600000x8x1_S1600000x8x16_0_1_2 : S1600000x8x1.BroadcastsInDim S1600000x8x16 (![0, 1, 2] : Fin 3 → Fin S1600000x8x16.rank)
  bcast_S_S50000x8x16 : S_.BroadcastsInDim S50000x8x16 (![] : Fin 0 → Fin S50000x8x16.rank)
  shapeCasts_S50000x8x16_S50000x128 : S50000x8x16.ShapeCasts S50000x128
  bcast_S512_S1x512_1 : S512.BroadcastsInDim S1x512 (![1] : Fin 1 → Fin S1x512.rank)
  bcast_S1x512_S50000x512_0_1 : S1x512.BroadcastsInDim S50000x512 (![0, 1] : Fin 2 → Fin S50000x512.rank)
  bcast_S_S50000x512 : S_.BroadcastsInDim S50000x512 (![] : Fin 0 → Fin S50000x512.rank)
  dot_S50000x128_S128x128_S50000x128_1_0_0_1_n_n_wf : DotDims.WF S50000x128 S128x128 S50000x128 [1] [0] [0] [1] [] []
  gather_S50000x8x16_S1600000x1_S1600000x8x16_12_0_n_n_0_1_1816_wf : GatherDims.WF S50000x8x16 S1600000x1 S1600000x8x16 [1, 2] [0] [] [0] [] 1 ![1, 8, 16]
  gather_S13x8_S1600000x1_S1600000x8_1_0_n_n_0_1_18_wf : GatherDims.WF S13x8 S1600000x1 S1600000x8 [1] [0] [] [0] [] 1 ![1, 8]
  scatter_S50000x8_S1600000x1_S1600000x8_1_0_0_1_wf : ScatterDims.WF S50000x8 S1600000x1 S1600000x8 [1] [0] [0] 1
  gather_S50000x8_S1600000x1_S1600000x8_1_0_n_n_0_1_18_wf : GatherDims.WF S50000x8 S1600000x1 S1600000x8 [1] [0] [] [0] [] 1 ![1, 8]
  scatter_S50000x8x16_S1600000x1_S1600000x8x16_12_0_0_1_wf : ScatterDims.WF S50000x8x16 S1600000x1 S1600000x8x16 [1, 2] [0] [0] 1
  dot_S50000x128_S128x512_S50000x512_1_0_0_1_n_n_wf : DotDims.WF S50000x128 S128x512 S50000x512 [1] [0] [0] [1] [] []
  dot_S50000x512_S512x128_S50000x128_1_0_0_1_n_n_wf : DotDims.WF S50000x512 S512x128 S50000x128 [1] [0] [0] [1] [] []

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x8x16_S1600000x1_S1600000x8x16_12_0_n_n_0_1_1816 : GatherDims S50000x8x16 S1600000x1 S1600000x8x16 where
  offsetDims := [1, 2]
  collapsedSliceDims := [0]
  operandBatchingDims := []
  startIndicesBatchingDims := []
  startIndexMap := [0]
  indexVectorDim := 1
  sliceSizes := ![1, 8, 16]
  wf := gather_S50000x8x16_S1600000x1_S1600000x8x16_12_0_n_n_0_1_1816_wf
def gather_S13x8_S1600000x1_S1600000x8_1_0_n_n_0_1_18 : GatherDims S13x8 S1600000x1 S1600000x8 where
  offsetDims := [1]
  collapsedSliceDims := [0]
  operandBatchingDims := []
  startIndicesBatchingDims := []
  startIndexMap := [0]
  indexVectorDim := 1
  sliceSizes := ![1, 8]
  wf := gather_S13x8_S1600000x1_S1600000x8_1_0_n_n_0_1_18_wf
def scatter_S50000x8_S1600000x1_S1600000x8_1_0_0_1 : ScatterDims S50000x8 S1600000x1 S1600000x8 where
  updateWindowDims := [1]
  insertedWindowDims := [0]
  scatterDimsToOperandDims := [0]
  indexVectorDim := 1
  wf := scatter_S50000x8_S1600000x1_S1600000x8_1_0_0_1_wf
def gather_S50000x8_S1600000x1_S1600000x8_1_0_n_n_0_1_18 : GatherDims S50000x8 S1600000x1 S1600000x8 where
  offsetDims := [1]
  collapsedSliceDims := [0]
  operandBatchingDims := []
  startIndicesBatchingDims := []
  startIndexMap := [0]
  indexVectorDim := 1
  sliceSizes := ![1, 8]
  wf := gather_S50000x8_S1600000x1_S1600000x8_1_0_n_n_0_1_18_wf
def scatter_S50000x8x16_S1600000x1_S1600000x8x16_12_0_0_1 : ScatterDims S50000x8x16 S1600000x1 S1600000x8x16 where
  updateWindowDims := [1, 2]
  insertedWindowDims := [0]
  scatterDimsToOperandDims := [0]
  indexVectorDim := 1
  wf := scatter_S50000x8x16_S1600000x1_S1600000x8x16_12_0_0_1_wf
def dot_S50000x128_S128x512_S50000x512_1_0_0_1_n_n : DotDims S50000x128 S128x512 S50000x512 where
  lhsContracting := [1]
  rhsContracting := [0]
  lhsNonContracting := [0]
  rhsNonContracting := [1]
  lhsBatch := []
  rhsBatch := []
  wf := dot_S50000x128_S128x512_S50000x512_1_0_0_1_n_n_wf
def dot_S50000x512_S512x128_S50000x128_1_0_0_1_n_n : DotDims S50000x512 S512x128 S50000x128 where
  lhsContracting := [1]
  rhsContracting := [0]
  lhsNonContracting := [0]
  rhsNonContracting := [1]
  lhsBatch := []
  rhsBatch := []
  wf := dot_S50000x512_S512x128_S50000x128_1_0_0_1_n_n_wf

class Facts : Prop extends Facts₀ where

variable [Facts]
-- ==== Proof.KernelLaunch.lean ====
/-
  The idealized kernel's run with its result named.

  @main is six segments: the reshapes of five vectors to rows, the first tiled call (query, key and value
  projections), the host's edge stage in three stretches, and the second tiled call (output projection, residual,
  normalisation and feed-forward block). From any launch memory every weakly fair execution terminates, the argument
  arrays end as launched, and the result buffer ends at the contents the fold of the six segments gives it: the several-region
  launch theorem applied to the program's segments, the final thread state read against the final memory at the result
  buffer as well as at the arguments.
-/
import proofs.«150281_j48009144434784_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates; the result buffer ends at the last boundary's contents and the
    argument arrays end as launched. -/
theorem run_result : θ_run defs (onTc (τ := τ) (main (F := F))) ⟨m, fun _ => 0, ρ⟩ (fun r => ∀ c : Dev nD,
      r.2.mem ((c.tc : Thread nD τ).loc main_v76) = W6 m ρ c (Proc.devRef .tc main_v76)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v76 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c),
       (h c _ (mem_uc main_arg12 (by decide))).trans (W6_main_arg12 m ρ c),
       (h c _ (mem_uc main_arg13 (by decide))).trans (W6_main_arg13 m ρ c),
       (h c _ (mem_uc main_arg14 (by decide))).trans (W6_main_arg14 m ρ c),
       (h c _ (mem_uc main_arg15 (by decide))).trans (W6_main_arg15 m ρ c),
       (h c _ (mem_uc main_arg16 (by decide))).trans (W6_main_arg16 m ρ c),
       (h c _ (mem_uc main_arg17 (by decide))).trans (W6_main_arg17 m ρ c),
       (h c _ (mem_uc main_arg18 (by decide))).trans (W6_main_arg18 m ρ c),
       (h c _ (mem_uc main_arg19 (by decide))).trans (W6_main_arg19 m ρ c)⟩)

end Cert.KernelIdeal.RunValue

end
-- ==== Proof.LibRowSpec.lean ====
/-
  The two row-wise building blocks of a transformer layer, over the extended reals.

  A layer normalisation acts on one row of `C` numbers: subtract the row's mean, scale by the reciprocal square
  root of the mean squared deviation plus a small constant, then apply a per-lane gain and offset. An affine map takes
  a row `h` of `K` numbers to the `N` numbers `∑ k, h k * W k q + b q`. The divisor of the mean and the small constant
  are parameters (the programs give them as float literals, which are never evaluated). A query / key / value row is
  an affine map of a normalised row; the row after the attention block is
  `x2 = x + (agg · Wo + bo)`, then `x2 + (max (LN(x2) · W1 + b1) 0 · W2 + b2)`.
-/
import Mathlib
import Idealize.ShloMosaic.PureOps.Ideal

noncomputable section

open scoped BigOperators

namespace Cert.LibRowSpec

open Idealize.ShloMosaic

variable {C K N J : Nat}

/-- The float literal `128.0`, the divisor of a row's mean (never evaluated: both programs spell the same word). -/
abbrev lit128 : EReal := Ideal.ofBits .f32 0x43000000#32

/-- The float literal nearest to `1e-5`, the constant under the reciprocal square root. -/
abbrev litEps : EReal := Ideal.ofBits .f32 0x3727C5AC#32

/-- The float literal `0.0`. -/
abbrev litZero : EReal := Ideal.ofBits .f32 0x00000000#32

/-- The mean of a row: its sum divided by `n`. -/
def mean (n : EReal) (x : Fin C → EReal) : EReal := Ideal.div (∑ k, x k) n

/-- The row minus its mean. -/
def centred (n : EReal) (x : Fin C → EReal) : Fin C → EReal := fun k => x k - mean n x

/-- Layer normalisation of one row, with gain `g` and offset `b`. -/
def lnRow (n eps : EReal) (x g b : Fin C → EReal) : Fin C → EReal := fun k =>
  centred n x k * Ideal.rsqrt (mean n (fun j => centred n x j * centred n x j) + eps) * g k + b k

/-- An affine map of one row. -/
def affRow (h : Fin K → EReal) (W : Fin K → Fin N → EReal) (b : Fin N → EReal) : Fin N → EReal :=
  fun q => (∑ k, h k * W k q) + b q

/-- A projected row: an affine map of the normalised row. -/
def projRow (n eps : EReal) (x g be : Fin C → EReal) (W : Fin C → Fin N → EReal) (b : Fin N → EReal) : Fin N → EReal :=
  affRow (lnRow n eps x g be) W b

/-- The residual row after the attention block's output projection. -/
def residRow (x : Fin N → EReal) (agg : Fin K → EReal) (Wo : Fin K → Fin N → EReal) (bo : Fin N → EReal) : Fin N → EReal :=
  fun q => x q + affRow agg Wo bo q

/-- The feed-forward block on a row `y`: `y + (max (LN(y) · W1 + b1) 0 · W2 + b2)`. -/
def ffnRow (n eps zero : EReal) (y g be : Fin C → EReal) (W1 : Fin C → Fin J → EReal) (b1 : Fin J → EReal)
    (W2 : Fin J → Fin C → EReal) (b2 : Fin C → EReal) : Fin C → EReal :=
  fun q => y q + affRow (fun j => max (affRow (lnRow n eps y g be) W1 b1 j) zero) W2 b2 q

end Cert.LibRowSpec

end
-- ==== Proof.LibDotRows.lean ====
/-
  A plain matrix product read entry by entry, and cut into row blocks.

  For the dimension numbers "contract axis 1 of an [M, K] left operand with axis 0 of a [K, N] right operand"
  (`DotDims.plain M K N`), over the extended reals:
    * entry (p, q) of the host's product is the sum over k of x[p, k] · w[k, q]          (`dotGeneral_plain_apply`);
    * a kernel's product accumulated into the zero splat is the same sum                  (`matmul_plain_apply`);
    * hence the product of a block of B rows of x (rows r0 … r0 + B − 1) with the whole of w is the
      corresponding block of rows of the whole product                                    (`matmul_rows`).
  Only `0 + s = s` and a re-indexing of the sum are used, so nothing here needs finiteness.
-/
import Idealize.ShloMosaic.Lib.ValueIdx
import Idealize.ShloMosaic.PureOps.Ideal.Laws

noncomputable section

namespace Cert.Lib.DotRows

open Idealize.ShloMosaic Idealize.ShloMosaic.ValueIdx

variable {M K N : Nat} {φ₁ φ₂ : FTy}

/-- The left operand's index at output entry (p, q) and contraction position k is (p, k). -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a; apply Fin.ext
  match a with
  | ⟨0, _⟩ => rfl
  | ⟨1, _⟩ => exact ((DotDims.plain M K N).lhsIdx_val_of_single rfl _ _).trans hk

/-- The right operand's index at output entry (p, q) and contraction position k is (k, q). -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a; apply Fin.ext
  match a with
  | ⟨0, _⟩ => exact ((DotDims.plain M K N).rhsIdx_val_of_single rfl _ _).trans hk
  | ⟨1, _⟩ => rfl

/-- Entry (p, q) of the host's product x · w is the sum over k of x[p, k] · w[k, q]. -/
theorem dotGeneral_plain_apply (x : FVec Ideal ⟨2, ![M, K]⟩ φ₁) (w : FVec Ideal ⟨2, ![K, N]⟩ φ₂) (p : Fin M) (q : Fin N) :
    Host.dotGeneral (F := Ideal) (DotDims.plain M K N) none x w (ix2 p q) = ∑ k : Fin K, x (ix2 p k) * w (ix2 k q) := by
  simp only [Host.dotGeneral]
  rw [Ideal.dotGeneral_apply, ← Equiv.sum_comp (contrEquiv1 (DotDims.plain M K N) K rfl rfl).symm]
  exact Finset.sum_congr rfl fun k _ => by rw [plain_lhsIdx, plain_rhsIdx]

/-- Entry (p, q) of a kernel's product x · w accumulated into the zero splat is the same sum. -/
theorem matmul_plain_apply (x : FVec Ideal ⟨2, ![M, K]⟩ φ₁) (w : FVec Ideal ⟨2, ![K, N]⟩ φ₂) (p : Fin M) (q : Fin N) :
    matmul (F := Ideal) (DotDims.plain M K N) none x w (constant ⟨2, ![M, N]⟩ .f32 0x00000000#32) (ix2 p q)
      = ∑ k : Fin K, x (ix2 p k) * w (ix2 k q) := by
  simp only [matmul]
  rw [Ideal.matmul_constant_zero_apply, ← Equiv.sum_comp (contrEquiv1 (DotDims.plain M K N) K rfl rfl).symm]
  exact Finset.sum_congr rfl fun k _ => by rw [plain_lhsIdx, plain_rhsIdx]

/-- ROW BLOCKS. If `xb` is the block of `B` rows of `x` that starts at row `r0` (`hx`), then entry (p, q) of the kernel's
    product `xb · w` into the zero splat is entry (r0 + p, q) of the host's product `x · w`. -/
theorem matmul_rows {B : Nat} (x : FVec Ideal ⟨2, ![M, K]⟩ φ₁) (w : FVec Ideal ⟨2, ![K, N]⟩ φ₂)
    (xb : FVec Ideal ⟨2, ![B, K]⟩ φ₁) (r0 : Nat) (p : Fin B) (q : Fin N) (hp : r0 + p.val < M)
    (hx : ∀ k : Fin K, xb (ix2 p k) = x (ix2 ⟨r0 + p.val, hp⟩ k)) :
    matmul (F := Ideal) (DotDims.plain B K N) none xb w (constant ⟨2, ![B, N]⟩ .f32 0x00000000#32) (ix2 p q)
      = Host.dotGeneral (F := Ideal) (DotDims.plain M K N) none x w (ix2 ⟨r0 + p.val, hp⟩ q) := by
  rw [matmul_plain_apply, dotGeneral_plain_apply]
  exact Finset.sum_congr rfl fun k _ => by rw [hx k]

end Cert.Lib.DotRows

end
-- ==== Proof.LibRowReduce.lean ====
/-
  A row's maximum and a row's sum, as a kernel and as the host compute them.

  For an array `v : [R, C]` reduced along its second axis, over the extended reals: the kernel's lane maximum from the
  word of `-∞` and the host's reduce with a maximum body from the same word are both the fold of `max` over the row's
  `C` entries; the kernel's lane sum and the host's sum from zero are both the plain sum of the row's entries. Also the
  two small facts that go with them: `max (-∞) y = y`, and a vector `[R]` recast as a column `[R, 1]` reads its row.
-/
import Mathlib
import Idealize.ShloMosaic.PureOps.Ideal
import Idealize.ShloMosaic.PureOps.Ideal.Laws
import Idealize.ShloMosaic.Lib.Pipeline.Value
import Idealize.ShloMosaic.Lib.ValueIdx

noncomputable section

open scoped BigOperators

namespace Cert.LibRowReduce

open Idealize.ShloMosaic Idealize.ShloMosaic.ValueIdx

variable {R C : Nat}

/-- The maximum of `C` extended reals, folded from the f32 word of `-∞`. -/
def rowMax (f : Fin C → EReal) : EReal :=
  (Finset.univ : Finset (Fin C)).fold max (Ideal.ofBits .f32 0xFF800000#32) f

/-- The f32 word `0xFF800000` is `-∞`, the identity of `max`. -/
theorem max_negInf (y : EReal) : max (Ideal.ofBits .f32 0xFF800000#32) y = y := by
  simp [Ideal.ofBits, Ideal.ieee]

/-- The reduced index `r` with lane `k` put back is `(r, k)`. -/
theorem lift_row (h : (⟨2, ![R, C]⟩ : Shape).Reduces [1] (⟨1, ![R]⟩ : Shape)) (r : Fin R)
    (k : Fin ((⟨2, ![R, C]⟩ : Shape).size 1)) : h.lift (ix1 r) k = ix2 r (⟨k.val, k.isLt⟩ : Fin C) := by
  funext c; apply Fin.ext
  fin_cases c <;> rfl

/-- The kernel's lane maximum of row `r`. -/
theorem multiReduction_max_row (src : FVec Ideal ⟨2, ![R, C]⟩ .f32)
    (h : (⟨2, ![R, C]⟩ : Shape).Reduces [1] (⟨1, ![R]⟩ : Shape)) (hφ : FKind.Formats .f32)
    (hacc : (0xFF800000#32 : BitVec 32) = FKind.maximumf.neutral .f32 hφ) (r : Fin R) :
    multiReduction .maximumf [1] (⟨1, ![R]⟩ : Shape) src 0xFF800000#32 h hφ hacc (ix1 r) = rowMax fun k => src (ix2 r k) := by
  rw [Ideal.multiReduction_maximumf_single src _ h hφ hacc (ix1 r)]
  have hf : (src ∘ h.lift (ix1 r)) = fun k : Fin C => src (ix2 r k) :=
    funext fun k => congrArg src (lift_row h r k)
  unfold rowMax
  exact congrArg (fun f => Finset.fold max (Ideal.ofBits .f32 0xFF800000#32) f (Finset.univ : Finset (Fin C))) hf

/-- The host's reduce with a maximum body along axis 1, from the word of `-∞`, at row `r`. -/
theorem hostReduce_max_row (x : FVec Ideal ⟨2, ![R, C]⟩ .f32) (init : (⟨0, ![]⟩ : Shape).Idx → Ideal .f32)
    (hinit : ∀ i, init i = Ideal.ofBits .f32 0xFF800000#32)
    (h' : (⟨2, ![R, C]⟩ : Shape).ReducesTo [1] (⟨1, ![R]⟩ : Shape)) (h : (⟨2, ![R, C]⟩ : Shape).Reduces [1] (⟨1, ![R]⟩ : Shape))
    (hu : 0 < (⟨0, ![]⟩ : Shape).numel) (r : Fin R) :
    Host.reduce FloatOps.maximumf x init h' hu (ix1 r) = rowMax fun k => x (ix2 r k) := by
  rw [Host.reduce_eq_fold_single FloatOps.maximumf x _ h' h hu, hinit]
  have hf : (x ∘ h.lift (ix1 r)) = fun k : Fin C => x (ix2 r k) :=
    funext fun k => congrArg x (lift_row h r k)
  unfold rowMax
  exact congrArg (fun f => Finset.fold max (Ideal.ofBits .f32 0xFF800000#32) f (Finset.univ : Finset (Fin C))) hf

/-- The kernel's lane sum of row `r`. -/
theorem multiReduction_add_row (src : FVec Ideal ⟨2, ![R, C]⟩ .f32)
    (h : (⟨2, ![R, C]⟩ : Shape).Reduces [1] (⟨1, ![R]⟩ : Shape)) (hφ : FKind.Formats .f32)
    (hacc : (0x00000000#32 : BitVec 32) = FKind.add.neutral .f32 hφ) (r : Fin R) :
    multiReduction .add [1] (⟨1, ![R]⟩ : Shape) src 0x00000000#32 h hφ hacc (ix1 r) = ∑ k : Fin C, src (ix2 r k) := by
  rw [Ideal.multiReduction_add_single src _ h hφ hacc (ix1 r)]
  refine Finset.sum_congr rfl fun k _ => ?_
  exact congrArg src (lift_row h r k)

/-- The host's sum along axis 1 from zero, at row `r`. -/
theorem hostReduceAdd_row (x : FVec Ideal ⟨2, ![R, C]⟩ .f32) (init : (⟨0, ![]⟩ : Shape).Idx → Ideal .f32)
    (hinit : ∀ i, init i = 0)
    (h' : (⟨2, ![R, C]⟩ : Shape).ReducesTo [1] (⟨1, ![R]⟩ : Shape)) (h : (⟨2, ![R, C]⟩ : Shape).Reduces [1] (⟨1, ![R]⟩ : Shape))
    (hu : 0 < (⟨0, ![]⟩ : Shape).numel) (r : Fin R) :
    Host.reduceAdd (F := Ideal) x init h' hu (ix1 r) = ∑ k : Fin C, x (ix2 r k) := by
  show Ideal.hostReduceAdd h' x (init (Shape.Idx.first hu)) (ix1 r) = _
  rw [Ideal.hostReduceAdd_single h' h, hinit, zero_add]
  refine Finset.sum_congr rfl fun k _ => ?_
  exact congrArg x (lift_row h r k)

/-- A vector `[R]` recast as a column `[R, 1]` reads its row. -/
theorem shapeCast_col_apply {α : Type} (v : (⟨1, ![R]⟩ : Shape).Idx → α) (h : (⟨1, ![R]⟩ : Shape).ShapeCasts ⟨2, ![R, 1]⟩)
    (r : Fin R) : shapeCast ⟨2, ![R, 1]⟩ v h (ix2 r (0 : Fin 1)) = v (ix1 r) := by
  refine shapeCast_apply v h _ _ ?_
  rw [Shape.rowMajor_val_two, Shape.rowMajor_val_one]
  show r.val = r.val * 1 + 0
  omega

end Cert.LibRowReduce

end
-- ==== Proof.LibColBroadcast.lean ====
/-
  One column broadcast over many: a `[a, 1]` array broadcast to `[a, b]` reads, at `(p, c)`, the operand's row `p`.
-/
import Idealize.ShloMosaic.Lib.ValueIdx
import Idealize.ShloMosaic.Lib.Pipeline.Value

noncomputable section

namespace Cert.LibColBroadcast

open Idealize.ShloMosaic Idealize.ShloMosaic.ValueIdx

variable {α : Type}

/-- A `[a, 1]` column broadcast to `[a, b]` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColBroadcast

end
-- ==== Proof.KernelRows.lean ====
/-
  The two kernel bodies read row by row.

  Every value a body stores is a function of one row of its input tile and of the whole weights: row `p` of the
  first body's three results is the projected row (an affine map of the layer-normalised row `p` of the tile) for the
  three weight matrices; row `p` of the second body's result is the feed-forward block applied to the residual row
  `x[p] + (agg[p] · Wo + bo)`. A change of float format is the identity over the extended reals, a product
  accumulated into a zero tile is the plain sum over the contracted axis, and a lane sum is the plain sum of the row.
-/
import proofs.«150281_j48009144434784_1_alg».proof.Proof.Gen.KernelIdeal.Skeleton
import proofs.«150281_j48009144434784_1_alg».proof.Proof.LibRowSpec
import proofs.«150281_j48009144434784_1_alg».proof.Proof.LibDotRows
import proofs.«150281_j48009144434784_1_alg».proof.Proof.LibRowReduce
import proofs.«150281_j48009144434784_1_alg».proof.Proof.LibColBroadcast
import Idealize.ShloMosaic.Lib.ValueLayout
import Idealize.ShloMosaic.Lib.Pipeline.Value

noncomputable section

open scoped BigOperators

namespace Cert.KernelRows

open Idealize.ShloMosaic Idealize.ShloMosaic.ValueIdx Cert.KernelIdeal Cert.KernelIdeal.Gen Cert.LibRowSpec
open Cert.Lib.DotRows Cert.LibRowReduce Cert.LibColBroadcast

/-- Every row's mean of a tile, as a column: the lane sum from zero divided by the literal `128.0`. -/
def tileMean (x : FVec Ideal S2000x128 .f32) : FVec Ideal S2000x1 .f32 :=
  divf (shapeCast S2000x1 (multiReduction .add [1] S2000 x 0x00000000#32 reduces_S2000x128_S2000 (.inl rfl) rfl)
      shapeCasts_S2000_S2000x1)
    (broadcast S2000x1 (Scalar.ofBits .f32 0x43000000#32))

theorem tileMean_apply (x : FVec Ideal S2000x128 .f32) (p : Fin 2000) :
    tileMean x (ix2 p (0 : Fin 1)) = mean lit128 fun j => x (ix2 p j) := by
  unfold tileMean
  show Ideal.div (shapeCast S2000x1 _ shapeCasts_S2000_S2000x1 (ix2 p (0 : Fin 1))) (Ideal.ofBits .f32 0x43000000#32) = _
  rw [shapeCast_col_apply]
  exact congrArg (Ideal.div · (Ideal.ofBits .f32 0x43000000#32)) (multiReduction_add_row x _ _ _ p)

/-- The tile minus its rows' means. -/
def tileCentred (x : FVec Ideal S2000x128 .f32) : FVec Ideal S2000x128 .f32 :=
  subf x (broadcastTo S2000x128 (tileMean x) broadcasts_S2000x1_S2000x128)

theorem tileCentred_apply (x : FVec Ideal S2000x128 .f32) (p : Fin 2000) (k : Fin 128) :
    tileCentred x (ix2 p k) = centred lit128 (fun j => x (ix2 p j)) k := by
  unfold tileCentred
  show x (ix2 p k) - broadcastTo S2000x128 (tileMean x) broadcasts_S2000x1_S2000x128 (ix2 p k) = _
  rw [broadcastTo_a1_ab_apply, tileMean_apply]
  rfl

/-- The normalised tile, in the body's own operations. -/
def tileNorm (x : FVec Ideal S2000x128 .f32) (g b : Vec Ideal S1x128 .f32) : FVec Ideal S2000x128 .bf16 :=
  truncf .bf16
    (addf
      (mulf
        (mulf (tileCentred x)
          (broadcastTo S2000x128
            (rsqrt (addf (tileMean (mulf (tileCentred x) (tileCentred x))) (broadcast S2000x1 (Scalar.ofBits .f32 0x3727C5AC#32))))
            broadcasts_S2000x1_S2000x128))
        (broadcastTo S2000x128 (shapeCast S1x128 g shapeCasts_S1x128_S1x128) broadcasts_S1x128_S2000x128))
      (broadcastTo S2000x128 (shapeCast S1x128 b shapeCasts_S1x128_S1x128) broadcasts_S1x128_S2000x128))
    bitsLt_bf16_f32

/-- The body's normalised tile is that term. -/
theorem pay3_eq (x : FVec Ideal S2000x128 .f32) (g b : Vec Ideal S1x128 .f32) :
    k0_pay3 (F := Ideal) x g b = tileNorm x g b := rfl

/-- Row `p` of the normalised tile is the layer normalisation of row `p` of the tile. -/
theorem ln_apply (x : FVec Ideal S2000x128 .f32) (g b : Vec Ideal S1x128 .f32) (p : Fin 2000) (k : Fin 128) :
    k0_pay3 (F := Ideal) x g b (ix2 p k)
      = lnRow lit128 litEps (fun j => x (ix2 p j)) (fun j => g (ix2 (0 : Fin 1) j)) (fun j => b (ix2 (0 : Fin 1) j)) k := by
  rw [pay3_eq]
  unfold tileNorm
  show tileCentred x (ix2 p k)
      * broadcastTo S2000x128
          (rsqrt (addf (tileMean (mulf (tileCentred x) (tileCentred x))) (broadcast S2000x1 (Scalar.ofBits .f32 0x3727C5AC#32))))
          broadcasts_S2000x1_S2000x128 (ix2 p k)
      * broadcastTo S2000x128 (shapeCast S1x128 g shapeCasts_S1x128_S1x128) broadcasts_S1x128_S2000x128 (ix2 p k)
      + broadcastTo S2000x128 (shapeCast S1x128 b shapeCasts_S1x128_S1x128) broadcasts_S1x128_S2000x128 (ix2 p k) = _
  rw [broadcastTo_a1_ab_apply, broadcastTo_1b_ab_apply, broadcastTo_1b_ab_apply, shapeCast_self, shapeCast_self, tileCentred_apply]
  show centred lit128 (fun j => x (ix2 p j)) k
      * Ideal.rsqrt (tileMean (mulf (tileCentred x) (tileCentred x)) (ix2 p (0 : Fin 1)) + Ideal.ofBits .f32 0x3727C5AC#32)
      * g (ix2 (0 : Fin 1) k) + b (ix2 (0 : Fin 1) k) = _
  rw [tileMean_apply]
  have hsq : (fun j => mulf (tileCentred x) (tileCentred x) (ix2 p j))
      = fun j => centred lit128 (fun j => x (ix2 p j)) j * centred lit128 (fun j => x (ix2 p j)) j := by
    funext j
    show tileCentred x (ix2 p j) * tileCentred x (ix2 p j) = _
    rw [tileCentred_apply]
  rw [hsq]
  rfl

/-- A product of the normalised tile with a weight matrix, plus a bias row: entry `(p, q)` is the projected row. -/
theorem proj_apply (x : Vec Ideal S2000x128 .f32) (g b : Vec Ideal S1x128 .f32) (W : Vec Ideal S128x128 .f32)
    (bias : Vec Ideal S1x128 .f32) (p : Fin 2000) (q : Fin 128) :
    matmul (F := Ideal) (DotDims.plain 2000 128 128) none (k0_pay3 (F := Ideal) x g b) (truncf .bf16 W bitsLt_bf16_f32)
        (constant S2000x128 .f32 0x00000000#32) (ix2 p q)
      + broadcastTo S2000x128 (shapeCast S1x128 bias shapeCasts_S1x128_S1x128) broadcasts_S1x128_S2000x128 (ix2 p q)
      = projRow lit128 litEps (fun j => x (ix2 p j)) (fun j => g (ix2 (0 : Fin 1) j)) (fun j => b (ix2 (0 : Fin 1) j))
          (fun k q => W (ix2 k q)) (fun q => bias (ix2 (0 : Fin 1) q)) q := by
  rw [matmul_plain_apply, broadcastTo_1b_ab_apply, shapeCast_self]
  simp only [ln_apply]
  rfl

/-- The first body's query tile. -/
theorem q_apply (x : Vec Ideal S2000x128 .f32) (g b : Vec Ideal S1x128 .f32) (W : Vec Ideal S128x128 .f32)
    (bias : Vec Ideal S1x128 .f32) (p : Fin 2000) (q : Fin 128) :
    k0_pay5 (F := Ideal) x g b W bias (ix2 p q)
      = projRow lit128 litEps (fun j => x (ix2 p j)) (fun j => g (ix2 (0 : Fin 1) j)) (fun j => b (ix2 (0 : Fin 1) j))
          (fun k q => W (ix2 k q)) (fun q => bias (ix2 (0 : Fin 1) q)) q :=
  proj_apply x g b W bias p q

/-- The first body's key tile. -/
theorem k_apply (x : Vec Ideal S2000x128 .f32) (g b : Vec Ideal S1x128 .f32) (W : Vec Ideal S128x128 .f32)
    (bias : Vec Ideal S1x128 .f32) (p : Fin 2000) (q : Fin 128) :
    k0_pay1 (F := Ideal) (k0_pay6 (F := Ideal) x g b W) bias (ix2 p q)
      = projRow lit128 litEps (fun j => x (ix2 p j)) (fun j => g (ix2 (0 : Fin 1) j)) (fun j => b (ix2 (0 : Fin 1) j))
          (fun k q => W (ix2 k q)) (fun q => bias (ix2 (0 : Fin 1) q)) q :=
  proj_apply x g b W bias p q

/-- The first body's value tile. -/
theorem v_apply (x : Vec Ideal S2000x128 .f32) (g b : Vec Ideal S1x128 .f32) (W : Vec Ideal S128x128 .f32)
    (bias : Vec Ideal S1x128 .f32) (p : Fin 2000) (q : Fin 128) :
    k0_pay2 (F := Ideal) (k0_pay3 (F := Ideal) x g b) (k0_pay4 (F := Ideal) W) bias (ix2 p q)
      = projRow lit128 litEps (fun j => x (ix2 p j)) (fun j => g (ix2 (0 : Fin 1) j)) (fun j => b (ix2 (0 : Fin 1) j))
          (fun k q => W (ix2 k q)) (fun q => bias (ix2 (0 : Fin 1) q)) q :=
  proj_apply x g b W bias p q

/-- The second body's residual tile: `x + (agg · Wo + bo)`, row by row. -/
theorem resid_apply (agg : Vec Ideal S2000x128 .f32) (Wo : Vec Ideal S128x128 .f32) (bo : Vec Ideal S1x128 .f32)
    (x : Vec Ideal S2000x128 .f32) (p : Fin 2000) (q : Fin 128) :
    k1_pay2 (F := Ideal) agg Wo bo x (ix2 p q)
      = residRow (fun j => x (ix2 p j)) (fun k => agg (ix2 p k)) (fun k q => Wo (ix2 k q)) (fun q => bo (ix2 (0 : Fin 1) q)) q := by
  show x (ix2 p q)
      + (matmul (F := Ideal) (DotDims.plain 2000 128 128) none
            (truncf .bf16 (shapeCast S2000x128 agg shapeCasts_S2000x128_S2000x128) bitsLt_bf16_f32) (truncf .bf16 Wo bitsLt_bf16_f32)
            (constant S2000x128 .f32 0x00000000#32) (ix2 p q)
          + broadcastTo S2000x128 (shapeCast S1x128 bo shapeCasts_S1x128_S1x128) broadcasts_S1x128_S2000x128 (ix2 p q)) = _
  rw [matmul_plain_apply, broadcastTo_1b_ab_apply, shapeCast_self, shapeCast_self]
  rfl

/-- The second body's result tile: the feed-forward block applied to the residual row. -/
theorem out_apply (agg : Vec Ideal S2000x128 .f32) (x : Vec Ideal S2000x128 .f32) (Wo : Vec Ideal S128x128 .f32)
    (bo g2 be2 : Vec Ideal S1x128 .f32) (W1 : Vec Ideal S128x512 .f32) (b1 : Vec Ideal S1x512 .f32)
    (W2 : Vec Ideal S512x128 .f32) (b2 : Vec Ideal S1x128 .f32) (p : Fin 2000) (q : Fin 128) :
    k1_pay1 (F := Ideal) (k1_pay2 (F := Ideal) agg Wo bo x) (k1_pay3 (F := Ideal) agg Wo bo x g2 be2) (k1_pay4 (F := Ideal) W1)
        b1 W2 b2 (ix2 p q)
      = ffnRow lit128 litEps litZero
          (residRow (fun j => x (ix2 p j)) (fun k => agg (ix2 p k)) (fun k q => Wo (ix2 k q)) (fun q => bo (ix2 (0 : Fin 1) q)))
          (fun j => g2 (ix2 (0 : Fin 1) j)) (fun j => be2 (ix2 (0 : Fin 1) j)) (fun k j => W1 (ix2 k j))
          (fun j => b1 (ix2 (0 : Fin 1) j)) (fun j q => W2 (ix2 j q)) (fun q => b2 (ix2 (0 : Fin 1) q)) q := by
  have hres : (fun j => k1_pay2 (F := Ideal) agg Wo bo x (ix2 p j))
      = residRow (fun j => x (ix2 p j)) (fun k => agg (ix2 p k)) (fun k q => Wo (ix2 k q)) (fun q => bo (ix2 (0 : Fin 1) q)) :=
    funext fun j => resid_apply agg Wo bo x p j
  have hln : (fun k => k1_pay3 (F := Ideal) agg Wo bo x g2 be2 (ix2 p k))
      = lnRow lit128 litEps
          (residRow (fun j => x (ix2 p j)) (fun k => agg (ix2 p k)) (fun k q => Wo (ix2 k q)) (fun q => bo (ix2 (0 : Fin 1) q)))
          (fun j => g2 (ix2 (0 : Fin 1) j)) (fun j => be2 (ix2 (0 : Fin 1) j)) := by
    funext k
    show k0_pay3 (F := Ideal) (k1_pay2 (F := Ideal) agg Wo bo x) g2 be2 (ix2 p k) = _
    rw [ln_apply, hres]
  show k1_pay2 (F := Ideal) agg Wo bo x (ix2 p q)
      + (matmul (F := Ideal) (DotDims.plain 2000 512 128) none
            (truncf .bf16
              (maximumf
                (addf (matmul (F := Ideal) (DotDims.plain 2000 128 512) none (k1_pay3 (F := Ideal) agg Wo bo x g2 be2)
                    (truncf .bf16 W1 bitsLt_bf16_f32) (constant S2000x512 .f32 0x00000000#32))
                  (broadcastTo S2000x512 (shapeCast S1x512 b1 shapeCasts_S1x512_S1x512) broadcasts_S1x512_S2000x512))
                (broadcast S2000x512 (Scalar.ofBits .f32 0x00000000#32))) bitsLt_bf16_f32)
            (truncf .bf16 W2 bitsLt_bf16_f32) (constant S2000x128 .f32 0x00000000#32) (ix2 p q)
          + broadcastTo S2000x128 (shapeCast S1x128 b2 shapeCasts_S1x128_S1x128) broadcasts_S1x128_S2000x128 (ix2 p q)) = _
  have hln' : ∀ k : Fin 128, k1_pay3 (F := Ideal) agg Wo bo x g2 be2 (ix2 p k)
      = lnRow lit128 litEps
          (residRow (fun j => x (ix2 p j)) (fun k => agg (ix2 p k)) (fun k q => Wo (ix2 k q)) (fun q => bo (ix2 (0 : Fin 1) q)))
          (fun j => g2 (ix2 (0 : Fin 1) j)) (fun j => be2 (ix2 (0 : Fin 1) j)) k := fun k => congrFun hln k
  rw [matmul_plain_apply, broadcastTo_1b_ab_apply, congrFun hres q]
  simp only [shapeCast_self]
  have hhid : ∀ j : Fin 512, truncf .bf16
        (maximumf
          (addf (matmul (F := Ideal) (DotDims.plain 2000 128 512) none (k1_pay3 (F := Ideal) agg Wo bo x g2 be2)
              (truncf .bf16 W1 bitsLt_bf16_f32) (constant S2000x512 .f32 0x00000000#32))
            (broadcastTo S2000x512 b1 broadcasts_S1x512_S2000x512))
          (broadcast S2000x512 (Scalar.ofBits .f32 0x00000000#32))) bitsLt_bf16_f32 (ix2 p j)
      = max (affRow (lnRow lit128 litEps
          (residRow (fun j => x (ix2 p j)) (fun k => agg (ix2 p k)) (fun k q => Wo (ix2 k q)) (fun q => bo (ix2 (0 : Fin 1) q)))
          (fun j => g2 (ix2 (0 : Fin 1) j)) (fun j => be2 (ix2 (0 : Fin 1) j))) (fun k j => W1 (ix2 k j))
          (fun j => b1 (ix2 (0 : Fin 1) j)) j) litZero := by
    intro j
    show max (matmul (F := Ideal) (DotDims.plain 2000 128 512) none (k1_pay3 (F := Ideal) agg Wo bo x g2 be2)
          (truncf .bf16 W1 bitsLt_bf16_f32) (constant S2000x512 .f32 0x00000000#32) (ix2 p j)
        + broadcastTo S2000x512 b1 broadcasts_S1x512_S2000x512 (ix2 p j))
      (Ideal.ofBits .f32 0x00000000#32) = _
    rw [matmul_plain_apply, broadcastTo_1b_ab_apply]
    simp only [hln']
    rfl
  simp only [hhid]
  rfl

end Cert.KernelRows

end
-- ==== Proof.LibRowArrays.lean ====
/-
  Whole arrays whose every row is a row-wise function of the same row of the inputs.

  `projArr x g be W b` has, as row `r`, the projected row of `x`'s row `r`; `tailArr x agg …` has, as row `r`, the
  feed-forward block applied to the residual row built from rows `r` of `x` and `agg`. A tiled kernel and a host
  program that both compute such an array agree as soon as they agree row by row.
-/
import Mathlib
import Idealize.ShloMosaic.PureOps.Ideal
import Idealize.ShloMosaic.Lib.ValueIdx
import proofs.«150281_j48009144434784_1_alg».proof.Proof.LibRowSpec

noncomputable section

namespace Cert.LibRowArrays

open Idealize.ShloMosaic Idealize.ShloMosaic.ValueIdx Cert.LibRowSpec

variable {R C N J : Nat}

/-- The row of an index of `[R, N]`. -/
abbrev rowOfIdx (i : (⟨2, ![R, N]⟩ : Shape).Idx) : Fin R := ⟨(i 0).val, idx2_lt0 i⟩
/-- The lane of an index of `[R, N]`. -/
abbrev laneOfIdx (i : (⟨2, ![R, N]⟩ : Shape).Idx) : Fin N := ⟨(i 1).val, idx2_lt1 i⟩

/-- Every row projected: row `r` is the affine map by `W`, `b` of the layer normalisation of `x`'s row `r`. -/
def projArr (x : FVec Ideal ⟨2, ![R, C]⟩ .f32) (g be : FVec Ideal ⟨1, ![C]⟩ .f32) (W : FVec Ideal ⟨2, ![C, N]⟩ .f32)
    (b : FVec Ideal ⟨1, ![N]⟩ .f32) : FVec Ideal ⟨2, ![R, N]⟩ .f32 :=
  fun i => projRow lit128 litEps (fun j => x (ix2 (rowOfIdx i) j)) (fun j => g (ix1 j)) (fun j => be (ix1 j))
    (fun k q => W (ix2 k q)) (fun q => b (ix1 q)) (laneOfIdx i)

theorem projArr_apply (x : FVec Ideal ⟨2, ![R, C]⟩ .f32) (g be : FVec Ideal ⟨1, ![C]⟩ .f32) (W : FVec Ideal ⟨2, ![C, N]⟩ .f32)
    (b : FVec Ideal ⟨1, ![N]⟩ .f32) (r : Fin R) (q : Fin N) :
    projArr x g be W b (ix2 r q) = projRow lit128 litEps (fun j => x (ix2 r j)) (fun j => g (ix1 j)) (fun j => be (ix1 j))
      (fun k q => W (ix2 k q)) (fun q => b (ix1 q)) q := rfl

/-- Every row through the output projection, residual, normalisation and feed-forward block. -/
def tailArr (x agg : FVec Ideal ⟨2, ![R, C]⟩ .f32) (Wo : FVec Ideal ⟨2, ![C, C]⟩ .f32) (bo g2 be2 : FVec Ideal ⟨1, ![C]⟩ .f32)
    (W1 : FVec Ideal ⟨2, ![C, J]⟩ .f32) (b1 : FVec Ideal ⟨1, ![J]⟩ .f32) (W2 : FVec Ideal ⟨2, ![J, C]⟩ .f32)
    (b2 : FVec Ideal ⟨1, ![C]⟩ .f32) : FVec Ideal ⟨2, ![R, C]⟩ .f32 :=
  fun i => ffnRow lit128 litEps litZero
    (residRow (fun j => x (ix2 (rowOfIdx i) j)) (fun k => agg (ix2 (rowOfIdx i) k)) (fun k q => Wo (ix2 k q)) (fun q => bo (ix1 q)))
    (fun j => g2 (ix1 j)) (fun j => be2 (ix1 j)) (fun k j => W1 (ix2 k j)) (fun j => b1 (ix1 j))
    (fun j q => W2 (ix2 j q)) (fun q => b2 (ix1 q)) (laneOfIdx i)

theorem tailArr_apply (x agg : FVec Ideal ⟨2, ![R, C]⟩ .f32) (Wo : FVec Ideal ⟨2, ![C, C]⟩ .f32) (bo g2 be2 : FVec Ideal ⟨1, ![C]⟩ .f32)
    (W1 : FVec Ideal ⟨2, ![C, J]⟩ .f32) (b1 : FVec Ideal ⟨1, ![J]⟩ .f32) (W2 : FVec Ideal ⟨2, ![J, C]⟩ .f32)
    (b2 : FVec Ideal ⟨1, ![C]⟩ .f32) (r : Fin R) (q : Fin C) :
    tailArr x agg Wo bo g2 be2 W1 b1 W2 b2 (ix2 r q) = ffnRow lit128 litEps litZero
      (residRow (fun j => x (ix2 r j)) (fun k => agg (ix2 r k)) (fun k q => Wo (ix2 k q)) (fun q => bo (ix1 q)))
      (fun j => g2 (ix1 j)) (fun j => be2 (ix1 j)) (fun k j => W1 (ix2 k j)) (fun j => b1 (ix1 j))
      (fun j q => W2 (ix2 j q)) (fun q => b2 (ix1 q)) q := rfl

end Cert.LibRowArrays

end
-- ==== Proof.KernelValue0.lean ====
/-
  What the first tiled call leaves: the query, key and value arrays as whole-array functions of the arguments.

  Grid point `t` reads rows `2000 t … 2000 t + 1999` of `x`, the whole of every weight matrix and the gain, offset and bias
  vectors (recast as one row each by the host before the call), and writes the same rows of the three results. Every row
  it writes is the projected row of the same row of `x`; the twenty-five row blocks tile the 50000 rows, so each result
  array ends as the array whose every row is the projected row.
-/
import proofs.«150281_j48009144434784_1_alg».proof.Proof.KernelLaunch
import proofs.«150281_j48009144434784_1_alg».proof.Proof.KernelRows
import proofs.«150281_j48009144434784_1_alg».proof.Proof.LibRowArrays
import Idealize.ShloMosaic.Lib.ValueLayout
import Idealize.ShloMosaic.Lib.StableHlo.Run

set_option maxRecDepth 16384

noncomputable section

namespace Cert.KernelIdeal.RunValue

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.LibRowSpec Cert.LibRowArrays Cert.KernelRows

variable (m : (ℓ : Loc nD τ sig) → Buf (Elt Ideal) ℓ) (ρ : Dev nD → PrngReg)

theorem hz : (![0, 0] : Fin 2 → Nat) = fun _ => 0 := funext fun a => by fin_cases a <;> rfl

/-- The block index maps of the first call, decided over its twenty-five grid points: the row tiles move together, every
    other window stays at block 0. -/
theorem idx_facts0 : ∀ t : Fin cfg0.N,
    win0_0.index t (0 : Fin 2) = win0_9.index t (0 : Fin 2) ∧ win0_0.index t (1 : Fin 2) = 0
    ∧ win0_10.index t (0 : Fin 2) = win0_9.index t (0 : Fin 2) ∧ win0_10.index t (1 : Fin 2) = 0
    ∧ win0_11.index t (0 : Fin 2) = win0_9.index t (0 : Fin 2) ∧ win0_11.index t (1 : Fin 2) = 0
    ∧ win0_9.index t (1 : Fin 2) = 0 ∧ win0_9.index t (0 : Fin 2) = t.val
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0 ∧ t.val < 25 :=
  (by decide +kernel : ∀ t : Fin grid0.N, _)

/-- Row `p` of grid point `t`'s tile is row `2000 t + p` of the array. -/
def rowAt (t : Fin cfg0.N) (p : Fin 2000) : Fin 50000 :=
  ⟨t.val * 2000 + p.val, by have := (idx_facts0 t).2.2.2.2.2.2.2.2.2.2.2.2.2.2.2.2.2.2.2.2.2.2.2.2; have := p.isLt; omega⟩

section Blocks

variable {F : FTy → Type} [FloatOps F]
variable (V : (c : Dev nD) → (b : Ref sig .tc) → Buf (Elt F) ((c : Thread nD τ).loc b))

/-- The tile of `x` at point `t`, row `p`, lane `k`. -/
theorem blk0_x (c : Dev nD) (t : Fin cfg0.N) (p : Fin 2000) (k : Fin 128) :
    iblk0 V c 0 t (ix2 p k) = V c main_arg0 (ix2 (rowAt t p) k) := by
  show V c main_arg0 (((cfg0.win 0).blk t).view.emb (ix2 p k)) = _
  refine congrArg _ (funext fun a => Fin.ext ?_)
  obtain ⟨e0, e1, -⟩ := idx_facts0 t
  have e9 := (idx_facts0 t).2.2.2.2.2.2.2.1
  match a with
  | ⟨0, _⟩ => show win0_0.index t (0 : Fin 2) * 2000 + 1 * p.val = t.val * 2000 + p.val; omega
  | ⟨1, _⟩ => show win0_0.index t (1 : Fin 2) * 128 + 1 * k.val = k.val; omega

/-- A one-row window (gain, offset or bias) is read whole at every point. -/
theorem blk0_row (c : Dev nD) (t : Fin cfg0.N) (k : Fin 128) :
    iblk0 V c 1 t (ix2 (0 : Fin 1) k) = V c main_v0 (ix2 (0 : Fin 1) k)
    ∧ iblk0 V c 2 t (ix2 (0 : Fin 1) k) = V c main_v1 (ix2 (0 : Fin 1) k)
    ∧ iblk0 V c 4 t (ix2 (0 : Fin 1) k) = V c main_v2 (ix2 (0 : Fin 1) k)
    ∧ iblk0 V c 6 t (ix2 (0 : Fin 1) k) = V c main_v3 (ix2 (0 : Fin 1) k)
    ∧ iblk0 V c 8 t (ix2 (0 : Fin 1) k) = V c main_v4 (ix2 (0 : Fin 1) k) := by
  obtain ⟨-, -, -, -, -, -, -, -, a0, a1, b0, b1, -, -, c0, c1, -, -, d0, d1, -, -, f0, f1, -⟩ := idx_facts0 t
  refine ⟨?_, ?_, ?_, ?_, ?_⟩
  · show V c main_v0 (((cfg0.win 1).blk t).view.emb (ix2 (0 : Fin 1) k)) = _
    refine congrArg _ (funext fun a => Fin.ext ?_)
    match a with
    | ⟨0, _⟩ => show win0_1.index t (0 : Fin 2) * 1 + 1 * 0 = 0; omega
    | ⟨1, _⟩ => show win0_1.index t (1 : Fin 2) * 128 + 1 * k.val = k.val; omega
  · show V c main_v1 (((cfg0.win 2).blk t).view.emb (ix2 (0 : Fin 1) k)) = _
    refine congrArg _ (funext fun a => Fin.ext ?_)
    match a with
    | ⟨0, _⟩ => show win0_2.index t (0 : Fin 2) * 1 + 1 * 0 = 0; omega
    | ⟨1, _⟩ => show win0_2.index t (1 : Fin 2) * 128 + 1 * k.val = k.val; omega
  · show V c main_v2 (((cfg0.win 4).blk t).view.emb (ix2 (0 : Fin 1) k)) = _
    refine congrArg _ (funext fun a => Fin.ext ?_)
    match a with
    | ⟨0, _⟩ => show win0_4.index t (0 : Fin 2) * 1 + 1 * 0 = 0; omega
    | ⟨1, _⟩ => show win0_4.index t (1 : Fin 2) * 128 + 1 * k.val = k.val; omega
  · show V c main_v3 (((cfg0.win 6).blk t).view.emb (ix2 (0 : Fin 1) k)) = _
    refine congrArg _ (funext fun a => Fin.ext ?_)
    match a with
    | ⟨0, _⟩ => show win0_6.index t (0 : Fin 2) * 1 + 1 * 0 = 0; omega
    | ⟨1, _⟩ => show win0_6.index t (1 : Fin 2) * 128 + 1 * k.val = k.val; omega
  · show V c main_v4 (((cfg0.win 8).blk t).view.emb (ix2 (0 : Fin 1) k)) = _
    refine congrArg _ (funext fun a => Fin.ext ?_)
    match a with
    | ⟨0, _⟩ => show win0_8.index t (0 : Fin 2) * 1 + 1 * 0 = 0; omega
    | ⟨1, _⟩ => show win0_8.index t (1 : Fin 2) * 128 + 1 * k.val = k.val; omega

/-- A weight matrix is read whole at every point. -/
theorem blk0_mat (c : Dev nD) (t : Fin cfg0.N) (k q : Fin 128) :
    iblk0 V c 3 t (ix2 k q) = V c main_arg3 (ix2 k q)
    ∧ iblk0 V c 5 t (ix2 k q) = V c main_arg5 (ix2 k q)
    ∧ iblk0 V c 7 t (ix2 k q) = V c main_arg7 (ix2 k q) := by
  obtain ⟨-, -, -, -, -, -, -, -, -, -, -, -, a0, a1, -, -, b0, b1, -, -, c0, c1, -⟩ := idx_facts0 t
  refine ⟨?_, ?_, ?_⟩
  · show V c main_arg3 (((cfg0.win 3).blk t).view.emb (ix2 k q)) = _
    refine congrArg _ (funext fun a => Fin.ext ?_)
    match a with
    | ⟨0, _⟩ => show win0_3.index t (0 : Fin 2) * 128 + 1 * k.val = k.val; omega
    | ⟨1, _⟩ => show win0_3.index t (1 : Fin 2) * 128 + 1 * q.val = q.val; omega
  · show V c main_arg5 (((cfg0.win 5).blk t).view.emb (ix2 k q)) = _
    refine congrArg _ (funext fun a => Fin.ext ?_)
    match a with
    | ⟨0, _⟩ => show win0_5.index t (0 : Fin 2) * 128 + 1 * k.val = k.val; omega
    | ⟨1, _⟩ => show win0_5.index t (1 : Fin 2) * 128 + 1 * q.val = q.val; omega
  · show V c main_arg7 (((cfg0.win 7).blk t).view.emb (ix2 k q)) = _
    refine congrArg _ (funext fun a => Fin.ext ?_)
    match a with
    | ⟨0, _⟩ => show win0_7.index t (0 : Fin 2) * 128 + 1 * k.val = k.val; omega
    | ⟨1, _⟩ => show win0_7.index t (1 : Fin 2) * 128 + 1 * q.val = q.val; omega

end Blocks

/-! ## The arrays the first call finds -/

/-- No host operation before the first call writes an argument array. -/
theorem V1_arg (c : Dev nD) :
    V1 m ρ c main_arg0 = m ((c : Thread nD τ).loc main_arg0)
    ∧ V1 m ρ c main_arg3 = m ((c : Thread nD τ).loc main_arg3)
    ∧ V1 m ρ c main_arg5 = m ((c : Thread nD τ).loc main_arg5)
    ∧ V1 m ρ c main_arg7 = m ((c : Thread nD τ).loc main_arg7) := by
  refine ⟨?_, ?_, ?_, ?_⟩ <;>
  · dsimp only [V1, W1, hostOps0]
    after_results
    try rfl

/-- The five vectors recast as rows by the host. -/
theorem V1_rows (c : Dev nD) :
    (V1 m ρ c main_v0 : S1x128.Idx → Ideal .f32) = shapeCast S1x128 (m ((c : Thread nD τ).loc main_arg16)) shapeCasts_S128_S1x128
    ∧ (V1 m ρ c main_v1 : S1x128.Idx → Ideal .f32) = shapeCast S1x128 (m ((c : Thread nD τ).loc main_arg17)) shapeCasts_S128_S1x128
    ∧ (V1 m ρ c main_v2 : S1x128.Idx → Ideal .f32) = shapeCast S1x128 (m ((c : Thread nD τ).loc main_arg4)) shapeCasts_S128_S1x128
    ∧ (V1 m ρ c main_v3 : S1x128.Idx → Ideal .f32) = shapeCast S1x128 (m ((c : Thread nD τ).loc main_arg6)) shapeCasts_S128_S1x128
    ∧ (V1 m ρ c main_v4 : S1x128.Idx → Ideal .f32) = shapeCast S1x128 (m ((c : Thread nD τ).loc main_arg8)) shapeCasts_S128_S1x128 := by
  refine ⟨?_, ?_, ?_, ?_, ?_⟩ <;>
  · dsimp only [V1, W1, hostOps0]
    after_results
    try rfl

/-- What grid point `t` writes back to the Q array: the same rows of the array of projected rows. -/
theorem flushed_Q (c : Dev nD) (t : Fin cfg0.N) :
    (dat0 (V1 m ρ) c).flushed 9 t = ((cfg0.win 9).blk t).view.read (Elt Ideal)
      (projArr (m ((c : Thread nD τ).loc main_arg0)) (m ((c : Thread nD τ).loc main_arg16)) (m ((c : Thread nD τ).loc main_arg17))
        (m ((c : Thread nD τ).loc main_arg3)) (m ((c : Thread nD τ).loc main_arg4))) := by
  show (cfg0.win 9).cut (grid0.coords t) ((dat0 (V1 m ρ) c).after 9 t) = _
  rw [after0_9]
  unfold out0_9
  rw [View.canon_unit_zero hz]
  simp only [View.ld_unit_zero (S := S2000x128) hz, View.ld_unit_zero (S := S1x128) hz, View.ld_unit_zero (S := S128x128) hz]
  funext j
  obtain ⟨p, q, rfl⟩ : ∃ (p : Fin 2000) (q : Fin 128), j = ix2 p q := ⟨j 0, j 1, eq_ix2 j⟩
  refine (q_apply (iblk0 (V1 m ρ) c 0 t) (iblk0 (V1 m ρ) c 1 t) (iblk0 (V1 m ρ) c 2 t) (iblk0 (V1 m ρ) c 3 t)
    (iblk0 (V1 m ρ) c 4 t) p q).trans ?_
  have he : ((cfg0.win 9).blk t).view.emb (ix2 p q) = ix2 (rowAt t p) q := by
    funext a; apply Fin.ext
    have f := idx_facts0 t
    match a with
    | ⟨0, _⟩ => show win0_9.index t (0 : Fin 2) * 2000 + 1 * p.val = t.val * 2000 + p.val; omega
    | ⟨1, _⟩ => show win0_9.index t (1 : Fin 2) * 128 + 1 * q.val = q.val; omega
  show _ = projArr _ _ _ _ _ (((cfg0.win 9).blk t).view.emb (ix2 p q))
  rw [he, projArr_apply]
  have hx : (fun j => iblk0 (V1 m ρ) c 0 t (ix2 p j)) = fun j => m ((c : Thread nD τ).loc main_arg0) (ix2 (rowAt t p) j) :=
    funext fun j => (blk0_x (V1 m ρ) c t p j).trans (congrFun (V1_arg m ρ c).1 _)
  have hg : (fun j => iblk0 (V1 m ρ) c 1 t (ix2 (0 : Fin 1) j)) = fun j => m ((c : Thread nD τ).loc main_arg16) (ix1 j) :=
    funext fun j => ((blk0_row (V1 m ρ) c t j).1).trans
      ((congrFun (V1_rows m ρ c).1 _).trans (shapeCast_a_1a_apply _ shapeCasts_S128_S1x128 0 j))
  have hb : (fun j => iblk0 (V1 m ρ) c 2 t (ix2 (0 : Fin 1) j)) = fun j => m ((c : Thread nD τ).loc main_arg17) (ix1 j) :=
    funext fun j => ((blk0_row (V1 m ρ) c t j).2.1).trans
      ((congrFun (V1_rows m ρ c).2.1 _).trans (shapeCast_a_1a_apply _ shapeCasts_S128_S1x128 0 j))
  have hW : (fun k q => iblk0 (V1 m ρ) c 3 t (ix2 k q)) = fun k q => m ((c : Thread nD τ).loc main_arg3) (ix2 k q) :=
    funext fun k => funext fun q => ((blk0_mat (V1 m ρ) c t k q).1).trans (congrFun (V1_arg m ρ c).2.1 _)
  have hbias : (fun q => iblk0 (V1 m ρ) c 4 t (ix2 (0 : Fin 1) q)) = fun q => m ((c : Thread nD τ).loc main_arg4) (ix1 q) :=
    funext fun j => ((blk0_row (V1 m ρ) c t j).2.2.1).trans
      ((congrFun (V1_rows m ρ c).2.2.1 _).trans (shapeCast_a_1a_apply _ shapeCasts_S128_S1x128 0 j))
  rw [hx, hg, hb, hW, hbias]

/-- An index of the Q array is in point `t`'s block iff each coordinate is in the block's range. -/
theorem mem_blk_Q (t : Fin cfg0.N) (i : S50000x128.Idx) :
    i ∈ ((cfg0.win 9).blk t).view.set ↔ ∀ a : Fin 2, win0_9.index t a * S2000x128.size a ≤ (i a).val
      ∧ (i a).val < win0_9.index t a * S2000x128.size a + S2000x128.size a := by
  show i ∈ ((View.whole main_v5_0).slice (win0_9.rect t)).set ↔ _
  rw [View.set_slice_whole, Rect.mem_set_unit]
  exact Iff.rfl

/-- The twenty-five row blocks cover the Q array: row `r` is in the block of point `r / 2000`. -/
theorem cover_Q (i : S50000x128.Idx) :
    ∃ t : Fin cfg0.N, (cfg0.win 9).flush t = true ∧ i ∈ ((cfg0.win 9).blk t).view.set := by
  have hi0 : (i 0).val < 50000 := (i 0).isLt
  have hi1 : (i 1).val < 128 := (i 1).isLt
  have hN : grid0.N = 25 := by decide
  have ht : (i 0).val / 2000 < cfg0.N := by show (i 0).val / 2000 < grid0.N; omega
  refine ⟨⟨(i 0).val / 2000, ht⟩, flush0_9 _, ?_⟩
  rw [mem_blk_Q]
  have f := idx_facts0 ⟨(i 0).val / 2000, ht⟩
  have e9 : win0_9.index ⟨(i 0).val / 2000, ht⟩ (0 : Fin 2) = (i 0).val / 2000 := f.2.2.2.2.2.2.2.1
  have e0 : win0_9.index ⟨(i 0).val / 2000, ht⟩ (0 : Fin 2) = (i 0).val / 2000 := by omega
  have e1 : win0_9.index ⟨(i 0).val / 2000, ht⟩ (1 : Fin 2) = 0 := by omega
  intro a
  match a with
  | ⟨0, _⟩ =>
    show win0_9.index ⟨(i 0).val / 2000, ht⟩ (0 : Fin 2) * 2000 ≤ (i 0).val
      ∧ (i 0).val < win0_9.index ⟨(i 0).val / 2000, ht⟩ (0 : Fin 2) * 2000 + 2000
    rw [e0]; omega
  | ⟨1, _⟩ =>
    show win0_9.index ⟨(i 0).val / 2000, ht⟩ (1 : Fin 2) * 128 ≤ (i 1).val
      ∧ (i 1).val < win0_9.index ⟨(i 0).val / 2000, ht⟩ (1 : Fin 2) * 128 + 128
    rw [e1]; omega

/-- The Q array after the first call: every row the projected row. -/
theorem final_Q (c : Dev nD) :
    (dat0 (V1 m ρ) c).arrAt 9 cfg0.N
      = projArr (m ((c : Thread nD τ).loc main_arg0)) (m ((c : Thread nD τ).loc main_arg16)) (m ((c : Thread nD τ).loc main_arg17))
        (m ((c : Thread nD τ).loc main_arg3)) (m ((c : Thread nD τ).loc main_arg4)) :=
  (dat0 (V1 m ρ) c).arrAt_eq_of_cover 9 _ (fun t _ => flushed_Q m ρ c t) fun i => cover_Q i

/-- What grid point `t` writes back to the K array: the same rows of the array of projected rows. -/
theorem flushed_K (c : Dev nD) (t : Fin cfg0.N) :
    (dat0 (V1 m ρ) c).flushed 10 t = ((cfg0.win 10).blk t).view.read (Elt Ideal)
      (projArr (m ((c : Thread nD τ).loc main_arg0)) (m ((c : Thread nD τ).loc main_arg16)) (m ((c : Thread nD τ).loc main_arg17))
        (m ((c : Thread nD τ).loc main_arg5)) (m ((c : Thread nD τ).loc main_arg6))) := by
  show (cfg0.win 10).cut (grid0.coords t) ((dat0 (V1 m ρ) c).after 10 t) = _
  rw [after0_10]
  unfold out0_10
  rw [View.canon_unit_zero hz]
  simp only [View.ld_unit_zero (S := S2000x128) hz, View.ld_unit_zero (S := S1x128) hz, View.ld_unit_zero (S := S128x128) hz]
  funext j
  obtain ⟨p, q, rfl⟩ : ∃ (p : Fin 2000) (q : Fin 128), j = ix2 p q := ⟨j 0, j 1, eq_ix2 j⟩
  refine (k_apply (iblk0 (V1 m ρ) c 0 t) (iblk0 (V1 m ρ) c 1 t) (iblk0 (V1 m ρ) c 2 t) (iblk0 (V1 m ρ) c 5 t)
    (iblk0 (V1 m ρ) c 6 t) p q).trans ?_
  have he : ((cfg0.win 10).blk t).view.emb (ix2 p q) = ix2 (rowAt t p) q := by
    funext a; apply Fin.ext
    have f := idx_facts0 t
    match a with
    | ⟨0, _⟩ => show win0_10.index t (0 : Fin 2) * 2000 + 1 * p.val = t.val * 2000 + p.val; omega
    | ⟨1, _⟩ => show win0_10.index t (1 : Fin 2) * 128 + 1 * q.val = q.val; omega
  show _ = projArr _ _ _ _ _ (((cfg0.win 10).blk t).view.emb (ix2 p q))
  rw [he, projArr_apply]
  have hx : (fun j => iblk0 (V1 m ρ) c 0 t (ix2 p j)) = fun j => m ((c : Thread nD τ).loc main_arg0) (ix2 (rowAt t p) j) :=
    funext fun j => (blk0_x (V1 m ρ) c t p j).trans (congrFun (V1_arg m ρ c).1 _)
  have hg : (fun j => iblk0 (V1 m ρ) c 1 t (ix2 (0 : Fin 1) j)) = fun j => m ((c : Thread nD τ).loc main_arg16) (ix1 j) :=
    funext fun j => ((blk0_row (V1 m ρ) c t j).1).trans
      ((congrFun (V1_rows m ρ c).1 _).trans (shapeCast_a_1a_apply _ shapeCasts_S128_S1x128 0 j))
  have hb : (fun j => iblk0 (V1 m ρ) c 2 t (ix2 (0 : Fin 1) j)) = fun j => m ((c : Thread nD τ).loc main_arg17) (ix1 j) :=
    funext fun j => ((blk0_row (V1 m ρ) c t j).2.1).trans
      ((congrFun (V1_rows m ρ c).2.1 _).trans (shapeCast_a_1a_apply _ shapeCasts_S128_S1x128 0 j))
  have hW : (fun k q => iblk0 (V1 m ρ) c 5 t (ix2 k q)) = fun k q => m ((c : Thread nD τ).loc main_arg5) (ix2 k q) :=
    funext fun k => funext fun q => ((blk0_mat (V1 m ρ) c t k q).2.1).trans (congrFun (V1_arg m ρ c).2.2.1 _)
  have hbias : (fun q => iblk0 (V1 m ρ) c 6 t (ix2 (0 : Fin 1) q)) = fun q => m ((c : Thread nD τ).loc main_arg6) (ix1 q) :=
    funext fun j => ((blk0_row (V1 m ρ) c t j).2.2.2.1).trans
      ((congrFun (V1_rows m ρ c).2.2.2.1 _).trans (shapeCast_a_1a_apply _ shapeCasts_S128_S1x128 0 j))
  rw [hx, hg, hb, hW, hbias]

/-- An index of the K array is in point `t`'s block iff each coordinate is in the block's range. -/
theorem mem_blk_K (t : Fin cfg0.N) (i : S50000x128.Idx) :
    i ∈ ((cfg0.win 10).blk t).view.set ↔ ∀ a : Fin 2, win0_10.index t a * S2000x128.size a ≤ (i a).val
      ∧ (i a).val < win0_10.index t a * S2000x128.size a + S2000x128.size a := by
  show i ∈ ((View.whole main_v5_1).slice (win0_10.rect t)).set ↔ _
  rw [View.set_slice_whole, Rect.mem_set_unit]
  exact Iff.rfl

/-- The twenty-five row blocks cover the K array: row `r` is in the block of point `r / 2000`. -/
theorem cover_K (i : S50000x128.Idx) :
    ∃ t : Fin cfg0.N, (cfg0.win 10).flush t = true ∧ i ∈ ((cfg0.win 10).blk t).view.set := by
  have hi0 : (i 0).val < 50000 := (i 0).isLt
  have hi1 : (i 1).val < 128 := (i 1).isLt
  have hN : grid0.N = 25 := by decide
  have ht : (i 0).val / 2000 < cfg0.N := by show (i 0).val / 2000 < grid0.N; omega
  refine ⟨⟨(i 0).val / 2000, ht⟩, flush0_10 _, ?_⟩
  rw [mem_blk_K]
  have f := idx_facts0 ⟨(i 0).val / 2000, ht⟩
  have e9 : win0_9.index ⟨(i 0).val / 2000, ht⟩ (0 : Fin 2) = (i 0).val / 2000 := f.2.2.2.2.2.2.2.1
  have e0 : win0_10.index ⟨(i 0).val / 2000, ht⟩ (0 : Fin 2) = (i 0).val / 2000 := by omega
  have e1 : win0_10.index ⟨(i 0).val / 2000, ht⟩ (1 : Fin 2) = 0 := by omega
  intro a
  match a with
  | ⟨0, _⟩ =>
    show win0_10.index ⟨(i 0).val / 2000, ht⟩ (0 : Fin 2) * 2000 ≤ (i 0).val
      ∧ (i 0).val < win0_10.index ⟨(i 0).val / 2000, ht⟩ (0 : Fin 2) * 2000 + 2000
    rw [e0]; omega
  | ⟨1, _⟩ =>
    show win0_10.index ⟨(i 0).val / 2000, ht⟩ (1 : Fin 2) * 128 ≤ (i 1).val
      ∧ (i 1).val < win0_10.index ⟨(i 0).val / 2000, ht⟩ (1 : Fin 2) * 128 + 128
    rw [e1]; omega

/-- The K array after the first call: every row the projected row. -/
theorem final_K (c : Dev nD) :
    (dat0 (V1 m ρ) c).arrAt 10 cfg0.N
      = projArr (m ((c : Thread nD τ).loc main_arg0)) (m ((c : Thread nD τ).loc main_arg16)) (m ((c : Thread nD τ).loc main_arg17))
        (m ((c : Thread nD τ).loc main_arg5)) (m ((c : Thread nD τ).loc main_arg6)) :=
  (dat0 (V1 m ρ) c).arrAt_eq_of_cover 10 _ (fun t _ => flushed_K m ρ c t) fun i => cover_K i

/-- What grid point `t` writes back to the V array: the same rows of the array of projected rows. -/
theorem flushed_V (c : Dev nD) (t : Fin cfg0.N) :
    (dat0 (V1 m ρ) c).flushed 11 t = ((cfg0.win 11).blk t).view.read (Elt Ideal)
      (projArr (m ((c : Thread nD τ).loc main_arg0)) (m ((c : Thread nD τ).loc main_arg16)) (m ((c : Thread nD τ).loc main_arg17))
        (m ((c : Thread nD τ).loc main_arg7)) (m ((c : Thread nD τ).loc main_arg8))) := by
  show (cfg0.win 11).cut (grid0.coords t) ((dat0 (V1 m ρ) c).after 11 t) = _
  rw [after0_11]
  unfold out0_11
  rw [View.canon_unit_zero hz]
  simp only [View.ld_unit_zero (S := S2000x128) hz, View.ld_unit_zero (S := S1x128) hz, View.ld_unit_zero (S := S128x128) hz]
  funext j
  obtain ⟨p, q, rfl⟩ : ∃ (p : Fin 2000) (q : Fin 128), j = ix2 p q := ⟨j 0, j 1, eq_ix2 j⟩
  refine (v_apply (iblk0 (V1 m ρ) c 0 t) (iblk0 (V1 m ρ) c 1 t) (iblk0 (V1 m ρ) c 2 t) (iblk0 (V1 m ρ) c 7 t)
    (iblk0 (V1 m ρ) c 8 t) p q).trans ?_
  have he : ((cfg0.win 11).blk t).view.emb (ix2 p q) = ix2 (rowAt t p) q := by
    funext a; apply Fin.ext
    have f := idx_facts0 t
    match a with
    | ⟨0, _⟩ => show win0_11.index t (0 : Fin 2) * 2000 + 1 * p.val = t.val * 2000 + p.val; omega
    | ⟨1, _⟩ => show win0_11.index t (1 : Fin 2) * 128 + 1 * q.val = q.val; omega
  show _ = projArr _ _ _ _ _ (((cfg0.win 11).blk t).view.emb (ix2 p q))
  rw [he, projArr_apply]
  have hx : (fun j => iblk0 (V1 m ρ) c 0 t (ix2 p j)) = fun j => m ((c : Thread nD τ).loc main_arg0) (ix2 (rowAt t p) j) :=
    funext fun j => (blk0_x (V1 m ρ) c t p j).trans (congrFun (V1_arg m ρ c).1 _)
  have hg : (fun j => iblk0 (V1 m ρ) c 1 t (ix2 (0 : Fin 1) j)) = fun j => m ((c : Thread nD τ).loc main_arg16) (ix1 j) :=
    funext fun j => ((blk0_row (V1 m ρ) c t j).1).trans
      ((congrFun (V1_rows m ρ c).1 _).trans (shapeCast_a_1a_apply _ shapeCasts_S128_S1x128 0 j))
  have hb : (fun j => iblk0 (V1 m ρ) c 2 t (ix2 (0 : Fin 1) j)) = fun j => m ((c : Thread nD τ).loc main_arg17) (ix1 j) :=
    funext fun j => ((blk0_row (V1 m ρ) c t j).2.1).trans
      ((congrFun (V1_rows m ρ c).2.1 _).trans (shapeCast_a_1a_apply _ shapeCasts_S128_S1x128 0 j))
  have hW : (fun k q => iblk0 (V1 m ρ) c 7 t (ix2 k q)) = fun k q => m ((c : Thread nD τ).loc main_arg7) (ix2 k q) :=
    funext fun k => funext fun q => ((blk0_mat (V1 m ρ) c t k q).2.2).trans (congrFun (V1_arg m ρ c).2.2.2 _)
  have hbias : (fun q => iblk0 (V1 m ρ) c 8 t (ix2 (0 : Fin 1) q)) = fun q => m ((c : Thread nD τ).loc main_arg8) (ix1 q) :=
    funext fun j => ((blk0_row (V1 m ρ) c t j).2.2.2.2).trans
      ((congrFun (V1_rows m ρ c).2.2.2.2 _).trans (shapeCast_a_1a_apply _ shapeCasts_S128_S1x128 0 j))
  rw [hx, hg, hb, hW, hbias]

/-- An index of the V array is in point `t`'s block iff each coordinate is in the block's range. -/
theorem mem_blk_V (t : Fin cfg0.N) (i : S50000x128.Idx) :
    i ∈ ((cfg0.win 11).blk t).view.set ↔ ∀ a : Fin 2, win0_11.index t a * S2000x128.size a ≤ (i a).val
      ∧ (i a).val < win0_11.index t a * S2000x128.size a + S2000x128.size a := by
  show i ∈ ((View.whole main_v5_2).slice (win0_11.rect t)).set ↔ _
  rw [View.set_slice_whole, Rect.mem_set_unit]
  exact Iff.rfl

/-- The twenty-five row blocks cover the V array: row `r` is in the block of point `r / 2000`. -/
theorem cover_V (i : S50000x128.Idx) :
    ∃ t : Fin cfg0.N, (cfg0.win 11).flush t = true ∧ i ∈ ((cfg0.win 11).blk t).view.set := by
  have hi0 : (i 0).val < 50000 := (i 0).isLt
  have hi1 : (i 1).val < 128 := (i 1).isLt
  have hN : grid0.N = 25 := by decide
  have ht : (i 0).val / 2000 < cfg0.N := by show (i 0).val / 2000 < grid0.N; omega
  refine ⟨⟨(i 0).val / 2000, ht⟩, flush0_11 _, ?_⟩
  rw [mem_blk_V]
  have f := idx_facts0 ⟨(i 0).val / 2000, ht⟩
  have e9 : win0_9.index ⟨(i 0).val / 2000, ht⟩ (0 : Fin 2) = (i 0).val / 2000 := f.2.2.2.2.2.2.2.1
  have e0 : win0_11.index ⟨(i 0).val / 2000, ht⟩ (0 : Fin 2) = (i 0).val / 2000 := by omega
  have e1 : win0_11.index ⟨(i 0).val / 2000, ht⟩ (1 : Fin 2) = 0 := by omega
  intro a
  match a with
  | ⟨0, _⟩ =>
    show win0_11.index ⟨(i 0).val / 2000, ht⟩ (0 : Fin 2) * 2000 ≤ (i 0).val
      ∧ (i 0).val < win0_11.index ⟨(i 0).val / 2000, ht⟩ (0 : Fin 2) * 2000 + 2000
    rw [e0]; omega
  | ⟨1, _⟩ =>
    show win0_11.index ⟨(i 0).val / 2000, ht⟩ (1 : Fin 2) * 128 ≤ (i 1).val
      ∧ (i 1).val < win0_11.index ⟨(i 0).val / 2000, ht⟩ (1 : Fin 2) * 128 + 128
    rw [e1]; omega

/-- The V array after the first call: every row the projected row. -/
theorem final_V (c : Dev nD) :
    (dat0 (V1 m ρ) c).arrAt 11 cfg0.N
      = projArr (m ((c : Thread nD τ).loc main_arg0)) (m ((c : Thread nD τ).loc main_arg16)) (m ((c : Thread nD τ).loc main_arg17))
        (m ((c : Thread nD τ).loc main_arg7)) (m ((c : Thread nD τ).loc main_arg8)) :=
  (dat0 (V1 m ρ) c).arrAt_eq_of_cover 11 _ (fun t _ => flushed_V m ρ c t) fun i => cover_V i

end Cert.KernelIdeal.RunValue

end
-- ==== Proof.KernelValue1.lean ====
/-
  What the second tiled call leaves: the result array as a whole-array function of `x`, the aggregated array and the
  weights.

  Grid point `t` reads rows `2000 t … 2000 t + 1999` of the aggregated array and of `x`, the whole of the three weight
  matrices and the five vectors (recast as one row each by the host), and writes the same rows of the result. Every row it
  writes is the feed-forward block applied to the residual row; the twenty-five row blocks tile the 50000 rows.
-/
import proofs.«150281_j48009144434784_1_alg».proof.Proof.KernelValue0

set_option maxRecDepth 16384

noncomputable section

namespace Cert.KernelIdeal.RunValue

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.LibRowSpec Cert.LibRowArrays Cert.KernelRows

variable (m : (ℓ : Loc nD τ sig) → Buf (Elt Ideal) ℓ) (ρ : Dev nD → PrngReg)

/-- The block index maps of the second call, decided over its twenty-five grid points. -/
theorem idx_facts1 : ∀ t : Fin cfg1.N,
    win1_10.index t (0 : Fin 2) = t.val ∧ win1_10.index t (1 : Fin 2) = 0
    ∧ win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0
    ∧ win1_9.index t (0 : Fin 2) = 0 ∧ win1_9.index t (1 : Fin 2) = 0 ∧ t.val < 25 :=
  (by decide +kernel : ∀ t : Fin grid1.N, _)

/-- Row `p` of grid point `t`'s tile is row `2000 t + p` of the array. -/
def rowAt1 (t : Fin cfg1.N) (p : Fin 2000) : Fin 50000 :=
  ⟨t.val * 2000 + p.val, by have := (idx_facts1 t).2.2.2.2.2.2.2.2.2.2.2.2.2.2.2.2.2.2.2.2.2.2; have := p.isLt; omega⟩

section Blocks

variable {F : FTy → Type} [FloatOps F]
variable (V : (c : Dev nD) → (b : Ref sig .tc) → Buf (Elt F) ((c : Thread nD τ).loc b))

/-- The tiles of the aggregated array and of `x` at point `t`, row `p`, lane `k`. -/
theorem blk1_tiles (c : Dev nD) (t : Fin cfg1.N) (p : Fin 2000) (k : Fin 128) :
    iblk1 V c 0 t (ix2 p k) = V c main_v70 (ix2 (rowAt1 t p) k)
    ∧ iblk1 V c 1 t (ix2 p k) = V c main_arg0 (ix2 (rowAt1 t p) k) := by
  have f := idx_facts1 t
  refine ⟨?_, ?_⟩
  · show V c main_v70 (((cfg1.win 0).blk t).view.emb (ix2 p k)) = _
    refine congrArg _ (funext fun a => Fin.ext ?_)
    match a with
    | ⟨0, _⟩ => show win1_0.index t (0 : Fin 2) * 2000 + 1 * p.val = t.val * 2000 + p.val; omega
    | ⟨1, _⟩ => show win1_0.index t (1 : Fin 2) * 128 + 1 * k.val = k.val; omega
  · show V c main_arg0 (((cfg1.win 1).blk t).view.emb (ix2 p k)) = _
    refine congrArg _ (funext fun a => Fin.ext ?_)
    match a with
    | ⟨0, _⟩ => show win1_1.index t (0 : Fin 2) * 2000 + 1 * p.val = t.val * 2000 + p.val; omega
    | ⟨1, _⟩ => show win1_1.index t (1 : Fin 2) * 128 + 1 * k.val = k.val; omega

/-- A one-row window of 128 lanes is read whole at every point. -/
theorem blk1_row (c : Dev nD) (t : Fin cfg1.N) (k : Fin 128) :
    iblk1 V c 3 t (ix2 (0 : Fin 1) k) = V c main_v71 (ix2 (0 : Fin 1) k)
    ∧ iblk1 V c 4 t (ix2 (0 : Fin 1) k) = V c main_v72 (ix2 (0 : Fin 1) k)
    ∧ iblk1 V c 5 t (ix2 (0 : Fin 1) k) = V c main_v73 (ix2 (0 : Fin 1) k)
    ∧ iblk1 V c 9 t (ix2 (0 : Fin 1) k) = V c main_v75 (ix2 (0 : Fin 1) k) := by
  have f := idx_facts1 t
  refine ⟨?_, ?_, ?_, ?_⟩
  · show V c main_v71 (((cfg1.win 3).blk t).view.emb (ix2 (0 : Fin 1) k)) = _
    refine congrArg _ (funext fun a => Fin.ext ?_)
    match a with
    | ⟨0, _⟩ => show win1_3.index t (0 : Fin 2) * 1 + 1 * 0 = 0; omega
    | ⟨1, _⟩ => show win1_3.index t (1 : Fin 2) * 128 + 1 * k.val = k.val; omega
  · show V c main_v72 (((cfg1.win 4).blk t).view.emb (ix2 (0 : Fin 1) k)) = _
    refine congrArg _ (funext fun a => Fin.ext ?_)
    match a with
    | ⟨0, _⟩ => show win1_4.index t (0 : Fin 2) * 1 + 1 * 0 = 0; omega
    | ⟨1, _⟩ => show win1_4.index t (1 : Fin 2) * 128 + 1 * k.val = k.val; omega
  · show V c main_v73 (((cfg1.win 5).blk t).view.emb (ix2 (0 : Fin 1) k)) = _
    refine congrArg _ (funext fun a => Fin.ext ?_)
    match a with
    | ⟨0, _⟩ => show win1_5.index t (0 : Fin 2) * 1 + 1 * 0 = 0; omega
    | ⟨1, _⟩ => show win1_5.index t (1 : Fin 2) * 128 + 1 * k.val = k.val; omega
  · show V c main_v75 (((cfg1.win 9).blk t).view.emb (ix2 (0 : Fin 1) k)) = _
    refine congrArg _ (funext fun a => Fin.ext ?_)
    match a with
    | ⟨0, _⟩ => show win1_9.index t (0 : Fin 2) * 1 + 1 * 0 = 0; omega
    | ⟨1, _⟩ => show win1_9.index t (1 : Fin 2) * 128 + 1 * k.val = k.val; omega

/-- The one-row window of 512 lanes is read whole at every point. -/
theorem blk1_row512 (c : Dev nD) (t : Fin cfg1.N) (k : Fin 512) :
    iblk1 V c 7 t (ix2 (0 : Fin 1) k) = V c main_v74 (ix2 (0 : Fin 1) k) := by
  have f := idx_facts1 t
  show V c main_v74 (((cfg1.win 7).blk t).view.emb (ix2 (0 : Fin 1) k)) = _
  refine congrArg _ (funext fun a => Fin.ext ?_)
  match a with
  | ⟨0, _⟩ => show win1_7.index t (0 : Fin 2) * 1 + 1 * 0 = 0; omega
  | ⟨1, _⟩ => show win1_7.index t (1 : Fin 2) * 512 + 1 * k.val = k.val; omega

/-- The three weight matrices are read whole at every point. -/
theorem blk1_mats (c : Dev nD) (t : Fin cfg1.N) :
    (∀ (k q : Fin 128), iblk1 V c 2 t (ix2 k q) = V c main_arg9 (ix2 k q))
    ∧ (∀ (k : Fin 128) (j : Fin 512), iblk1 V c 6 t (ix2 k j) = V c main_arg12 (ix2 k j))
    ∧ (∀ (j : Fin 512) (q : Fin 128), iblk1 V c 8 t (ix2 j q) = V c main_arg14 (ix2 j q)) := by
  have f := idx_facts1 t
  refine ⟨fun k q => ?_, fun k j => ?_, fun j q => ?_⟩
  · show V c main_arg9 (((cfg1.win 2).blk t).view.emb (ix2 k q)) = _
    refine congrArg _ (funext fun a => Fin.ext ?_)
    match a with
    | ⟨0, _⟩ => show win1_2.index t (0 : Fin 2) * 128 + 1 * k.val = k.val; omega
    | ⟨1, _⟩ => show win1_2.index t (1 : Fin 2) * 128 + 1 * q.val = q.val; omega
  · show V c main_arg12 (((cfg1.win 6).blk t).view.emb (ix2 k j)) = _
    refine congrArg _ (funext fun a => Fin.ext ?_)
    match a with
    | ⟨0, _⟩ => show win1_6.index t (0 : Fin 2) * 128 + 1 * k.val = k.val; omega
    | ⟨1, _⟩ => show win1_6.index t (1 : Fin 2) * 512 + 1 * j.val = j.val; omega
  · show V c main_arg14 (((cfg1.win 8).blk t).view.emb (ix2 j q)) = _
    refine congrArg _ (funext fun a => Fin.ext ?_)
    match a with
    | ⟨0, _⟩ => show win1_8.index t (0 : Fin 2) * 512 + 1 * j.val = j.val; omega
    | ⟨1, _⟩ => show win1_8.index t (1 : Fin 2) * 128 + 1 * q.val = q.val; omega

end Blocks

/-! ## The arrays the second call finds -/

/-- The argument arrays the second call reads through windows are as launched. -/
theorem V5_arg (c : Dev nD) :
    V5 m ρ c main_arg0 = m ((c : Thread nD τ).loc main_arg0)
    ∧ V5 m ρ c main_arg9 = m ((c : Thread nD τ).loc main_arg9)
    ∧ V5 m ρ c main_arg12 = m ((c : Thread nD τ).loc main_arg12)
    ∧ V5 m ρ c main_arg14 = m ((c : Thread nD τ).loc main_arg14) :=
  ⟨((W6_arr m ρ c 1).trans (((dat1 (V5 m ρ) c).arrAt_in 1 rfl _).trans (A_eq1 (V5 m ρ) c 1))).symm.trans (W6_main_arg0 m ρ c),
   ((W6_arr m ρ c 2).trans (((dat1 (V5 m ρ) c).arrAt_in 2 rfl _).trans (A_eq1 (V5 m ρ) c 2))).symm.trans (W6_main_arg9 m ρ c),
   ((W6_arr m ρ c 6).trans (((dat1 (V5 m ρ) c).arrAt_in 6 rfl _).trans (A_eq1 (V5 m ρ) c 6))).symm.trans (W6_main_arg12 m ρ c),
   ((W6_arr m ρ c 8).trans (((dat1 (V5 m ρ) c).arrAt_in 8 rfl _).trans (A_eq1 (V5 m ρ) c 8))).symm.trans (W6_main_arg14 m ρ c)⟩

/-- An argument vector no earlier segment writes is as launched when the last host stretch recasts it. -/
theorem W2_vec (c : Dev nD) :
    W2 m ρ c (Proc.devRef .tc main_arg10) = m ((c : Thread nD τ).loc main_arg10)
    ∧ W2 m ρ c (Proc.devRef .tc main_arg18) = m ((c : Thread nD τ).loc main_arg18)
    ∧ W2 m ρ c (Proc.devRef .tc main_arg19) = m ((c : Thread nD τ).loc main_arg19)
    ∧ W2 m ρ c (Proc.devRef .tc main_arg13) = m ((c : Thread nD τ).loc main_arg13)
    ∧ W2 m ρ c (Proc.devRef .tc main_arg15) = m ((c : Thread nD τ).loc main_arg15) :=
  ⟨(W2_of_ne m ρ c main_arg10 (by decide)).trans (by dsimp only [W1, hostOps0]; after_results; try rfl),
   (W2_of_ne m ρ c main_arg18 (by decide)).trans (by dsimp only [W1, hostOps0]; after_results; try rfl),
   (W2_of_ne m ρ c main_arg19 (by decide)).trans (by dsimp only [W1, hostOps0]; after_results; try rfl),
   (W2_of_ne m ρ c main_arg13 (by decide)).trans (by dsimp only [W1, hostOps0]; after_results; try rfl),
   (W2_of_ne m ρ c main_arg15 (by decide)).trans (by dsimp only [W1, hostOps0]; after_results; try rfl)⟩

set_option maxHeartbeats 40000000 in
/-- The five vectors recast as rows by the host before the second call. -/
theorem V5_rows (c : Dev nD) :
    (V5 m ρ c main_v71 : S1x128.Idx → Ideal .f32) = shapeCast S1x128 (m ((c : Thread nD τ).loc main_arg10)) shapeCasts_S128_S1x128
    ∧ (V5 m ρ c main_v72 : S1x128.Idx → Ideal .f32) = shapeCast S1x128 (m ((c : Thread nD τ).loc main_arg18)) shapeCasts_S128_S1x128
    ∧ (V5 m ρ c main_v73 : S1x128.Idx → Ideal .f32) = shapeCast S1x128 (m ((c : Thread nD τ).loc main_arg19)) shapeCasts_S128_S1x128
    ∧ (V5 m ρ c main_v74 : S1x512.Idx → Ideal .f32) = shapeCast S1x512 (m ((c : Thread nD τ).loc main_arg13)) shapeCasts_S512_S1x512
    ∧ (V5 m ρ c main_v75 : S1x128.Idx → Ideal .f32) = shapeCast S1x128 (m ((c : Thread nD τ).loc main_arg15)) shapeCasts_S128_S1x128 := by
  obtain ⟨h10, h18, h19, h13, h15⟩ := W2_vec m ρ c
  refine ⟨?_, ?_, ?_, ?_, ?_⟩
  · dsimp only [V5, W5, W4, W3, hostOps1_2, hostOps1_1, hostOps1]
    after_results_simp
    rw [h10]
    rfl
  · dsimp only [V5, W5, W4, W3, hostOps1_2, hostOps1_1, hostOps1]
    after_results_simp
    rw [h18]
    rfl
  · dsimp only [V5, W5, W4, W3, hostOps1_2, hostOps1_1, hostOps1]
    after_results_simp
    rw [h19]
    rfl
  · dsimp only [V5, W5, W4, W3, hostOps1_2, hostOps1_1, hostOps1]
    after_results_simp
    rw [h13]
    rfl
  · dsimp only [V5, W5, W4, W3, hostOps1_2, hostOps1_1, hostOps1]
    after_results_simp
    rw [h15]
    rfl

set_option maxHeartbeats 8000000 in
/-- What grid point `t` writes back to the result array: the same rows of the array whose every row is the feed-forward
    block of the residual row. -/
theorem flushed_out (c : Dev nD) (t : Fin cfg1.N) :
    (dat1 (V5 m ρ) c).flushed 10 t = ((cfg1.win 10).blk t).view.read (Elt Ideal)
      (tailArr (m ((c : Thread nD τ).loc main_arg0)) (V5 m ρ c main_v70) (m ((c : Thread nD τ).loc main_arg9)) (m ((c : Thread nD τ).loc main_arg10)) (m ((c : Thread nD τ).loc main_arg18)) (m ((c : Thread nD τ).loc main_arg19))
        (m ((c : Thread nD τ).loc main_arg12)) (m ((c : Thread nD τ).loc main_arg13)) (m ((c : Thread nD τ).loc main_arg14)) (m ((c : Thread nD τ).loc main_arg15))) := by
  show (cfg1.win 10).cut (grid1.coords t) ((dat1 (V5 m ρ) c).after 10 t) = _
  rw [after1_10]
  unfold out1_10
  rw [View.canon_unit_zero hz]
  simp only [View.ld_unit_zero (S := S2000x128) hz, View.ld_unit_zero (S := S1x128) hz, View.ld_unit_zero (S := S128x128) hz,
    View.ld_unit_zero (S := S128x512) hz, View.ld_unit_zero (S := S1x512) hz, View.ld_unit_zero (S := S512x128) hz]
  funext j
  obtain ⟨p, q, rfl⟩ : ∃ (p : Fin 2000) (q : Fin 128), j = ix2 p q := ⟨j 0, j 1, eq_ix2 j⟩
  refine (out_apply (iblk1 (V5 m ρ) c 0 t) (iblk1 (V5 m ρ) c 1 t) (iblk1 (V5 m ρ) c 2 t) (iblk1 (V5 m ρ) c 3 t)
    (iblk1 (V5 m ρ) c 4 t) (iblk1 (V5 m ρ) c 5 t) (iblk1 (V5 m ρ) c 6 t) (iblk1 (V5 m ρ) c 7 t) (iblk1 (V5 m ρ) c 8 t)
    (iblk1 (V5 m ρ) c 9 t) p q).trans ?_
  have he : ((cfg1.win 10).blk t).view.emb (ix2 p q) = ix2 (rowAt1 t p) q := by
    funext a; apply Fin.ext
    have f := idx_facts1 t
    match a with
    | ⟨0, _⟩ => show win1_10.index t (0 : Fin 2) * 2000 + 1 * p.val = t.val * 2000 + p.val; omega
    | ⟨1, _⟩ => show win1_10.index t (1 : Fin 2) * 128 + 1 * q.val = q.val; omega
  show _ = tailArr _ _ _ _ _ _ _ _ _ _ (((cfg1.win 10).blk t).view.emb (ix2 p q))
  rw [he, tailArr_apply]
  obtain ⟨a0, a9, a12, a14⟩ := V5_arg m ρ c
  obtain ⟨r71, r72, r73, r74, r75⟩ := V5_rows m ρ c
  have hx : (fun j => iblk1 (V5 m ρ) c 1 t (ix2 p j)) = fun j => m ((c : Thread nD τ).loc main_arg0) (ix2 (rowAt1 t p) j) :=
    funext fun j => ((blk1_tiles (V5 m ρ) c t p j).2).trans (congrFun a0 _)
  have hagg : (fun k => iblk1 (V5 m ρ) c 0 t (ix2 p k)) = fun k => V5 m ρ c main_v70 (ix2 (rowAt1 t p) k) :=
    funext fun k => (blk1_tiles (V5 m ρ) c t p k).1
  have hWo : (fun k q => iblk1 (V5 m ρ) c 2 t (ix2 k q)) = fun k q => m ((c : Thread nD τ).loc main_arg9) (ix2 k q) :=
    funext fun k => funext fun q => ((blk1_mats (V5 m ρ) c t).1 k q).trans (congrFun a9 _)
  have hW1 : (fun k j => iblk1 (V5 m ρ) c 6 t (ix2 k j)) = fun k j => m ((c : Thread nD τ).loc main_arg12) (ix2 k j) :=
    funext fun k => funext fun j => ((blk1_mats (V5 m ρ) c t).2.1 k j).trans (congrFun a12 _)
  have hW2 : (fun j q => iblk1 (V5 m ρ) c 8 t (ix2 j q)) = fun j q => m ((c : Thread nD τ).loc main_arg14) (ix2 j q) :=
    funext fun j => funext fun q => ((blk1_mats (V5 m ρ) c t).2.2 j q).trans (congrFun a14 _)
  have hbo : (fun q => iblk1 (V5 m ρ) c 3 t (ix2 (0 : Fin 1) q)) = fun q => m ((c : Thread nD τ).loc main_arg10) (ix1 q) :=
    funext fun j => ((blk1_row (V5 m ρ) c t j).1).trans
      ((congrFun r71 _).trans (shapeCast_a_1a_apply _ shapeCasts_S128_S1x128 0 j))
  have hg2 : (fun q => iblk1 (V5 m ρ) c 4 t (ix2 (0 : Fin 1) q)) = fun q => m ((c : Thread nD τ).loc main_arg18) (ix1 q) :=
    funext fun j => ((blk1_row (V5 m ρ) c t j).2.1).trans
      ((congrFun r72 _).trans (shapeCast_a_1a_apply _ shapeCasts_S128_S1x128 0 j))
  have hbe2 : (fun q => iblk1 (V5 m ρ) c 5 t (ix2 (0 : Fin 1) q)) = fun q => m ((c : Thread nD τ).loc main_arg19) (ix1 q) :=
    funext fun j => ((blk1_row (V5 m ρ) c t j).2.2.1).trans
      ((congrFun r73 _).trans (shapeCast_a_1a_apply _ shapeCasts_S128_S1x128 0 j))
  have hb2 : (fun q => iblk1 (V5 m ρ) c 9 t (ix2 (0 : Fin 1) q)) = fun q => m ((c : Thread nD τ).loc main_arg15) (ix1 q) :=
    funext fun j => ((blk1_row (V5 m ρ) c t j).2.2.2).trans
      ((congrFun r75 _).trans (shapeCast_a_1a_apply _ shapeCasts_S128_S1x128 0 j))
  have hb1 : (fun j => iblk1 (V5 m ρ) c 7 t (ix2 (0 : Fin 1) j)) = fun j => m ((c : Thread nD τ).loc main_arg13) (ix1 j) :=
    funext fun j => (blk1_row512 (V5 m ρ) c t j).trans
      ((congrFun r74 _).trans (shapeCast_a_1a_apply _ shapeCasts_S512_S1x512 0 j))
  rw [hx, hagg, hWo, hW1, hW2, hbo, hg2, hbe2, hb2, hb1]

/-- An index of the result array is in point `t`'s block iff each coordinate is in the block's range. -/
theorem mem_blk_out (t : Fin cfg1.N) (i : S50000x128.Idx) :
    i ∈ ((cfg1.win 10).blk t).view.set ↔ ∀ a : Fin 2, win1_10.index t a * S2000x128.size a ≤ (i a).val
      ∧ (i a).val < win1_10.index t a * S2000x128.size a + S2000x128.size a := by
  show i ∈ ((View.whole main_v76).slice (win1_10.rect t)).set ↔ _
  rw [View.set_slice_whole, Rect.mem_set_unit]
  exact Iff.rfl

/-- The twenty-five row blocks cover the result array: row `r` is in the block of point `r / 2000`. -/
theorem cover_out (i : S50000x128.Idx) :
    ∃ t : Fin cfg1.N, (cfg1.win 10).flush t = true ∧ i ∈ ((cfg1.win 10).blk t).view.set := by
  have hi0 : (i 0).val < 50000 := (i 0).isLt
  have hi1 : (i 1).val < 128 := (i 1).isLt
  have hN : grid1.N = 25 := by decide
  have ht : (i 0).val / 2000 < cfg1.N := by show (i 0).val / 2000 < grid1.N; omega
  refine ⟨⟨(i 0).val / 2000, ht⟩, flush1_10 _, ?_⟩
  rw [mem_blk_out]
  have f := idx_facts1 ⟨(i 0).val / 2000, ht⟩
  have e0 : win1_10.index ⟨(i 0).val / 2000, ht⟩ (0 : Fin 2) = (i 0).val / 2000 := f.1
  have e1 : win1_10.index ⟨(i 0).val / 2000, ht⟩ (1 : Fin 2) = 0 := f.2.1
  intro a
  match a with
  | ⟨0, _⟩ =>
    show win1_10.index ⟨(i 0).val / 2000, ht⟩ (0 : Fin 2) * 2000 ≤ (i 0).val
      ∧ (i 0).val < win1_10.index ⟨(i 0).val / 2000, ht⟩ (0 : Fin 2) * 2000 + 2000
    rw [e0]; omega
  | ⟨1, _⟩ =>
    show win1_10.index ⟨(i 0).val / 2000, ht⟩ (1 : Fin 2) * 128 ≤ (i 1).val
      ∧ (i 1).val < win1_10.index ⟨(i 0).val / 2000, ht⟩ (1 : Fin 2) * 128 + 128
    rw [e1]; omega

/-- The result array after the second call. -/
theorem final_out (c : Dev nD) :
    (dat1 (V5 m ρ) c).arrAt 10 cfg1.N = tailArr (m ((c : Thread nD τ).loc main_arg0)) (V5 m ρ c main_v70) (m ((c : Thread nD τ).loc main_arg9)) (m ((c : Thread nD τ).loc main_arg10)) (m ((c : Thread nD τ).loc main_arg18)) (m ((c : Thread nD τ).loc main_arg19))
        (m ((c : Thread nD τ).loc main_arg12)) (m ((c : Thread nD τ).loc main_arg13)) (m ((c : Thread nD τ).loc main_arg14)) (m ((c : Thread nD τ).loc main_arg15)) :=
  (dat1 (V5 m ρ) c).arrAt_eq_of_cover 10 _ (fun t _ => flushed_out m ρ c t) fun i => cover_out i

end Cert.KernelIdeal.RunValue

end
-- ==== Proof.LibHostLayer.lean ====
/-
  A layer normalisation and an affine map as a host program spells them, read row by row.

  The host normalises every row of `X : [R, C]` with whole-array operations: a sum along the lanes broadcast back as a
  column, a division by a scalar literal broadcast to the column, the column broadcast over the lanes, and the gain and
  offset vectors `[C]` broadcast first to one row `[1, C]` and then over the rows. Read at row `r` and lane `k` this is
  the layer normalisation of row `r`. An affine map is the product with `W : [K, N]` plus the offset vector broadcast
  the same way; read at `(r, q)` it is the affine map of row `r`. Nothing here needs finiteness: only `0 + s = s`.
-/
import Mathlib
import Idealize.ShloMosaic.PureOps.Ideal
import Idealize.ShloMosaic.PureOps.Ideal.Laws
import Idealize.ShloMosaic.Lib.Pipeline.Value
import Idealize.ShloMosaic.Lib.ValueIdx
import proofs.«150281_j48009144434784_1_alg».proof.Proof.LibRowSpec
import proofs.«150281_j48009144434784_1_alg».proof.Proof.LibDotRows
import proofs.«150281_j48009144434784_1_alg».proof.Proof.LibRowReduce

noncomputable section

open scoped BigOperators

namespace Cert.LibHostLayer

open Idealize.ShloMosaic Idealize.ShloMosaic.ValueIdx Cert.LibRowSpec

variable {α : Type} {R C K N : Nat}

/-! ## The five broadcasts read at an index -/

/-- A vector `[R]` broadcast to a column `[R, 1]` reads its entry `r`. -/
theorem vec_col_apply (v : (⟨1, ![R]⟩ : Shape).Idx → α)
    (h : (⟨1, ![R]⟩ : Shape).BroadcastsInDim ⟨2, ![R, 1]⟩ (![0] : Fin 1 → Fin 2)) (r : Fin R) :
    broadcastInDim (s := (⟨1, ![R]⟩ : Shape)) ⟨2, ![R, 1]⟩ (![0] : Fin 1 → Fin 2) h v (ix2 r (0 : Fin 1)) = v (ix1 r) := by
  refine broadcastInDim_apply _ h v _ (ix1 r) fun a => ?_
  match a with
  | ⟨0, _⟩ =>
    show r.val = if R = 1 then 0 else r.val
    split
    · have := r.isLt; omega
    · rfl

/-- A column `[R, 1]` broadcast over the lanes reads its entry `r`. -/
theorem col_mat_apply (v : (⟨2, ![R, 1]⟩ : Shape).Idx → α)
    (h : (⟨2, ![R, 1]⟩ : Shape).BroadcastsInDim ⟨2, ![R, C]⟩ (![0, 1] : Fin 2 → Fin 2)) (r : Fin R) (c : Fin C) :
    broadcastInDim (s := (⟨2, ![R, 1]⟩ : Shape)) ⟨2, ![R, C]⟩ (![0, 1] : Fin 2 → Fin 2) h v (ix2 r c) = v (ix2 r (0 : Fin 1)) := by
  refine broadcastInDim_apply _ h v _ (ix2 r (0 : Fin 1)) fun a => ?_
  match a with
  | ⟨0, _⟩ =>
    show r.val = if R = 1 then 0 else r.val
    split
    · have := r.isLt; omega
    · rfl
  | ⟨1, _⟩ => rfl

/-- A vector `[C]` broadcast to one row `[1, C]` reads its entry `c`. -/
theorem vec_row_apply (v : (⟨1, ![C]⟩ : Shape).Idx → α)
    (h : (⟨1, ![C]⟩ : Shape).BroadcastsInDim ⟨2, ![1, C]⟩ (![1] : Fin 1 → Fin 2)) (c : Fin C) :
    broadcastInDim (s := (⟨1, ![C]⟩ : Shape)) ⟨2, ![1, C]⟩ (![1] : Fin 1 → Fin 2) h v (ix2 (0 : Fin 1) c) = v (ix1 c) := by
  refine broadcastInDim_apply _ h v _ (ix1 c) fun a => ?_
  match a with
  | ⟨0, _⟩ =>
    show c.val = if C = 1 then 0 else c.val
    split
    · have := c.isLt; omega
    · rfl

/-- One row `[1, C]` broadcast over `R` rows reads, at `(r, c)`, its entry `c`. -/
theorem row_mat_apply (v : (⟨2, ![1, C]⟩ : Shape).Idx → α)
    (h : (⟨2, ![1, C]⟩ : Shape).BroadcastsInDim ⟨2, ![R, C]⟩ (![0, 1] : Fin 2 → Fin 2)) (r : Fin R) (c : Fin C) :
    broadcastInDim (s := (⟨2, ![1, C]⟩ : Shape)) ⟨2, ![R, C]⟩ (![0, 1] : Fin 2 → Fin 2) h v (ix2 r c) = v (ix2 (0 : Fin 1) c) := by
  refine broadcastInDim_apply _ h v _ (ix2 (0 : Fin 1) c) fun a => ?_
  match a with
  | ⟨0, _⟩ => rfl
  | ⟨1, _⟩ =>
    show c.val = if C = 1 then 0 else c.val
    split
    · have := c.isLt; omega
    · rfl

/-- A scalar broadcast to any shape reads the scalar. -/
theorem scalar_apply {t : Shape} (v : (⟨0, ![]⟩ : Shape).Idx → α) (dims : Fin 0 → Fin t.rank)
    (h : (⟨0, ![]⟩ : Shape).BroadcastsInDim t dims) (j : t.Idx) :
    broadcastInDim (s := (⟨0, ![]⟩ : Shape)) t dims h v j = v ix0 :=
  broadcastInDim_apply _ h v j ix0 fun a => a.elim0

/-! ## The host's layer normalisation -/

/-- The shape relations the host's layer normalisation of `[R, C]` cites. -/
structure NormRecs (R C : Nat) : Prop where
  sum : (⟨2, ![R, C]⟩ : Shape).ReducesTo [1] (⟨1, ![R]⟩ : Shape)
  sum' : (⟨2, ![R, C]⟩ : Shape).Reduces [1] (⟨1, ![R]⟩ : Shape)
  unit : 0 < (⟨0, ![]⟩ : Shape).numel
  vecCol : (⟨1, ![R]⟩ : Shape).BroadcastsInDim ⟨2, ![R, 1]⟩ (![0] : Fin 1 → Fin 2)
  scalarCol : (⟨0, ![]⟩ : Shape).BroadcastsInDim ⟨2, ![R, 1]⟩ (![] : Fin 0 → Fin 2)
  colMat : (⟨2, ![R, 1]⟩ : Shape).BroadcastsInDim ⟨2, ![R, C]⟩ (![0, 1] : Fin 2 → Fin 2)

/-- The shape relations of a vector `[C]` broadcast over the rows of `[R, C]` through `[1, C]`. -/
structure LaneRecs (R C : Nat) : Prop where
  vecRow : (⟨1, ![C]⟩ : Shape).BroadcastsInDim ⟨2, ![1, C]⟩ (![1] : Fin 1 → Fin 2)
  rowMat : (⟨2, ![1, C]⟩ : Shape).BroadcastsInDim ⟨2, ![R, C]⟩ (![0, 1] : Fin 2 → Fin 2)

variable (hn : NormRecs R C) (hl : LaneRecs R C) (wn we : BitVec 32)

/-- Every row's mean, as a column: the lane sum from zero divided by the literal `wn`. -/
def hostMean (X : FVec Ideal ⟨2, ![R, C]⟩ .f32) : FVec Ideal ⟨2, ![R, 1]⟩ .f32 :=
  Host.divf (broadcastInDim (s := (⟨1, ![R]⟩ : Shape)) ⟨2, ![R, 1]⟩ (![0] : Fin 1 → Fin 2) hn.vecCol
      (Host.reduceAdd X (constant (⟨0, ![]⟩ : Shape) .f32 0x00000000#32) hn.sum hn.unit))
    (broadcastInDim (s := (⟨0, ![]⟩ : Shape)) ⟨2, ![R, 1]⟩ (![] : Fin 0 → Fin 2) hn.scalarCol (constant (⟨0, ![]⟩ : Shape) .f32 wn))

/-- The array minus its rows' means. -/
def hostCentred (X : FVec Ideal ⟨2, ![R, C]⟩ .f32) : FVec Ideal ⟨2, ![R, C]⟩ .f32 :=
  subf X (broadcastInDim (s := (⟨2, ![R, 1]⟩ : Shape)) ⟨2, ![R, C]⟩ (![0, 1] : Fin 2 → Fin 2) hn.colMat (hostMean hn wn X))

/-- Every row's scale, as a column: the reciprocal square root of the mean squared deviation plus the literal `we`. -/
def hostScale (X : FVec Ideal ⟨2, ![R, C]⟩ .f32) : FVec Ideal ⟨2, ![R, 1]⟩ .f32 :=
  Host.rsqrt (addf (hostMean hn wn (mulf (hostCentred hn wn X) (hostCentred hn wn X)))
    (broadcastInDim (s := (⟨0, ![]⟩ : Shape)) ⟨2, ![R, 1]⟩ (![] : Fin 0 → Fin 2) hn.scalarCol (constant (⟨0, ![]⟩ : Shape) .f32 we)))

/-- A lane vector over all rows. -/
def hostLanes (v : FVec Ideal ⟨1, ![C]⟩ .f32) : FVec Ideal ⟨2, ![R, C]⟩ .f32 :=
  broadcastInDim (s := (⟨2, ![1, C]⟩ : Shape)) ⟨2, ![R, C]⟩ (![0, 1] : Fin 2 → Fin 2) hl.rowMat
    (broadcastInDim (s := (⟨1, ![C]⟩ : Shape)) ⟨2, ![1, C]⟩ (![1] : Fin 1 → Fin 2) hl.vecRow v)

/-- The host's layer normalisation of every row of `X`, gain `g`, offset `b`. -/
def hostNorm (X : FVec Ideal ⟨2, ![R, C]⟩ .f32) (g b : FVec Ideal ⟨1, ![C]⟩ .f32) : FVec Ideal ⟨2, ![R, C]⟩ .f32 :=
  addf (mulf (mulf (hostCentred hn wn X)
      (broadcastInDim (s := (⟨2, ![R, 1]⟩ : Shape)) ⟨2, ![R, C]⟩ (![0, 1] : Fin 2 → Fin 2) hn.colMat (hostScale hn wn we X))) (hostLanes hl g))
    (hostLanes hl b)

theorem hostMean_apply (X : FVec Ideal ⟨2, ![R, C]⟩ .f32) (r : Fin R) :
    hostMean hn wn X (ix2 r (0 : Fin 1)) = mean (Ideal.ofBits .f32 wn) fun j => X (ix2 r j) := by
  unfold hostMean
  show Ideal.div (broadcastInDim (s := (⟨1, ![R]⟩ : Shape)) ⟨2, ![R, 1]⟩ (![0] : Fin 1 → Fin 2) hn.vecCol _ (ix2 r (0 : Fin 1)))
    (broadcastInDim (s := (⟨0, ![]⟩ : Shape)) ⟨2, ![R, 1]⟩ (![] : Fin 0 → Fin 2) hn.scalarCol _ (ix2 r (0 : Fin 1))) = _
  rw [vec_col_apply, scalar_apply,
    Cert.LibRowReduce.hostReduceAdd_row X (constant (⟨0, ![]⟩ : Shape) .f32 0x00000000#32) (fun _ => Ideal.ofBits_zero_f32) hn.sum hn.sum' hn.unit r]
  rfl

theorem hostCentred_apply (X : FVec Ideal ⟨2, ![R, C]⟩ .f32) (r : Fin R) (k : Fin C) :
    hostCentred hn wn X (ix2 r k) = centred (Ideal.ofBits .f32 wn) (fun j => X (ix2 r j)) k := by
  unfold hostCentred
  show X (ix2 r k) - broadcastInDim (s := (⟨2, ![R, 1]⟩ : Shape)) ⟨2, ![R, C]⟩ (![0, 1] : Fin 2 → Fin 2) hn.colMat _ (ix2 r k) = _
  rw [col_mat_apply, hostMean_apply]
  rfl

theorem hostScale_apply (X : FVec Ideal ⟨2, ![R, C]⟩ .f32) (r : Fin R) :
    hostScale hn wn we X (ix2 r (0 : Fin 1))
      = Ideal.rsqrt (mean (Ideal.ofBits .f32 wn) (fun j => centred (Ideal.ofBits .f32 wn) (fun j => X (ix2 r j)) j
          * centred (Ideal.ofBits .f32 wn) (fun j => X (ix2 r j)) j) + Ideal.ofBits .f32 we) := by
  unfold hostScale
  show Ideal.rsqrt (hostMean hn wn _ (ix2 r (0 : Fin 1))
    + broadcastInDim (s := (⟨0, ![]⟩ : Shape)) ⟨2, ![R, 1]⟩ (![] : Fin 0 → Fin 2) hn.scalarCol _ (ix2 r (0 : Fin 1))) = _
  rw [hostMean_apply, scalar_apply]
  have hsq : (fun j => mulf (hostCentred hn wn X) (hostCentred hn wn X) (ix2 r j))
      = fun j => centred (Ideal.ofBits .f32 wn) (fun j => X (ix2 r j)) j
          * centred (Ideal.ofBits .f32 wn) (fun j => X (ix2 r j)) j := by
    funext j
    show hostCentred hn wn X (ix2 r j) * hostCentred hn wn X (ix2 r j) = _
    rw [hostCentred_apply]
  rw [hsq]
  rfl

theorem hostLanes_apply (v : FVec Ideal ⟨1, ![C]⟩ .f32) (r : Fin R) (k : Fin C) :
    hostLanes hl v (ix2 r k) = v (ix1 k) := by
  unfold hostLanes
  rw [row_mat_apply, vec_row_apply]

/-- Row `r` of the host's layer normalisation is the layer normalisation of row `r`. -/
theorem hostNorm_apply (X : FVec Ideal ⟨2, ![R, C]⟩ .f32) (g b : FVec Ideal ⟨1, ![C]⟩ .f32) (r : Fin R) (k : Fin C) :
    hostNorm hn hl wn we X g b (ix2 r k)
      = lnRow (Ideal.ofBits .f32 wn) (Ideal.ofBits .f32 we) (fun j => X (ix2 r j)) (fun j => g (ix1 j)) (fun j => b (ix1 j)) k := by
  unfold hostNorm
  show hostCentred hn wn X (ix2 r k)
      * broadcastInDim (s := (⟨2, ![R, 1]⟩ : Shape)) ⟨2, ![R, C]⟩ (![0, 1] : Fin 2 → Fin 2) hn.colMat (hostScale hn wn we X) (ix2 r k)
      * hostLanes hl g (ix2 r k) + hostLanes hl b (ix2 r k) = _
  rw [col_mat_apply, hostCentred_apply, hostScale_apply, hostLanes_apply, hostLanes_apply]
  rfl

/-! ## The host's affine map -/

/-- The host's affine map of every row of `X : [R, K]`: the product with `W : [K, N]` plus `b : [N]` over the rows. -/
def hostAffine (hb : LaneRecs R N) (X : FVec Ideal ⟨2, ![R, K]⟩ .f32) (W : FVec Ideal ⟨2, ![K, N]⟩ .f32)
    (b : FVec Ideal ⟨1, ![N]⟩ .f32) : FVec Ideal ⟨2, ![R, N]⟩ .f32 :=
  addf (Host.dotGeneral (F := Ideal) (DotDims.plain R K N) none X W) (hostLanes hb b)

/-- Row `r` of the host's affine map is the affine map of row `r`. -/
theorem hostAffine_apply (hb : LaneRecs R N) (X : FVec Ideal ⟨2, ![R, K]⟩ .f32) (W : FVec Ideal ⟨2, ![K, N]⟩ .f32)
    (b : FVec Ideal ⟨1, ![N]⟩ .f32) (r : Fin R) (q : Fin N) :
    hostAffine hb X W b (ix2 r q) = affRow (fun k => X (ix2 r k)) (fun k q => W (ix2 k q)) (fun q => b (ix1 q)) q := by
  unfold hostAffine
  show Host.dotGeneral (F := Ideal) (DotDims.plain R K N) none X W (ix2 r q) + hostLanes hb b (ix2 r q) = _
  rw [Cert.Lib.DotRows.dotGeneral_plain_apply, hostLanes_apply]
  rfl

end Cert.LibHostLayer

end
-- ==== Proof.RefRows.lean ====
/-
  The reference read row by row.

  The reference's query / key / value arrays (before they are recast per head) are, row by row, the projected rows:
  an affine map of the layer-normalised row of `x`. Its result is, row by row, the feed-forward block applied to the
  residual row `x[r] + (agg[r] · Wo + bo)`, where `agg` is the array the edge stage leaves (kept opaque here). Both
  follow from the host's normalisation and affine map read at a row.
-/
import proofs.«150281_j48009144434784_1_alg».proof.Proof.Gen.ReferenceIdeal.Read
import proofs.«150281_j48009144434784_1_alg».proof.Proof.LibHostLayer
import proofs.«150281_j48009144434784_1_alg».proof.Proof.LibRowArrays

noncomputable section

open scoped BigOperators

namespace Cert.RefRows

open Idealize.ShloMosaic Idealize.ShloMosaic.ValueIdx Cert.ReferenceIdeal Cert.ReferenceIdeal.Read
open Cert.ReferenceIdeal.Facts₀ Cert.LibHostLayer Cert.LibRowSpec Cert.LibRowArrays

theorem nrec : NormRecs 50000 128 :=
  ⟨reducesTo_S50000x128_S50000_d1, by decide, h_S_, bcast_S50000_S50000x1_0, bcast_S_S50000x1, bcast_S50000x1_S50000x128_0_1⟩
theorem lrec : LaneRecs 50000 128 := ⟨bcast_S128_S1x128_1, bcast_S1x128_S50000x128_0_1⟩
theorem lrec512 : LaneRecs 50000 512 := ⟨bcast_S512_S1x512_1, bcast_S1x512_S50000x512_0_1⟩

/-- The contents of a float buffer of shape `s`, over the extended reals. -/
abbrev Arr (s : Shape) : Type := (⟨s, .f32⟩ : BufTy).Contents (Elt Ideal)

/-- The normalised input is the host's layer normalisation of `x` with gain `g1` and offset `be1`. -/
theorem v23_eq (x0 : Arr S50000x128) (x16 x17 : Arr S128) :
    val_main_v23 (F := Ideal) x0 x16 x17 = hostNorm nrec lrec 0x43000000#32 0x3727C5AC#32 x0 x16 x17 := rfl

/-- A projection of the normalised input, read at row `r`. -/
theorem proj_row (x0 : Arr S50000x128) (W : Arr S128x128) (b x16 x17 : Arr S128) (r : Fin 50000) (q : Fin 128) :
    hostAffine lrec (hostNorm nrec lrec 0x43000000#32 0x3727C5AC#32 x0 x16 x17) W b (ix2 r q)
      = projRow lit128 litEps (fun j => x0 (ix2 r j)) (fun j => x16 (ix1 j)) (fun j => x17 (ix1 j))
          (fun k q => W (ix2 k q)) (fun q => b (ix1 q)) q := by
  rw [hostAffine_apply]
  have hln : (fun k => hostNorm nrec lrec 0x43000000#32 0x3727C5AC#32 x0 x16 x17 (ix2 r k))
      = lnRow lit128 litEps (fun j => x0 (ix2 r j)) (fun j => x16 (ix1 j)) (fun j => x17 (ix1 j)) :=
    funext fun k => hostNorm_apply nrec lrec _ _ x0 x16 x17 r k
  rw [hln]
  rfl

theorem v27_eq (x0 : Arr S50000x128) (x3 : Arr S128x128) (x4 x16 x17 : Arr S128) :
    val_main_v27 (F := Ideal) x0 x3 x4 x16 x17
      = hostAffine lrec (hostNorm nrec lrec 0x43000000#32 0x3727C5AC#32 x0 x16 x17) x3 x4 := rfl
theorem v32_eq (x0 : Arr S50000x128) (x5 : Arr S128x128) (x6 x16 x17 : Arr S128) :
    val_main_v32 (F := Ideal) x0 x5 x6 x16 x17
      = hostAffine lrec (hostNorm nrec lrec 0x43000000#32 0x3727C5AC#32 x0 x16 x17) x5 x6 := rfl
theorem v37_eq (x0 : Arr S50000x128) (x7 : Arr S128x128) (x8 x16 x17 : Arr S128) :
    val_main_v37 (F := Ideal) x0 x7 x8 x16 x17
      = hostAffine lrec (hostNorm nrec lrec 0x43000000#32 0x3727C5AC#32 x0 x16 x17) x7 x8 := rfl

/-- What the reference does after the edge stage, as a function of `x` and the aggregated array. -/
def refTail (x0 agg : Arr S50000x128) (x9 : Arr S128x128) (x10 : Arr S128) (x12 : Arr S128x512) (x13 : Arr S512)
    (x14 : Arr S512x128) (x15 x18 x19 : Arr S128) : Arr S50000x128 :=
  addf (addf x0 (hostAffine lrec agg x9 x10))
    (hostAffine lrec
      (maximumf
        (hostAffine lrec512 (hostNorm nrec lrec 0x43000000#32 0x3727C5AC#32 (addf x0 (hostAffine lrec agg x9 x10)) x18 x19) x12 x13)
        (broadcastInDim (s := S_) S50000x512 ![] bcast_S_S50000x512 (constant S_ .f32 0x00000000#32)))
      x14 x15)

set_option maxRecDepth 8192 in
/-- The reference's result is that function of `x` and of what its edge stage leaves. -/
theorem v139_eq (x0 : Arr S50000x128) (x1 : (⟨S2x1600000, .i32⟩ : BufTy).Contents (Elt Ideal))
    (x2 : (⟨S1600000, .i32⟩ : BufTy).Contents (Elt Ideal)) (x3 : Arr S128x128) (x4 : Arr S128) (x5 : Arr S128x128) (x6 : Arr S128)
    (x7 : Arr S128x128) (x8 : Arr S128) (x9 : Arr S128x128) (x10 : Arr S128) (x11 : Arr S13x8) (x12 : Arr S128x512) (x13 : Arr S512)
    (x14 : Arr S512x128) (x15 x16 x17 x18 x19 : Arr S128) :
    val_main_v139 (F := Ideal) x0 x1 x2 x3 x4 x5 x6 x7 x8 x9 x10 x11 x12 x13 x14 x15 x16 x17 x18 x19
      = refTail x0 (val_main_v100 (F := Ideal) x0 x1 x2 x3 x4 x5 x6 x7 x8 x11 x16 x17) x9 x10 x12 x13 x14 x15 x18 x19 := rfl

/-- Row `r` of that function is the feed-forward block applied to the residual row. -/
theorem refTail_row (x0 agg : Arr S50000x128) (x9 : Arr S128x128) (x10 : Arr S128) (x12 : Arr S128x512) (x13 : Arr S512)
    (x14 : Arr S512x128) (x15 x18 x19 : Arr S128) (r : Fin 50000) (q : Fin 128) :
    refTail x0 agg x9 x10 x12 x13 x14 x15 x18 x19 (ix2 r q)
      = ffnRow lit128 litEps litZero
          (residRow (fun j => x0 (ix2 r j)) (fun k => agg (ix2 r k)) (fun k q => x9 (ix2 k q)) (fun q => x10 (ix1 q)))
          (fun j => x18 (ix1 j)) (fun j => x19 (ix1 j)) (fun k j => x12 (ix2 k j)) (fun j => x13 (ix1 j))
          (fun j q => x14 (ix2 j q)) (fun q => x15 (ix1 q)) q := by
  have hx2 : (fun j => addf x0 (hostAffine lrec agg x9 x10) (ix2 r j))
      = residRow (fun j => x0 (ix2 r j)) (fun k => agg (ix2 r k)) (fun k q => x9 (ix2 k q)) (fun q => x10 (ix1 q)) := by
    funext j
    show x0 (ix2 r j) + hostAffine lrec agg x9 x10 (ix2 r j) = _
    rw [hostAffine_apply]
    rfl
  have hln : (fun k => hostNorm nrec lrec 0x43000000#32 0x3727C5AC#32 (addf x0 (hostAffine lrec agg x9 x10)) x18 x19 (ix2 r k))
      = lnRow lit128 litEps
          (residRow (fun j => x0 (ix2 r j)) (fun k => agg (ix2 r k)) (fun k q => x9 (ix2 k q)) (fun q => x10 (ix1 q)))
          (fun j => x18 (ix1 j)) (fun j => x19 (ix1 j)) := by
    funext k
    rw [hostNorm_apply, hx2]
  have hhid : (fun j => maximumf
        (hostAffine lrec512 (hostNorm nrec lrec 0x43000000#32 0x3727C5AC#32 (addf x0 (hostAffine lrec agg x9 x10)) x18 x19) x12 x13)
        (broadcastInDim (s := S_) S50000x512 ![] bcast_S_S50000x512 (constant S_ .f32 0x00000000#32)) (ix2 r j))
      = fun j => max (affRow (lnRow lit128 litEps
          (residRow (fun j => x0 (ix2 r j)) (fun k => agg (ix2 r k)) (fun k q => x9 (ix2 k q)) (fun q => x10 (ix1 q)))
          (fun j => x18 (ix1 j)) (fun j => x19 (ix1 j))) (fun k j => x12 (ix2 k j)) (fun j => x13 (ix1 j)) j) litZero := by
    funext j
    show max (hostAffine lrec512 _ x12 x13 (ix2 r j)) (broadcastInDim (s := S_) S50000x512 ![] bcast_S_S50000x512 _ (ix2 r j)) = _
    rw [hostAffine_apply, scalar_apply, hln]
    rfl
  unfold refTail
  show addf x0 (hostAffine lrec agg x9 x10) (ix2 r q) + hostAffine lrec _ x14 x15 (ix2 r q) = _
  rw [hostAffine_apply, hhid, congrFun hx2 q]
  rfl

/-- The reference's query array (before it is recast per head) is the array of projected rows; so are its key and value
    arrays, with their own weights. -/
theorem projArr_eq_v27 (x0 : Arr S50000x128) (x3 : Arr S128x128) (x4 x16 x17 : Arr S128) :
    projArr x0 x16 x17 x3 x4 = val_main_v27 (F := Ideal) x0 x3 x4 x16 x17 := by
  funext i
  obtain ⟨r, q, rfl⟩ : ∃ (r : Fin 50000) (q : Fin 128), i = ix2 r q := ⟨i 0, i 1, eq_ix2 i⟩
  rw [projArr_apply, v27_eq, proj_row]
theorem projArr_eq_v32 (x0 : Arr S50000x128) (x5 : Arr S128x128) (x6 x16 x17 : Arr S128) :
    projArr x0 x16 x17 x5 x6 = val_main_v32 (F := Ideal) x0 x5 x6 x16 x17 := by
  funext i
  obtain ⟨r, q, rfl⟩ : ∃ (r : Fin 50000) (q : Fin 128), i = ix2 r q := ⟨i 0, i 1, eq_ix2 i⟩
  rw [projArr_apply, v32_eq, proj_row]
theorem projArr_eq_v37 (x0 : Arr S50000x128) (x7 : Arr S128x128) (x8 x16 x17 : Arr S128) :
    projArr x0 x16 x17 x7 x8 = val_main_v37 (F := Ideal) x0 x7 x8 x16 x17 := by
  funext i
  obtain ⟨r, q, rfl⟩ : ∃ (r : Fin 50000) (q : Fin 128), i = ix2 r q := ⟨i 0, i 1, eq_ix2 i⟩
  rw [projArr_apply, v37_eq, proj_row]

/-- The array whose every row is the feed-forward block of the residual row is what the reference computes after its
    edge stage. -/
theorem tailArr_eq (x0 agg : Arr S50000x128) (x9 : Arr S128x128) (x10 : Arr S128) (x12 : Arr S128x512) (x13 : Arr S512)
    (x14 : Arr S512x128) (x15 x18 x19 : Arr S128) :
    tailArr x0 agg x9 x10 x18 x19 x12 x13 x14 x15 = refTail x0 agg x9 x10 x12 x13 x14 x15 x18 x19 := by
  funext i
  obtain ⟨r, q, rfl⟩ : ∃ (r : Fin 50000) (q : Fin 128), i = ix2 r q := ⟨i 0, i 1, eq_ix2 i⟩
  rw [tailArr_apply, refTail_row]

end Cert.RefRows

end
-- ==== Proof.LibRowGather.lean ====
/-
  Rows gathered and scatter-added through an index column.

  For an array `H : [N, C]` and a column of start indices `idx : [E, 1]`, the gather that takes row `idx[e]` for every
  `e` reads `H` at the start index taken signed and clamped into `[0, N - 1]`; the same for a vector `D : [N]`. The
  scatter-add of updates `u : [E, C]` through a column of indices adds `u[e, c]` to element `(idx[e], c)` when the
  signed index lies in `[0, N)` and drops it otherwise. So an update that lands on row `n` has index word `n`, and
  a factor that depends only on the landing row — nonnegative and not `+∞`, so that it distributes over a sum of
  extended reals — moves out of the scatter-add.
-/
import Mathlib
import Idealize.ShloMosaic.PureOps.Ideal
import Idealize.ShloMosaic.PureOps.Ideal.Laws
import Idealize.ShloMosaic.Lib.ValueIdx

noncomputable section

open scoped BigOperators

namespace Cert.LibRowGather

open Idealize.ShloMosaic Idealize.ShloMosaic.ValueIdx

variable {α : Type}

/-- Dimension numbers of `D[idx]` for `D : [N]`, `idx : [E, 1]`, result `[E]`. -/
abbrev vecDims (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Dimension numbers of `H[idx]` (whole rows) for `H : [N, C]`, `idx : [E, 1]`, result `[E, C]`. -/
abbrev rowDims (N E C : Nat) (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- Dimension numbers of the row scatter: operand `[N, C]`, indices `[E, 1]`, updates `[E, C]`. -/
abbrev rowScatterDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- The index-column position of edge `e`. -/
abbrev edgeIdx {E : Nat} (e : Fin E) : (⟨2, ![E, 1]⟩ : Shape).Idx := ix2 e (0 : Fin 1)

/-- A start-index word read signed and clamped into `[0, N - 1]`. -/
def rowOf (N : Nat) (hN : 0 < N) {w : Nat} (b : BitVec w) : Fin N := ⟨min b.toInt.toNat (N - 1), by omega⟩

/-- A word whose signed value is a row number below `N` clamps to that row. -/
theorem rowOf_of_toInt {N : Nat} (hN : 0 < N) {w : Nat} (b : BitVec w) (n : Fin N) (h : b.toInt = (n.val : ℤ)) :
    rowOf N hN b = n := by
  refine Fin.ext ?_
  unfold rowOf
  show min b.toInt.toNat (N - 1) = n.val
  rw [h, Int.toNat_natCast]
  have := n.isLt
  omega

/-- The vector gather at edge `e`. -/
theorem gather_vec_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecDims N E wf) x idx (ix1 e) = x (ix1 (rowOf N hN (idx (edgeIdx e)))) := by
  unfold Host.gather
  congr 1
  funext a
  obtain rfl : a = 0 := Subsingleton.elim _ _
  refine Fin.ext ?_
  show (vecDims N E wf).start (ix1 e) idx 0 + (vecDims N E wf).batchCoord (ix1 e) 0
    + (vecDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecDims N E wf).startIndexMap from List.mem_singleton.mpr rfl)]
  have hsi : (vecDims N E wf).siIdx (ix1 e) ⟨List.idxOf (0 : Fin 1) (vecDims N E wf).startIndexMap,
      List.idxOf_lt_length_iff.2 (List.mem_singleton.mpr rfl)⟩ = edgeIdx e := by
    funext b; refine Fin.ext ?_
    match b with
    | ⟨0, _⟩ => rfl
    | ⟨1, _⟩ => rfl
  rw [hsi]
  rfl

/-- The row gather at edge `e`, lane `c`. -/
theorem gather_row_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowDims N E C wf) x idx (ix2 e c) = x (ix2 (rowOf N hN (idx (edgeIdx e))) c) := by
  unfold Host.gather
  congr 1
  funext a
  refine Fin.ext ?_
  match a with
  | ⟨0, _⟩ =>
    show (rowDims N E C wf).start (ix2 e c) idx 0 + (rowDims N E C wf).batchCoord (ix2 e c) 0
      + (rowDims N E C wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N E C wf).startIndexMap from List.mem_singleton.mpr rfl)]
    have hsi : (rowDims N E C wf).siIdx (ix2 e c) ⟨List.idxOf (0 : Fin 2) (rowDims N E C wf).startIndexMap,
        List.idxOf_lt_length_iff.2 (List.mem_singleton.mpr rfl)⟩ = edgeIdx e := by
      funext b; refine Fin.ext ?_
      match b with
      | ⟨0, _⟩ => rfl
      | ⟨1, _⟩ => rfl
    rw [hsi]
    rfl
  | ⟨1, _⟩ =>
    show (rowDims N E C wf).start (ix2 e c) idx 1 + (rowDims N E C wf).batchCoord (ix2 e c) 1
      + (rowDims N E C wf).offCoord (ix2 e c) 1 = c.val
    rw [GatherDims.batchCoord_eq_zero _ _ _ List.not_mem_nil]
    have hs : (rowDims N E C wf).start (ix2 e c) idx 1 = 0 := by
      unfold GatherDims.start
      rw [dif_neg (show ¬ (1 : Fin 2) ∈ (rowDims N E C wf).startIndexMap from
        (by decide : ¬ (1 : Fin 2) ∈ ([0] : List (Fin 2))))]
    have ho : (rowDims N E C wf).offCoord (ix2 e c) 1 = c.val := by
      unfold GatherDims.offCoord
      rw [dif_pos (show (1 : Fin 2) ∈ (rowDims N E C wf).sKept from
        (GatherDims.mem_sKept _ _).mpr ⟨(by decide : ¬ (1 : Fin 2) ∈ ([0] : List (Fin 2))), List.not_mem_nil⟩)]
      rfl
    rw [hs, ho, Nat.zero_add]

/-- An update `(e, c)` that the row scatter lands on element `(n, c')` has index word `n` (signed) and `c = c'`. -/
theorem scatter_row_lands {N E C w : Nat}
    (wf : ScatterDims.WF ⟨2, ![N, C]⟩ ⟨2, ![E, 1]⟩ ⟨2, ![E, C]⟩ [1] [0] [0] 1)
    (idx : IVec ⟨2, ![E, 1]⟩ w) (e : Fin E) (c : Fin C) (n : Fin N) (c' : Fin C)
    (h : (rowScatterDims N E C wf).resultIdx? (ix2 e c) idx = some (ix2 n c')) :
    (idx (edgeIdx e)).toInt = (n.val : ℤ) ∧ c = c' := by
  have hs0 : (rowScatterDims N E C wf).start (ix2 e c) idx 0 = (idx (edgeIdx e)).toInt := by
    unfold ScatterDims.start
    rw [dif_pos (show (0 : Fin 2) ∈ (rowScatterDims N E C wf).scatterDimsToOperandDims from List.mem_singleton.mpr rfl)]
    have hsi : (rowScatterDims N E C wf).siIdx (ix2 e c)
        ⟨List.idxOf (0 : Fin 2) (rowScatterDims N E C wf).scatterDimsToOperandDims,
          List.idxOf_lt_length_iff.2 (List.mem_singleton.mpr rfl)⟩ = edgeIdx e := by
      funext b; refine Fin.ext ?_
      match b with
      | ⟨0, _⟩ => rfl
      | ⟨1, _⟩ => rfl
    rw [hsi]
  have hs1 : (rowScatterDims N E C wf).start (ix2 e c) idx 1 = 0 := by
    unfold ScatterDims.start
    rw [dif_neg (show ¬ (1 : Fin 2) ∈ (rowScatterDims N E C wf).scatterDimsToOperandDims from
      (by decide : ¬ (1 : Fin 2) ∈ ([0] : List (Fin 2))))]
  have hw0 : (rowScatterDims N E C wf).window (ix2 e c) 0 = 0 := by
    unfold ScatterDims.window
    rw [dif_neg (show ¬ (0 : Fin 2) ∈ (rowScatterDims N E C wf).sKept from
      (by decide : ¬ (0 : Fin 2) ∈ (List.finRange 2).filter (fun a => a ∉ ([0] : List (Fin 2)))))]
  have hw1 : (rowScatterDims N E C wf).window (ix2 e c) 1 = c.val := by
    unfold ScatterDims.window
    rw [dif_pos (show (1 : Fin 2) ∈ (rowScatterDims N E C wf).sKept from
      (by decide : (1 : Fin 2) ∈ (List.finRange 2).filter (fun a => a ∉ ([0] : List (Fin 2)))))]
    rfl
  unfold ScatterDims.resultIdx? at h
  split at h
  · rename_i hall
    have h' := Option.some.inj h
    have h0 : ((rowScatterDims N E C wf).start (ix2 e c) idx 0 + (rowScatterDims N E C wf).window (ix2 e c) 0).toNat
        = n.val := congrArg (fun f => (f 0).val) h'
    have h1 : ((rowScatterDims N E C wf).start (ix2 e c) idx 1 + (rowScatterDims N E C wf).window (ix2 e c) 1).toNat
        = c'.val := congrArg (fun f => (f 1).val) h'
    have ha0 := (hall 0).1
    rw [hs0, hw0] at h0 ha0
    rw [hs1, hw1] at h1
    refine ⟨?_, Fin.ext ?_⟩
    · omega
    · omega
  · exact absurd h (by simp)

/-- A nonnegative factor other than `+∞` distributes over a finite sum of extended reals. -/
theorem mul_sum_of_nonneg_ne_top {ι : Type*} (s : Finset ι) (f : ι → EReal) {a : EReal} (h0 : 0 ≤ a) (ht : a ≠ ⊤) :
    a * ∑ j ∈ s, f j = ∑ j ∈ s, a * f j := by
  classical
  induction s using Finset.induction_on with
  | empty => simp
  | insert j s hj ih =>
    rw [Finset.sum_insert hj, Finset.sum_insert hj, EReal.left_distrib_of_nonneg_of_ne_top h0 ht, ih]

/-- A factor `a` (nonnegative, not `+∞`) carried by every update that lands on element `i` moves out of the
    scatter-add into zero at `i`. -/
theorem hostScatterAdd_scale {s si su : Shape} (d : ScatterDims s si su) {w : Nat} (Z : s.Idx → EReal) (idx : IVec si w)
    (f g : su.Idx → EReal) (i : s.Idx) (hZ : Z i = 0) {a : EReal} (h0 : 0 ≤ a) (ht : a ≠ ⊤)
    (hfg : ∀ j, d.resultIdx? j idx = some i → f j = a * g j) :
    Ideal.hostScatterAdd d Z idx f i = a * Ideal.hostScatterAdd d Z idx g i := by
  show Z i + _ = a * (Z i + _)
  rw [hZ, zero_add, zero_add, mul_sum_of_nonneg_ne_top _ _ h0 ht]
  refine Finset.sum_congr rfl fun j hj => ?_
  exact hfg j (Finset.mem_filter.mp hj).2

/-- Equal updates on what lands at `i` give equal scatter-adds at `i`. -/
theorem hostScatterAdd_congr {s si su : Shape} (d : ScatterDims s si su) {w : Nat} (Z Z' : s.Idx → EReal) (idx : IVec si w)
    (f g : su.Idx → EReal) (i : s.Idx) (hZ : Z i = Z' i)
    (hfg : ∀ j, d.resultIdx? j idx = some i → f j = g j) :
    Ideal.hostScatterAdd d Z idx f i = Ideal.hostScatterAdd d Z' idx g i := by
  show Z i + _ = Z' i + _
  rw [hZ]
  congr 1
  refine Finset.sum_congr rfl fun j hj => ?_
  exact hfg j (Finset.mem_filter.mp hj).2

/-- The reciprocal square root of an extended real that is at least one is a nonnegative extended real other than `+∞`. -/
theorem rsqrt_of_one_le (y : EReal) (h : 1 ≤ y) : 0 ≤ Ideal.rsqrt y ∧ Ideal.rsqrt y ≠ ⊤ := by
  induction y using EReal.rec with
  | bot => exact absurd h (not_le.mpr (EReal.bot_lt_coe 1))
  | top => exact ⟨le_refl _, EReal.zero_ne_top⟩
  | coe r =>
    have hr : (1 : ℝ) ≤ r := by exact_mod_cast h
    have h1 : ¬ r < 0 := by linarith
    have h2 : ¬ r = 0 := by intro h0; rw [h0] at hr; linarith
    have hv : Ideal.rsqrt (r : EReal) = (((Real.sqrt r)⁻¹ : ℝ) : EReal) := by
      show (if r < 0 then ⊥ else if r = 0 then ⊤ else (((Real.sqrt r)⁻¹ : ℝ) : EReal)) = _
      rw [if_neg h1, if_neg h2]
    rw [hv]
    exact ⟨EReal.coe_nonneg.mpr (inv_nonneg.mpr (Real.sqrt_nonneg r)), EReal.coe_ne_top _⟩

end Cert.LibRowGather

end
-- ==== Proof.LibSlabGather.lean ====
/-
  Slabs gathered through an index column, and the gather of rows recast as slabs.

  For an array `X : [N, A, B]` and a column of start indices `idx : [E, 1]`, the gather that takes the whole slab
  `X[idx[e], :, :]` for every `e` reads `X` at the start index taken signed and clamped into `[0, N - 1]`. Since a
  row of `C = A * B` numbers recast as an `A × B` slab keeps its row, gathering rows of `[N, C]` and recasting the
  result `[E, C]` as `[E, A, B]` is the same array as recasting first and gathering slabs.
-/
import Mathlib
import Idealize.ShloMosaic.PureOps.Ideal
import Idealize.ShloMosaic.Lib.ValueIdx
import Idealize.ShloMosaic.Lib.Pipeline.Value
import proofs.«150281_j48009144434784_1_alg».proof.Proof.LibRowGather

noncomputable section

namespace Cert.LibSlabGather

open Idealize.ShloMosaic Idealize.ShloMosaic.ValueIdx Cert.LibRowGather

variable {α : Type}

/-- Dimension numbers of `X[idx]` (whole slabs) for `X : [N, A, B]`, `idx : [E, 1]`, result `[E, A, B]`. -/
abbrev slabDims (N E A B : Nat)
    (wf : GatherDims.WF ⟨3, ![N, A, B]⟩ ⟨2, ![E, 1]⟩ ⟨3, ![E, A, B]⟩ [1, 2] [0] [] [0] [] 1 ![1, A, B]) :
    GatherDims ⟨3, ![N, A, B]⟩ ⟨2, ![E, 1]⟩ ⟨3, ![E, A, B]⟩ where
  offsetDims := [1, 2]
  collapsedSliceDims := [0]
  operandBatchingDims := []
  startIndicesBatchingDims := []
  startIndexMap := [0]
  indexVectorDim := 1
  sliceSizes := ![1, A, B]
  wf := wf

/-- The slab gather at edge `e`, position `(a, b)` of the slab. -/
theorem gather_slab_apply {N E A B w : Nat} (hN : 0 < N)
    (wf : GatherDims.WF ⟨3, ![N, A, B]⟩ ⟨2, ![E, 1]⟩ ⟨3, ![E, A, B]⟩ [1, 2] [0] [] [0] [] 1 ![1, A, B])
    (x : (⟨3, ![N, A, B]⟩ : Shape).Idx → α) (idx : IVec ⟨2, ![E, 1]⟩ w) (e : Fin E) (a : Fin A) (b : Fin B) :
    Host.gather (slabDims N E A B wf) x idx (ix3 e a b) = x (ix3 (rowOf N hN (idx (edgeIdx e))) a b) := by
  unfold Host.gather
  congr 1
  funext ax
  refine Fin.ext ?_
  match ax with
  | ⟨0, _⟩ =>
    show (slabDims N E A B wf).start (ix3 e a b) idx 0 + (slabDims N E A B wf).batchCoord (ix3 e a b) 0
      + (slabDims N E A B wf).offCoord (ix3 e a b) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 3) ∈ (slabDims N E A B wf).startIndexMap from List.mem_singleton.mpr rfl)]
    have hsi : (slabDims N E A B wf).siIdx (ix3 e a b) ⟨List.idxOf (0 : Fin 3) (slabDims N E A B wf).startIndexMap,
        List.idxOf_lt_length_iff.2 (List.mem_singleton.mpr rfl)⟩ = edgeIdx e := by
      funext c; refine Fin.ext ?_
      match c with
      | ⟨0, _⟩ => rfl
      | ⟨1, _⟩ => rfl
    rw [hsi]
    rfl
  | ⟨1, _⟩ =>
    show (slabDims N E A B wf).start (ix3 e a b) idx 1 + (slabDims N E A B wf).batchCoord (ix3 e a b) 1
      + (slabDims N E A B wf).offCoord (ix3 e a b) 1 = a.val
    rw [GatherDims.batchCoord_eq_zero _ _ _ List.not_mem_nil]
    have hs : (slabDims N E A B wf).start (ix3 e a b) idx 1 = 0 := by
      unfold GatherDims.start
      rw [dif_neg (show ¬ (1 : Fin 3) ∈ (slabDims N E A B wf).startIndexMap from
        (by decide : ¬ (1 : Fin 3) ∈ ([0] : List (Fin 3))))]
    have ho : (slabDims N E A B wf).offCoord (ix3 e a b) 1 = a.val := by
      unfold GatherDims.offCoord
      rw [dif_pos (show (1 : Fin 3) ∈ (slabDims N E A B wf).sKept from
        (GatherDims.mem_sKept _ _).mpr ⟨(by decide : ¬ (1 : Fin 3) ∈ ([0] : List (Fin 3))), List.not_mem_nil⟩)]
      rfl
    rw [hs, ho, Nat.zero_add]
  | ⟨2, _⟩ =>
    show (slabDims N E A B wf).start (ix3 e a b) idx 2 + (slabDims N E A B wf).batchCoord (ix3 e a b) 2
      + (slabDims N E A B wf).offCoord (ix3 e a b) 2 = b.val
    rw [GatherDims.batchCoord_eq_zero _ _ _ List.not_mem_nil]
    have hs : (slabDims N E A B wf).start (ix3 e a b) idx 2 = 0 := by
      unfold GatherDims.start
      rw [dif_neg (show ¬ (2 : Fin 3) ∈ (slabDims N E A B wf).startIndexMap from
        (by decide : ¬ (2 : Fin 3) ∈ ([0] : List (Fin 3))))]
    have ho : (slabDims N E A B wf).offCoord (ix3 e a b) 2 = b.val := by
      unfold GatherDims.offCoord
      rw [dif_pos (show (2 : Fin 3) ∈ (slabDims N E A B wf).sKept from
        (GatherDims.mem_sKept _ _).mpr ⟨(by decide : ¬ (2 : Fin 3) ∈ ([0] : List (Fin 3))), List.not_mem_nil⟩)]
      rfl
    rw [hs, ho, Nat.zero_add]

/-- A row of `C = A * B` numbers recast as an `A × B` slab: position `(a, b)` of row `n` is lane `a * B + b`. -/
theorem shapeCast_slab_apply {N A B C : Nat} (hC : A * B = C) (X : (⟨2, ![N, C]⟩ : Shape).Idx → α)
    (h : (⟨2, ![N, C]⟩ : Shape).ShapeCasts ⟨3, ![N, A, B]⟩) (n : Fin N) (a : Fin A) (b : Fin B) :
    shapeCast ⟨3, ![N, A, B]⟩ X h (ix3 n a b)
      = X (ix2 n ⟨a.val * B + b.val, by
          subst hC
          calc a.val * B + b.val < a.val * B + B := Nat.add_lt_add_left b.isLt _
            _ = (a.val + 1) * B := by ring
            _ ≤ A * B := Nat.mul_le_mul_right _ a.isLt⟩) := by
  refine shapeCast_apply X h _ _ ?_
  rw [Shape.rowMajor_val_two, Shape.rowMajor_val_three]
  subst hC
  show n.val * (A * B) + (a.val * B + b.val) = (n.val * A + a.val) * B + b.val
  ring

/-- Gathering rows and recasting them as slabs is recasting the rows as slabs and gathering slabs. -/
theorem shapeCast_gather_rows {N E A B C w : Nat} (hN : 0 < N) (hC : A * B = C)
    (wfr : GatherDims.WF ⟨2, ![N, C]⟩ ⟨2, ![E, 1]⟩ ⟨2, ![E, C]⟩ [1] [0] [] [0] [] 1 ![1, C])
    (wfs : GatherDims.WF ⟨3, ![N, A, B]⟩ ⟨2, ![E, 1]⟩ ⟨3, ![E, A, B]⟩ [1, 2] [0] [] [0] [] 1 ![1, A, B])
    (X : (⟨2, ![N, C]⟩ : Shape).Idx → α) (idx : IVec ⟨2, ![E, 1]⟩ w)
    (hE : (⟨2, ![E, C]⟩ : Shape).ShapeCasts ⟨3, ![E, A, B]⟩) (hX : (⟨2, ![N, C]⟩ : Shape).ShapeCasts ⟨3, ![N, A, B]⟩) :
    shapeCast ⟨3, ![E, A, B]⟩ (Host.gather (rowDims N E C wfr) X idx) hE
      = Host.gather (slabDims N E A B wfs) (shapeCast ⟨3, ![N, A, B]⟩ X hX) idx := by
  funext j
  obtain ⟨e, a, b, rfl⟩ : ∃ (e : Fin E) (a : Fin A) (b : Fin B), j = ix3 e a b := ⟨j 0, j 1, j 2, eq_ix3 j⟩
  rw [gather_slab_apply hN, shapeCast_slab_apply hC, shapeCast_slab_apply hC, gather_row_apply hN]

/-- The same for any two dimension-number records with those fields (a program's printed records are such: the
    equalities close by `rfl`). -/
theorem shapeCast_gather_rows_of {N E A B C w : Nat} (hN : 0 < N) (hC : A * B = C)
    (d2 : GatherDims ⟨2, ![N, C]⟩ ⟨2, ![E, 1]⟩ ⟨2, ![E, C]⟩) (d3 : GatherDims ⟨3, ![N, A, B]⟩ ⟨2, ![E, 1]⟩ ⟨3, ![E, A, B]⟩)
    (wfr : GatherDims.WF ⟨2, ![N, C]⟩ ⟨2, ![E, 1]⟩ ⟨2, ![E, C]⟩ [1] [0] [] [0] [] 1 ![1, C])
    (wfs : GatherDims.WF ⟨3, ![N, A, B]⟩ ⟨2, ![E, 1]⟩ ⟨3, ![E, A, B]⟩ [1, 2] [0] [] [0] [] 1 ![1, A, B])
    (h2 : d2 = rowDims N E C wfr) (h3 : d3 = slabDims N E A B wfs)
    (X : (⟨2, ![N, C]⟩ : Shape).Idx → α) (idx : IVec ⟨2, ![E, 1]⟩ w)
    (hE : (⟨2, ![E, C]⟩ : Shape).ShapeCasts ⟨3, ![E, A, B]⟩) (hX : (⟨2, ![N, C]⟩ : Shape).ShapeCasts ⟨3, ![N, A, B]⟩) :
    shapeCast ⟨3, ![E, A, B]⟩ (Host.gather d2 X idx) hE = Host.gather d3 (shapeCast ⟨3, ![N, A, B]⟩ X hX) idx := by
  subst h2 h3
  exact shapeCast_gather_rows hN hC wfr wfs X idx hE hX

end Cert.LibSlabGather

end
-- ==== Proof.Consts.lean ====
/-
  The two float literals whose values matter: `4.0`, by which the reference divides the scores, and `0.25`, by which
  the kernel multiplies them. Over the extended reals dividing by the real 4 is multiplying by the real 1/4, whatever
  the dividend (an infinity included), so scaling an array by the one literal is dividing it by the other.
-/
import Idealize.ShloMosaic.PureOps.Ideal
import Idealize.ShloMosaic.Lib.ValueIdx

noncomputable section

namespace Cert.Consts

open Idealize.ShloMosaic

/-- `4.0` denotes the real 4. -/
theorem ofBits_four : Ideal.ofBits .f32 0x40800000#32 = ((4 : ℝ) : EReal) := by
  simp [Ideal.ofBits, Ideal.ieee, -EReal.coe_mul]; norm_num

/-- `0.25` denotes the real 1/4. -/
theorem ofBits_quarter : Ideal.ofBits .f32 0x3E800000#32 = ((1 / 4 : ℝ) : EReal) := by
  simp [Ideal.ofBits, Ideal.ieee, -EReal.coe_mul]; norm_num

/-- A number times the literal `0.25` is the number divided by the literal `4.0`. -/
theorem mul_quarter (y : EReal) :
    y * Ideal.ofBits .f32 0x3E800000#32 = Ideal.div y (Ideal.ofBits .f32 0x40800000#32) := by
  rw [ofBits_four, ofBits_quarter, Ideal.div_coe (by norm_num : (4 : ℝ) ≠ 0)]

end Cert.Consts

end
-- ==== Proof.Mid.lean ====
/-
  The host's edge stage between the two calls, against the reference's.

  Both programs gather the query rows by destination and the key and value rows by source, score every edge and head by
  the dot product of the two sixteen-lane slices, add the edge-type bias, subtract the global maximum, exponentiate,
  normalise by the per-destination sum plus a small constant, weight the value slices and scatter-add them by destination.
  They differ in two places only. The kernel gathers 128-lane rows and recasts the gathered rows as 8 × 16 slabs, where
  the reference recasts first and gathers slabs: the same array. The kernel multiplies the scores by the literal 0.25
  where the reference divides them by the literal 4.0: the same array over the extended reals. With the three projected
  arrays equal on both sides, the aggregated array is therefore the reference's.
-/
import proofs.«150281_j48009144434784_1_alg».proof.Proof.KernelValue0
import proofs.«150281_j48009144434784_1_alg».proof.Proof.RefRows
import proofs.«150281_j48009144434784_1_alg».proof.Proof.LibSlabGather
import proofs.«150281_j48009144434784_1_alg».proof.Proof.Consts
import Idealize.ShloMosaic.Lib.StableHlo.Run

set_option maxRecDepth 16384

noncomputable section

namespace Cert.KernelIdeal.RunValue

open Cert.KernelIdeal Cert.KernelIdeal.Gen
open Idealize.ShloMosaic Idealize.ShloMosaic.TcCoe Idealize.ShloMosaic.ValueIdx Idealize.SL.Sem
open Cert.LibRowSpec Cert.LibRowArrays

variable (m : (ℓ : Loc nD τ sig) → Buf (Elt Ideal) ℓ) (ρ : Dev nD → PrngReg)

/-- Gathered rows recast as slabs are slabs gathered from the recast rows, for the two programs' printed records. -/
theorem gather_recast (X : FVec Ideal S50000x128 .f32) (idx : IVec S1600000x1 32) :
    shapeCast S1600000x8x16 (Host.gather gather_S50000x128_S1600000x1_S1600000x128_1_0_n_n_0_1_1128 X idx)
        shapeCasts_S1600000x128_S1600000x8x16
      = Host.gather Cert.ReferenceIdeal.gather_S50000x8x16_S1600000x1_S1600000x8x16_12_0_n_n_0_1_1816
          (shapeCast Cert.ReferenceIdeal.S50000x8x16 X Cert.ReferenceIdeal.Facts₀.shapeCasts_S50000x128_S50000x8x16) idx :=
  Cert.LibSlabGather.shapeCast_gather_rows_of (N := 50000) (E := 1600000) (A := 8) (B := 16) (C := 128) (by decide) (by decide)
    gather_S50000x128_S1600000x1_S1600000x128_1_0_n_n_0_1_1128
    Cert.ReferenceIdeal.gather_S50000x8x16_S1600000x1_S1600000x8x16_12_0_n_n_0_1_1816
    gather_S50000x128_S1600000x1_S1600000x128_1_0_n_n_0_1_1128.wf
    Cert.ReferenceIdeal.gather_S50000x8x16_S1600000x1_S1600000x8x16_12_0_n_n_0_1_1816.wf rfl rfl X idx _ _

/-- Scaling the scores by the literal 0.25 is dividing them by the literal 4.0. -/
theorem scale_scores (Y : FVec Ideal S1600000x8 .f32) :
    mulf Y (broadcastInDim (s := S_) S1600000x8 ![] bcast_S_S1600000x8 (constant S_ .f32 0x3E800000#32))
      = Host.divf Y (broadcastInDim (s := Cert.ReferenceIdeal.S_) Cert.ReferenceIdeal.S1600000x8 ![]
          Cert.ReferenceIdeal.Facts₀.bcast_S_S1600000x8 (constant Cert.ReferenceIdeal.S_ .f32 0x40800000#32)) := by
  funext i
  exact Cert.Consts.mul_quarter (Y i)

set_option maxHeartbeats 40000000 in
/-- The aggregated array the second call finds is the one the reference's edge stage leaves. -/
theorem agg_eq (c : Dev nD) :
    V5 m ρ c main_v70 = Cert.ReferenceIdeal.Read.val_main_v100 (F := Ideal)
      (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8)) (m ((c : Thread nD τ).loc main_arg11)) (m ((c : Thread nD τ).loc main_arg16)) (m ((c : Thread nD τ).loc main_arg17)) := by
  have hQ : W2 m ρ c (Proc.devRef .tc main_v5_0) = Cert.ReferenceIdeal.Read.val_main_v27 (F := Ideal)
      (m ((c : Thread nD τ).loc main_arg0)) (m ((c : Thread nD τ).loc main_arg3)) (m ((c : Thread nD τ).loc main_arg4)) (m ((c : Thread nD τ).loc main_arg16)) (m ((c : Thread nD τ).loc main_arg17)) :=
    (W2_arr m ρ c 9).trans ((final_Q m ρ c).trans (Cert.RefRows.projArr_eq_v27 _ _ _ _ _))
  have hK : W2 m ρ c (Proc.devRef .tc main_v5_1) = Cert.ReferenceIdeal.Read.val_main_v32 (F := Ideal)
      (m ((c : Thread nD τ).loc main_arg0)) (m ((c : Thread nD τ).loc main_arg5)) (m ((c : Thread nD τ).loc main_arg6)) (m ((c : Thread nD τ).loc main_arg16)) (m ((c : Thread nD τ).loc main_arg17)) :=
    (W2_arr m ρ c 10).trans ((final_K m ρ c).trans (Cert.RefRows.projArr_eq_v32 _ _ _ _ _))
  have hV : W2 m ρ c (Proc.devRef .tc main_v5_2) = Cert.ReferenceIdeal.Read.val_main_v37 (F := Ideal)
      (m ((c : Thread nD τ).loc main_arg0)) (m ((c : Thread nD τ).loc main_arg7)) (m ((c : Thread nD τ).loc main_arg8)) (m ((c : Thread nD τ).loc main_arg16)) (m ((c : Thread nD τ).loc main_arg17)) :=
    (W2_arr m ρ c 11).trans ((final_V m ρ c).trans (Cert.RefRows.projArr_eq_v37 _ _ _ _ _))
  have h1 : W2 m ρ c (Proc.devRef .tc main_arg1) = m ((c : Thread nD τ).loc main_arg1) :=
    (W2_of_ne m ρ c main_arg1 (by decide)).trans (by dsimp only [W1, hostOps0]; after_results; try rfl)
  have h2 : W2 m ρ c (Proc.devRef .tc main_arg2) = m ((c : Thread nD τ).loc main_arg2) :=
    (W2_of_ne m ρ c main_arg2 (by decide)).trans (by dsimp only [W1, hostOps0]; after_results; try rfl)
  have h11 : W2 m ρ c (Proc.devRef .tc main_arg11) = m ((c : Thread nD τ).loc main_arg11) :=
    (W2_of_ne m ρ c main_arg11 (by decide)).trans (by dsimp only [W1, hostOps0]; after_results; try rfl)
  dsimp only [V5, W5, W4, W3, hostOps1_2, hostOps1_1, hostOps1]
  after_results_simp
  rw [hQ, hK, hV, h1, h2, h11]
  simp only [Cert.ReferenceIdeal.Read.val_main_v28,
    Cert.ReferenceIdeal.Read.val_main_v33,
    Cert.ReferenceIdeal.Read.val_main_v38,
    Cert.ReferenceIdeal.Read.val_main_v39,
    Cert.ReferenceIdeal.Read.val_main_v40,
    Cert.ReferenceIdeal.Read.val_main_v41,
    Cert.ReferenceIdeal.Read.val_main_v42,
    Cert.ReferenceIdeal.Read.val_main_c,
    Cert.ReferenceIdeal.Read.val_main_v43,
    Cert.ReferenceIdeal.Read.val_main_v44,
    Cert.ReferenceIdeal.Read.val_main_c_4,
    Cert.ReferenceIdeal.Read.val_main_v45,
    Cert.ReferenceIdeal.Read.val_main_v46,
    Cert.ReferenceIdeal.Read.val_main_v47,
    Cert.ReferenceIdeal.Read.val_main_v48,
    Cert.ReferenceIdeal.Read.val_main_v49,
    Cert.ReferenceIdeal.Read.val_main_c_5,
    Cert.ReferenceIdeal.Read.val_main_v50,
    Cert.ReferenceIdeal.Read.val_main_v51,
    Cert.ReferenceIdeal.Read.val_main_c_6,
    Cert.ReferenceIdeal.Read.val_main_v52,
    Cert.ReferenceIdeal.Read.val_main_v53,
    Cert.ReferenceIdeal.Read.val_main_v54,
    Cert.ReferenceIdeal.Read.val_main_v55,
    Cert.ReferenceIdeal.Read.val_main_v56,
    Cert.ReferenceIdeal.Read.val_main_v57,
    Cert.ReferenceIdeal.Read.val_main_cst_7,
    Cert.ReferenceIdeal.Read.val_main_v58,
    Cert.ReferenceIdeal.Read.val_main_cst_8,
    Cert.ReferenceIdeal.Read.val_main_v59,
    Cert.ReferenceIdeal.Read.val_main_v60,
    Cert.ReferenceIdeal.Read.val_main_c_9,
    Cert.ReferenceIdeal.Read.val_main_c_10,
    Cert.ReferenceIdeal.Read.val_main_call0_v0,
    Cert.ReferenceIdeal.Read.val_main_call0_v1,
    Cert.ReferenceIdeal.Read.val_main_call0_v2,
    Cert.ReferenceIdeal.Read.val_main_call0_v3,
    Cert.ReferenceIdeal.Read.val_main_call0_v4,
    Cert.ReferenceIdeal.Read.val_main_v61,
    Cert.ReferenceIdeal.Read.val_main_c_11,
    Cert.ReferenceIdeal.Read.val_main_v62,
    Cert.ReferenceIdeal.Read.val_main_v63,
    Cert.ReferenceIdeal.Read.val_main_c_12,
    Cert.ReferenceIdeal.Read.val_main_v64,
    Cert.ReferenceIdeal.Read.val_main_v65,
    Cert.ReferenceIdeal.Read.val_main_v66,
    Cert.ReferenceIdeal.Read.val_main_v67,
    Cert.ReferenceIdeal.Read.val_main_v68,
    Cert.ReferenceIdeal.Read.val_main_v69,
    Cert.ReferenceIdeal.Read.val_main_cst_13,
    Cert.ReferenceIdeal.Read.val_main_v70,
    Cert.ReferenceIdeal.Read.val_main_v71,
    Cert.ReferenceIdeal.Read.val_main_v72,
    Cert.ReferenceIdeal.Read.val_main_v73,
    Cert.ReferenceIdeal.Read.val_main_cst_14,
    Cert.ReferenceIdeal.Read.val_main_v74,
    Cert.ReferenceIdeal.Read.val_main_v75,
    Cert.ReferenceIdeal.Read.val_main_v76,
    Cert.ReferenceIdeal.Read.val_main_c_15,
    Cert.ReferenceIdeal.Read.val_main_v77,
    Cert.ReferenceIdeal.Read.val_main_v78,
    Cert.ReferenceIdeal.Read.val_main_c_16,
    Cert.ReferenceIdeal.Read.val_main_v79,
    Cert.ReferenceIdeal.Read.val_main_v80,
    Cert.ReferenceIdeal.Read.val_main_v81,
    Cert.ReferenceIdeal.Read.val_main_v82,
    Cert.ReferenceIdeal.Read.val_main_v83,
    Cert.ReferenceIdeal.Read.val_main_cst_17,
    Cert.ReferenceIdeal.Read.val_main_v84,
    Cert.ReferenceIdeal.Read.val_main_v85,
    Cert.ReferenceIdeal.Read.val_main_v86,
    Cert.ReferenceIdeal.Read.val_main_c_18,
    Cert.ReferenceIdeal.Read.val_main_v87,
    Cert.ReferenceIdeal.Read.val_main_v88,
    Cert.ReferenceIdeal.Read.val_main_c_19,
    Cert.ReferenceIdeal.Read.val_main_v89,
    Cert.ReferenceIdeal.Read.val_main_v90,
    Cert.ReferenceIdeal.Read.val_main_v91,
    Cert.ReferenceIdeal.Read.val_main_v92,
    Cert.ReferenceIdeal.Read.val_main_v93,
    Cert.ReferenceIdeal.Read.val_main_v94,
    Cert.ReferenceIdeal.Read.val_main_v95,
    Cert.ReferenceIdeal.Read.val_main_v96,
    Cert.ReferenceIdeal.Read.val_main_cst_20,
    Cert.ReferenceIdeal.Read.val_main_v97,
    Cert.ReferenceIdeal.Read.val_main_v98,
    Cert.ReferenceIdeal.Read.val_main_v99,
    Cert.ReferenceIdeal.Read.val_main_v100]
  rw [← gather_recast, ← gather_recast, ← gather_recast, ← scale_scores]
  rfl

end Cert.KernelIdeal.RunValue

end
-- ==== Proof.KernelFinal.lean ====
/-
  The idealized kernel's result, as the reference's function of the arguments.

  The result buffer ends at what the second call leaves: the array whose every row is the feed-forward block of the
  residual row built from `x` and the aggregated array. The aggregated array is the reference's, and the reference's result
  is that same row-wise function of `x` and its aggregated array. So the kernel's result is the reference's composed term
  of the kernel's arguments.
-/
import proofs.«150281_j48009144434784_1_alg».proof.Proof.KernelValue1
import proofs.«150281_j48009144434784_1_alg».proof.Proof.Mid

set_option maxRecDepth 16384

noncomputable section

namespace Cert.KernelIdeal.RunValue

open Cert.KernelIdeal Cert.KernelIdeal.Gen
open Idealize.ShloMosaic Idealize.ShloMosaic.TcCoe Idealize.ShloMosaic.ValueIdx Idealize.SL.Sem
open Cert.LibRowSpec Cert.LibRowArrays

variable (m : (ℓ : Loc nD τ sig) → Buf (Elt Ideal) ℓ) (ρ : Dev nD → PrngReg)

/-- The reference's result term at the kernel's arguments. -/
def result (c : Dev nD) : Buf (Elt Ideal) ((c.tc : Thread nD τ).loc main_v76) :=
  Cert.ReferenceIdeal.Read.val_main_v139 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19))

/-- The last boundary's contents at the result buffer are that term. -/
theorem result_eq (c : Dev nD) : W6 m ρ c (Proc.devRef .tc main_v76) = result m c := by
  refine (W6_arr m ρ c 10).trans ((final_out m ρ c).trans ?_)
  rw [agg_eq m ρ c]
  unfold result
  rw [Cert.RefRows.v139_eq]
  exact Cert.RefRows.tailArr_eq _ _ _ _ _ _ _ _ _ _

/-- Every weakly fair execution of the idealized kernel terminates with the result buffer at the reference's term of the
    arguments, the arguments unchanged. -/
theorem run_value : θ_run defs (onTc (τ := τ) (main (F := Ideal))) ⟨m, fun _ => 0, ρ⟩ (fun r => ∀ c : Dev nD,
      r.2.mem ((c.tc : Thread nD τ).loc main_v76) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  (θ_run defs _ _).mono (fun r h c => ⟨(h c).1.trans (result_eq m ρ c), (h c).2⟩) (run_result m ρ)

end Cert.KernelIdeal.RunValue

end
-- ==== Proof.lean ====
/-
  The certificate of a graph-transformer layer: a tiled kernel against its plain reference, over the extended reals.

  The layer normalises every node's 128 features, projects them to queries, keys and values, runs edge attention with a
  global-maximum softmax and scatter-adds the weighted values per destination node, then applies the output projection,
  a residual, a second normalisation and a feed-forward block with a second residual. The kernel computes the two
  row-wise stages in tiles of 2000 rows and leaves the edge stage to the host; the reference does everything on the
  host. Row by row the two tiled stages are the reference's (a lane sum is a sum, a product into a zero tile is the plain
  contraction, a change of float format is the identity); the edge stages differ by a recast that commutes with the
  row gather and by a multiplication by 0.25 against a division by 4.0, equal on every extended real. No step uses
  finiteness of the inputs. The three frames are the generated ones; the idealization rewrote nothing.
-/
import proofs.«150281_j48009144434784_1_alg».proof.Defs
import proofs.«150281_j48009144434784_1_alg».proof.Proof.Gen.Kernel
import proofs.«150281_j48009144434784_1_alg».proof.Proof.Gen.Kernel.Skeleton
import proofs.«150281_j48009144434784_1_alg».proof.Proof.Gen.Kernel.Launch
import proofs.«150281_j48009144434784_1_alg».proof.Proof.Gen.Kernel.Points
import proofs.«150281_j48009144434784_1_alg».proof.Proof.Gen.Kernel.Frame
import proofs.«150281_j48009144434784_1_alg».proof.Proof.Gen.KernelIdeal
import proofs.«150281_j48009144434784_1_alg».proof.Proof.Gen.KernelIdeal.Skeleton
import proofs.«150281_j48009144434784_1_alg».proof.Proof.Gen.KernelIdeal.Launch
import proofs.«150281_j48009144434784_1_alg».proof.Proof.Gen.KernelIdeal.Points
import proofs.«150281_j48009144434784_1_alg».proof.Proof.Gen.KernelIdeal.Frame
import proofs.«150281_j48009144434784_1_alg».proof.Proof.Gen.ReferenceIdeal
import proofs.«150281_j48009144434784_1_alg».proof.Proof.Gen.ReferenceIdeal.Run
import proofs.«150281_j48009144434784_1_alg».proof.Proof.Gen.ReferenceIdeal.Read
import proofs.«150281_j48009144434784_1_alg».proof.Proof.Gen.Pre_finite_inputs
import proofs.«150281_j48009144434784_1_alg».proof.Proof.KernelFinal
import Idealize.ShloMosaic.Adequacy
import Idealize.ShloMosaic.Init

set_option maxRecDepth 16384

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both idealized programs end with the result at the reference's term of the arguments, which agree. -/
theorem algebraic : Cert.algebraic_KernelIdeal_ReferenceIdeal := by
  intro m ρ m' ρ' _ hagree
  refine ⟨fun c => Cert.KernelIdeal.RunValue.result m c, Cert.KernelIdeal.RunValue.run_value m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12, h13, h14, h15, h16, h17, h18, h19⟩ := hagree c
  rw [Cert.ReferenceIdeal.Read.val_main_v139_eq, h0, h1, h2, h3, h4, h5, h6, h7, h8, h9, h10, h11, h12, h13, h14, h15, h16, h17, h18, h19]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
